-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S600000 : Shape := ⟨1, ![600000]⟩
abbrev S2x100000 : Shape := ⟨2, ![2, 100000]⟩
abbrev S1x128 : Shape := ⟨2, ![1, 128]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg17 : FVec F S64 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg14 : FVec F S64x128 .f32) (main_arg15 : FVec F S64 .f32) (main_arg16 : FVec F S64x128 .f32) (main_arg17 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S64x128 .f32 := Host.absf main_arg14
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg16
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg17 main_v63 main_v67

def fn_part2 {F : FTy → Type} [FloatOps F] (main_arg10 : FVec F S128x64 .f32) (main_arg11 : FVec F S128x128 .f32) (main_arg12 : FVec F S128 .f32) (main_arg13 : FVec F S128x128 .f32) (main_arg14 : FVec F S64x128 .f32) (main_arg15 : FVec F S64 .f32) (main_arg16 : FVec F S64x128 .f32) (main_arg17 : FVec F S64 .f32) (main_v33 : IVec S_ 1) : IVec S_ 1 :=
  let main_v34 : FVec F S128x64 .f32 := Host.absf main_arg10
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_v48 main_v49 main_v50

def fn_part1 {F : FTy → Type} [FloatOps F] (main_arg7 : FVec F S128x128 .f32) (main_arg8 : FVec F S128x128 .f32) (main_arg9 : FVec F S128 .f32) (main_arg10 : FVec F S128x64 .f32) (main_arg11 : FVec F S128x128 .f32) (main_arg12 : FVec F S128 .f32) (main_arg13 : FVec F S128x128 .f32) (main_arg14 : FVec F S64x128 .f32) (main_arg15 : FVec F S64 .f32) (main_arg16 : FVec F S64x128 .f32) (main_arg17 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S20000x64 .f32) (main_arg1 : IVec S600000 32) (main_arg2 : IVec S600000 32) (main_arg3 : IVec S2x100000 32) (main_arg4 : FVec F S1x128 .f32) (main_arg5 : FVec F S128x64 .f32) (main_arg6 : FVec F S128 .f32) (main_arg7 : FVec F S128x128 .f32) (main_arg8 : FVec F S128x128 .f32) (main_arg9 : FVec F S128 .f32) (main_arg10 : FVec F S128x64 .f32) (main_arg11 : FVec F S128x128 .f32) (main_arg12 : FVec F S128 .f32) (main_arg13 : FVec F S128x128 .f32) (main_arg14 : FVec F S64x128 .f32) (main_arg15 : FVec F S64 .f32) (main_arg16 : FVec F S64x128 .f32) (main_arg17 : FVec F S64 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S1x128 .f32 := Host.absf main_arg4
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S20000x64 : Shape := ⟨2, ![20000, 64]⟩
abbrev S600000 : Shape := ⟨1, ![600000]⟩
abbrev S2x100000 : Shape := ⟨2, ![2, 100000]⟩
abbrev S1x128 : Shape := ⟨2, ![1, 128]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S_ : Shape := ⟨0, ![]⟩
abbrev S600000x1 : Shape := ⟨2, ![600000, 1]⟩
abbrev S600000x64 : Shape := ⟨2, ![600000, 64]⟩
abbrev S100000x64 : Shape := ⟨2, ![100000, 64]⟩
abbrev S100000 : Shape := ⟨1, ![100000]⟩
abbrev S100000x1 : Shape := ⟨2, ![100000, 1]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S600000x128 : Shape := ⟨2, ![600000, 128]⟩
abbrev S20000x128 : Shape := ⟨2, ![20000, 128]⟩
abbrev S20000 : Shape := ⟨1, ![20000]⟩
abbrev S20000x1 : Shape := ⟨2, ![20000, 1]⟩
abbrev S1x64 : Shape := ⟨2, ![1, 64]⟩
abbrev S120000x64 : Shape := ⟨2, ![120000, 64]⟩
abbrev S1x100000 : Shape := ⟨2, ![1, 100000]⟩

abbrev nBuf : Space → Nat
  | .hbm => 101
  | .vmem => 36
  | .smem => 0
  | _ => 0

abbrev bufTy : (tb : Table) → Fin (tcTables nBuf tb) → BufTy
  | .hbm, ⟨0, _⟩ => ⟨S20000x64, .f32⟩
  | .hbm, ⟨1, _⟩ => ⟨S600000, .i32⟩
  | .hbm, ⟨2, _⟩ => ⟨S600000, .i32⟩
  | .hbm, ⟨3, _⟩ => ⟨S2x100000, .i32⟩
  | .hbm, ⟨4, _⟩ => ⟨S1x128, .f32⟩
  | .hbm, ⟨5, _⟩ => ⟨S128x64, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S64x128, .f32⟩
  | .hbm, ⟨15, _⟩ => ⟨S64, .f32⟩
  | .hbm, ⟨16, _⟩ => ⟨S64x128, .f32⟩
  | .hbm, ⟨17, _⟩ => ⟨S64, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x64, .f32⟩
  | .hbm, ⟨27, _⟩ => ⟨S_, .f32⟩
  | .hbm, ⟨28, _⟩ => ⟨S100000x64, .f32⟩
  | .hbm, ⟨29, _⟩ => ⟨S600000x1, .i32⟩
  | .hbm, ⟨30, _⟩ => ⟨S100000x64, .f32⟩
  | .hbm, ⟨31, _⟩ => ⟨S_, .f32⟩
  | .hbm, ⟨32, _⟩ => ⟨S600000, .f32⟩
  | .hbm, ⟨33, _⟩ => ⟨S_, .f32⟩
  | .hbm, ⟨34, _⟩ => ⟨S100000, .f32⟩
  | .hbm, ⟨35, _⟩ => ⟨S600000x1, .i32⟩
  | .hbm, ⟨36, _⟩ => ⟨S100000, .f32⟩
  | .hbm, ⟨37, _⟩ => ⟨S100000x1, .f32⟩
  | .hbm, ⟨38, _⟩ => ⟨S1x128, .f32⟩
  | .hbm, ⟨39, _⟩ => ⟨S128x128, .f32⟩
  | .hbm, ⟨40, _⟩ => ⟨S1x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S_, .f32⟩
  | .hbm, ⟨53, _⟩ => ⟨S20000x128, .f32⟩
  | .hbm, ⟨54, _⟩ => ⟨S600000x1, .i32⟩
  | .hbm, ⟨55, _⟩ => ⟨S20000x128, .f32⟩
  | .hbm, ⟨56, _⟩ => ⟨S_, .f32⟩
  | .hbm, ⟨57, _⟩ => ⟨S600000, .f32⟩
  | .hbm, ⟨58, _⟩ => ⟨S_, .f32⟩
  | .hbm, ⟨59, _⟩ => ⟨S20000, .f32⟩
  | .hbm, ⟨60, _⟩ => ⟨S600000x1, .i32⟩
  | .hbm, ⟨61, _⟩ => ⟨S20000, .f32⟩
  | .hbm, ⟨62, _⟩ => ⟨S20000x1, .f32⟩
  | .hbm, ⟨63, _⟩ => ⟨S1x128, .f32⟩
  | .hbm, ⟨64, _⟩ => ⟨S1x64, .f32⟩
  | .hbm, ⟨65, _⟩ => ⟨S20000x128, .f32⟩
  | .hbm, ⟨66, _⟩ => ⟨S20000x64, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S_, .f32⟩
  | .hbm, ⟨77, _⟩ => ⟨S100000x128, .f32⟩
  | .hbm, ⟨78, _⟩ => ⟨S600000x1, .i32⟩
  | .hbm, ⟨79, _⟩ => ⟨S100000x128, .f32⟩
  | .hbm, ⟨80, _⟩ => ⟨S_, .f32⟩
  | .hbm, ⟨81, _⟩ => ⟨S600000, .f32⟩
  | .hbm, ⟨82, _⟩ => ⟨S_, .f32⟩
  | .hbm, ⟨83, _⟩ => ⟨S100000, .f32⟩
  | .hbm, ⟨84, _⟩ => ⟨S600000x1, .i32⟩
  | .hbm, ⟨85, _⟩ => ⟨S100000, .f32⟩
  | .hbm, ⟨86, _⟩ => ⟨S100000x1, .f32⟩
  | .hbm, ⟨87, _⟩ => ⟨S1x128, .f32⟩
  | .hbm, ⟨88, _⟩ => ⟨S1x64, .f32⟩
  | .hbm, ⟨89, _⟩ => ⟨S100000x64, .f32⟩
  | .hbm, ⟨90, _⟩ => ⟨S120000x64, .f32⟩
  | .hbm, ⟨91, _⟩ => ⟨S1x100000, .i32⟩
  | .hbm, ⟨92, _⟩ => ⟨S100000, .i32⟩
  | .hbm, ⟨93, _⟩ => ⟨S1x100000, .i32⟩
  | .hbm, ⟨94, _⟩ => ⟨S100000, .i32⟩
  | .hbm, ⟨95, _⟩ => ⟨S_, .i32⟩
  | .hbm, ⟨96, _⟩ => ⟨S100000, .i32⟩
  | .hbm, ⟨97, _⟩ => ⟨S100000, .i32⟩
  | .hbm, ⟨98, _⟩ => ⟨S1x100000, .i32⟩
  | .hbm, ⟨99, _⟩ => ⟨S1x100000, .i32⟩
  | .hbm, ⟨100, _⟩ => ⟨S2x100000, .i32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | .local _ .vmem, ⟨14, _⟩ => ⟨S128x128, .f32⟩
  | .local _ .vmem, ⟨15, _⟩ => ⟨S1x128, .f32⟩
  | .local _ .vmem, ⟨16, _⟩ => ⟨S128x64, .f32⟩
  | .local _ .vmem, ⟨17, _⟩ => ⟨S64x128, .f32⟩
  | .local _ .vmem, ⟨18, _⟩ => ⟨S1x64, .f32⟩
  | .local _ .vmem, ⟨19, _⟩ => ⟨S5000x128, .f32⟩
  | .local _ .vmem, ⟨20, _⟩ => ⟨S5000x128, .f32⟩
  | .local _ .vmem, ⟨21, _⟩ => ⟨S5000x64, .f32⟩
  | .local _ .vmem, ⟨22, _⟩ => ⟨S5000x64, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S64x128, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37_0 : Ref sig .tc := ⟨.hbm, 65, rfl⟩
abbrev main_v37_1 : Ref sig .tc := ⟨.hbm, 66, rfl⟩
abbrev main_c_8 : Ref sig .tc := ⟨.hbm, 67, rfl⟩
abbrev main_v38 : Ref sig .tc := ⟨.hbm, 68, rfl⟩
abbrev main_v39 : Ref sig .tc := ⟨.hbm, 69, rfl⟩
abbrev main_c_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_cst_12 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev cc1_sem9_0 : DmaSem sig := 21
abbrev cc1_sem9_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  bcast_S128_S1x128_1 : S128.BroadcastsInDim S1x128 (![1] : Fin 1 → Fin S1x128.rank)
  transposes_S128x128_S128x128_1_0 : S128x128.Transposes [1, 0] S128x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S20000x128 : S_.BroadcastsInDim S20000x128 (![] : Fin 0 → Fin S20000x128.rank)
  bcast_S_S20000 : S_.BroadcastsInDim S20000 (![] : Fin 0 → Fin S20000.rank)
  shapeCasts_S20000_S20000x1 : S20000.ShapeCasts S20000x1
  bcast_S64_S1x64_1 : S64.BroadcastsInDim S1x64 (![1] : Fin 1 → Fin S1x64.rank)
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S100000x128 : S_.BroadcastsInDim S100000x128 (![] : Fin 0 → Fin S100000x128.rank)
  concatenates_S100000x64_S20000x64_S120000x64_d0 : Shape.Concatenates [S100000x64, S20000x64] S120000x64 0
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S100000_S1x100000_1 : S100000.BroadcastsInDim S1x100000 (![1] : Fin 1 → Fin S1x100000.rank)
  concatenates_S1x100000_S1x100000_S2x100000_d0 : Shape.Concatenates [S1x100000, S1x100000] S2x100000 0
  gather_S20000x64_S600000x1_S600000x64_1_0_n_n_0_1_164_wf : GatherDims.WF S20000x64 S600000x1 S600000x64 [1] [0] [] [0] [] 1 ![1, 64]
  scatter_S100000x64_S600000x1_S600000x64_1_0_0_1_wf : ScatterDims.WF S100000x64 S600000x1 S600000x64 [1] [0] [0] 1
  scatter_S100000_S600000x1_S600000_n_0_0_1_wf : ScatterDims.WF S100000 S600000x1 S600000 [] [0] [0] 1
  dot_S1x128_S128x128_S1x128_1_0_0_1_n_n_wf : DotDims.WF S1x128 S128x128 S1x128 [1] [0] [0] [1] [] []
  dot_S5000x64_S64x128_S5000x128_1_0_0_1_n_n_wf : DotDims.WF S5000x64 S64x128 S5000x128 [1] [0] [0] [1] [] []
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  scatter_S20000_S600000x1_S600000_n_0_0_1_wf : ScatterDims.WF S20000 S600000x1 S600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S20000x1.size a
  hwx1_1 : ∀ i : grid1.Coords, EltTy.bits .f32 = 32 ∨ (Rect.block (s := S20000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S20000x64.size a
  hwx1_2 : ∀ i : grid1.Coords, EltTy.bits .f32 = 32 ∨ (Rect.block (s := S20000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S20000x128.size a
  hwx1_8 : ∀ i : grid1.Coords, EltTy.bits .f32 = 32 ∨ (Rect.block (s := S20000x128) S5000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S20000x64.size a
  hwx1_9 : ∀ i : grid1.Coords, EltTy.bits .f32 = 32 ∨ (Rect.block (s := S20000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x128.size a ≤ S64x128.size a
  hwx2_6 : ∀ i : grid2.Coords, EltTy.bits .f32 = 32 ∨ (Rect.block (s := S64x128) S64x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S100000x64.size a
  hwx2_8 : ∀ i : grid2.Coords, EltTy.bits .f32 = 32 ∨ (Rect.block (s := S100000x64) S5000x64.size (cc2_transform_8 i) (hinb2_8 i)).WholeWords (EltTy.packing .f32)

variable [Facts₀]

def gather_S20000x64_S600000x1_S600000x64_1_0_n_n_0_1_164 : GatherDims S20000x64 S600000x1 S600000x64 where
  offsetDims := [1]
  collapsedSliceDims := [0]
  operandBatchingDims := []
  startIndicesBatchingDims := []
  startIndexMap := [0]
  indexVectorDim := 1
  sliceSizes := ![1, 64]
  wf := gather_S20000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_v9) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37_0) S5000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v37_1) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S64x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v55) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S20000x64 : Shape := ⟨2, ![20000, 64]⟩
abbrev S600000 : Shape := ⟨1, ![600000]⟩
abbrev S2x100000 : Shape := ⟨2, ![2, 100000]⟩
abbrev S1x128 : Shape := ⟨2, ![1, 128]⟩
abbrev S128x64 : Shape := ⟨2, ![128, 64]⟩
abbrev S128 : Shape := ⟨1, ![128]⟩
abbrev S128x128 : Shape := ⟨2, ![128, 128]⟩
abbrev S64x128 : Shape := ⟨2, ![64, 128]⟩
abbrev S64 : Shape := ⟨1, ![64]⟩
abbrev S100000x128 : Shape := ⟨2, ![100000, 128]⟩
abbrev S_ : Shape := ⟨0, ![]⟩
abbrev S600000x1 : Shape := ⟨2, ![600000, 1]⟩
abbrev S600000x64 : Shape := ⟨2, ![600000, 64]⟩
abbrev S100000x64 : Shape := ⟨2, ![100000, 64]⟩
abbrev S100000 : Shape := ⟨1, ![100000]⟩
abbrev S100000x1 : Shape := ⟨2, ![100000, 1]⟩
abbrev S600000x128 : Shape := ⟨2, ![600000, 128]⟩
abbrev S20000x128 : Shape := ⟨2, ![20000, 128]⟩
abbrev S20000 : Shape := ⟨1, ![20000]⟩
abbrev S20000x1 : Shape := ⟨2, ![20000, 1]⟩
abbrev S1x64 : Shape := ⟨2, ![1, 64]⟩
abbrev S120000x64 : Shape := ⟨2, ![120000, 64]⟩
abbrev S1x100000 : Shape := ⟨2, ![1, 100000]⟩

abbrev nBuf : Space → Nat
  | .hbm => 148
  | .vmem => 0
  | .smem => 0
  | _ => 0

abbrev hbmTy0_0 (i : Nat) : BufTy := match i % 128 with
  | 0 => ⟨S20000x64, .f32⟩
  | 1 => ⟨S600000, .i32⟩
  | 2 => ⟨S600000, .i32⟩
  | 3 => ⟨S2x100000, .i32⟩
  | 4 => ⟨S1x128, .f32⟩
  | 5 => ⟨S128x64, .f32⟩
  | 6 => ⟨S128, .f32⟩
  | 7 => ⟨S128x128, .f32⟩
  | 8 => ⟨S128x128, .f32⟩
  | 9 => ⟨S128, .f32⟩
  | 10 => ⟨S128x64, .f32⟩
  | 11 => ⟨S128x128, .f32⟩
  | 12 => ⟨S128, .f32⟩
  | 13 => ⟨S128x128, .f32⟩
  | 14 => ⟨S64x128, .f32⟩
  | 15 => ⟨S64, .f32⟩
  | 16 => ⟨S64x128, .f32⟩
  | 17 => ⟨S64, .f32⟩
  | 18 => ⟨S100000x128, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x64, .f32⟩
  | 28 => ⟨S_, .f32⟩
  | 29 => ⟨S100000x64, .f32⟩
  | 30 => ⟨S600000x1, .i32⟩
  | 31 => ⟨S100000x64, .f32⟩
  | 32 => ⟨S_, .f32⟩
  | 33 => ⟨S600000, .f32⟩
  | 34 => ⟨S_, .f32⟩
  | 35 => ⟨S100000, .f32⟩
  | 36 => ⟨S600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S100000x64, .f32⟩
  | 44 => ⟨S64x128, .f32⟩
  | 45 => ⟨S100000x128, .f32⟩
  | 46 => ⟨S1x128, .f32⟩
  | 47 => ⟨S100000x128, .f32⟩
  | 48 => ⟨S100000x128, .f32⟩
  | 49 => ⟨S128x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S_, .f32⟩
  | 65 => ⟨S20000x128, .f32⟩
  | 66 => ⟨S600000x1, .i32⟩
  | 67 => ⟨S20000x128, .f32⟩
  | 68 => ⟨S_, .f32⟩
  | 69 => ⟨S600000, .f32⟩
  | 70 => ⟨S_, .f32⟩
  | 71 => ⟨S20000, .f32⟩
  | 72 => ⟨S600000x1, .i32⟩
  | 73 => ⟨S20000, .f32⟩
  | 74 => ⟨S_, .f32⟩
  | 75 => ⟨S20000, .f32⟩
  | 76 => ⟨S20000, .f32⟩
  | 77 => ⟨S20000x1, .f32⟩
  | 78 => ⟨S20000x128, .f32⟩
  | 79 => ⟨S20000x128, .f32⟩
  | 80 => ⟨S128x128, .f32⟩
  | 81 => ⟨S20000x128, .f32⟩
  | 82 => ⟨S1x128, .f32⟩
  | 83 => ⟨S20000x128, .f32⟩
  | 84 => ⟨S20000x128, .f32⟩
  | 85 => ⟨S64x128, .f32⟩
  | 86 => ⟨S20000x128, .f32⟩
  | 87 => ⟨S20000x128, .f32⟩
  | 88 => ⟨S_, .f32⟩
  | 89 => ⟨S20000x128, .f32⟩
  | 90 => ⟨S20000x128, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S_, .f32⟩
  | 101 => ⟨S100000x128, .f32⟩
  | 102 => ⟨S600000x1, .i32⟩
  | 103 => ⟨S100000x128, .f32⟩
  | 104 => ⟨S_, .f32⟩
  | 105 => ⟨S600000, .f32⟩
  | 106 => ⟨S_, .f32⟩
  | 107 => ⟨S100000, .f32⟩
  | 108 => ⟨S600000x1, .i32⟩
  | 109 => ⟨S100000, .f32⟩
  | 110 => ⟨S_, .f32⟩
  | 111 => ⟨S100000, .f32⟩
  | 112 => ⟨S100000, .f32⟩
  | 113 => ⟨S100000x1, .f32⟩
  | 114 => ⟨S100000x128, .f32⟩
  | 115 => ⟨S100000x128, .f32⟩
  | 116 => ⟨S128x128, .f32⟩
  | 117 => ⟨S100000x128, .f32⟩
  | 118 => ⟨S1x128, .f32⟩
  | 119 => ⟨S100000x128, .f32⟩
  | 120 => ⟨S100000x128, .f32⟩
  | 121 => ⟨S128x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S128x64, .f32⟩
  | _ => ⟨S20000x64, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S128x64, .f32⟩
  | 5 => ⟨S20000x64, .f32⟩
  | 6 => ⟨S1x64, .f32⟩
  | 7 => ⟨S20000x64, .f32⟩
  | 8 => ⟨S20000x64, .f32⟩
  | 9 => ⟨S120000x64, .f32⟩
  | 10 => ⟨S1x100000, .i32⟩
  | 11 => ⟨S100000, .i32⟩
  | 12 => ⟨S1x100000, .i32⟩
  | 13 => ⟨S100000, .i32⟩
  | 14 => ⟨S_, .i32⟩
  | 15 => ⟨S100000, .i32⟩
  | 16 => ⟨S100000, .i32⟩
  | 17 => ⟨S1x100000, .i32⟩
  | 18 => ⟨S1x100000, .i32⟩
  | 19 => ⟨S2x100000, .i32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call0_cst : Ref sig .tc := ⟨.hbm, 52, rfl⟩
abbrev main_call0_v0 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_c_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call1_cst : Ref sig .tc := ⟨.hbm, 88, rfl⟩
abbrev main_call1_v0 : Ref sig .tc := ⟨.hbm, 89, rfl⟩
abbrev main_v56 : Ref sig .tc := ⟨.hbm, 90, rfl⟩
abbrev main_c_10 : Ref sig .tc := ⟨.hbm, 91, rfl⟩
abbrev main_v57 : Ref sig .tc := ⟨.hbm, 92, rfl⟩
abbrev main_v58 : Ref sig .tc := ⟨.hbm, 93, rfl⟩
abbrev main_c_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_13 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_15 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_call2_cst : Ref sig .tc := ⟨.hbm, 124, rfl⟩
abbrev main_call2_v0 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_16 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩

abbrev nD : Nat := 1
abbrev τ : Topo := Topo.v7x

variable {F : FTy → Type} [FloatOps F]

class Facts₀ : Prop where
  bcast_S1x128_S100000x128_0_1 : S1x128.BroadcastsInDim S100000x128 (![0, 1] : Fin 2 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  transposes_S128x128_S128x128_1_0 : S128x128.Transposes [1, 0] S128x128
  bcast_S_S100000x128 : S_.BroadcastsInDim S100000x128 (![] : Fin 0 → Fin S100000x128.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S20000x64_0_1 : S1x64.BroadcastsInDim S20000x64 (![0, 1] : Fin 2 → Fin S20000x64.rank)
  concatenates_S100000x64_S20000x64_S120000x64_d0 : Shape.Concatenates [S100000x64, S20000x64] S120000x64 0
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S100000_S1x100000_1 : S100000.BroadcastsInDim S1x100000 (![1] : Fin 1 → Fin S1x100000.rank)
  concatenates_S1x100000_S1x100000_S2x100000_d0 : Shape.Concatenates [S1x100000, S1x100000] S2x100000 0
  gather_S20000x64_S600000x1_S600000x64_1_0_n_n_0_1_164_wf : GatherDims.WF S20000x64 S600000x1 S600000x64 [1] [0] [] [0] [] 1 ![1, 64]
  scatter_S100000x64_S600000x1_S600000x64_1_0_0_1_wf : ScatterDims.WF S100000x64 S600000x1 S600000x64 [1] [0] [0] 1
  scatter_S100000_S600000x1_S600000_n_0_0_1_wf : ScatterDims.WF S100000 S600000x1 S600000 [] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  scatter_S20000_S600000x1_S600000_n_0_0_1_wf : ScatterDims.WF S20000 S600000x1 S600000 [] [0] [0] 1
  dot_S20000x128_S128x128_S20000x128_1_0_0_1_n_n_wf : DotDims.WF S20000x128 S128x128 S20000x128 [1] [0] [0] [1] [] []
  dot_S20000x64_S64x128_S20000x128_1_0_0_1_n_n_wf : DotDims.WF S20000x64 S64x128 S20000x128 [1] [0] [0] [1] [] []
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x64_S100000x64_1_0_0_1_n_n_wf : DotDims.WF S100000x128 S128x64 S100000x64 [1] [0] [0] [1] [] []
  dot_S20000x128_S128x64_S20000x64_1_0_0_1_n_n_wf : DotDims.WF S20000x128 S128x64 S20000x64 [1] [0] [0] [1] [] []

variable [Facts₀]

def gather_S20000x64_S600000x1_S600000x64_1_0_n_n_0_1_164 : GatherDims S20000x64 S600000x1 S600000x64 where
  offsetDims := [1]
  collapsedSliceDims := [0]
  operandBatchingDims := []
  startIndicesBatchingDims := []
  startIndexMap := [0]
  indexVectorDim := 1
  sliceSizes := ![1, 64]
  wf := gather_S20000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf

class Facts : Prop extends Facts₀ where

variable [Facts]
-- ==== Proof.KernelRun.lean ====
/-
  The idealized kernel program's run with every buffer named. The program is three pipelined regions among stretches of
  host operations; its run is the chain of those segments, and at the end every buffer that is not a region's staging
  buffer holds the last boundary's contents: the fold of the host operations and of the regions' write-backs from
  the launch memory. This is the run the frame is read from, kept with the whole final valuation instead of the
  arguments only.
-/
import proofs.«159673_j64854006170165_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.RunAll

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«159673_j64854006170165_1_alg».proof.Proof.LibMatmulRows
import proofs.«159673_j64854006170165_1_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«159673_j64854006170165_1_alg».proof.Proof.LibMatmulRows
import proofs.«159673_j64854006170165_1_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«159673_j64854006170165_1_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.LibSageLayers.lean ====
/-
  GENERAL LEMMAS: a mean-aggregating graph layer on extended reals, as functions of whole matrices; nothing here mentions a program and
  every extent is arbitrary.

  For a matrix a of aggregated neighbour features and a matrix x of node features (R rows, K columns), two weight
  matrices Wl, Wr (K rows, N columns) and a bias b (length N), the pre-activation at (p, q) is
      (sum over k of a(p, k) * Wl(k, q)  +  sum over k of x(p, k) * Wr(k, q))  +  b(q).
  The rectified layer takes the larger of that and zero. The log-softmax layer subtracts from every entry of a row the
  row's maximum m and then the logarithm of the row's sum of exp(entry - m).

  Two facts are proved for each layer.
  * ROW-LOCALITY: row p of the result depends only on row p of a and of x, so the layer applied to a block of consecutive
    rows is that block of rows of the layer applied to the whole matrices.
  * THE SPELLINGS: the matrix unit's two products into zero accumulators, added, plus the bias cast to one row and laid
    along the rows; and the host's first product plus the bias broadcast twice, plus the second product. The two differ
    by the order of three summands, and addition of extended reals is commutative and associative, so no entry needs to
    be finite.
-/
import Idealize.ShloMosaic.PureOps.Ideal
import Idealize.ShloMosaic.PureOps.Ideal.Laws
import Idealize.ShloMosaic.Lib.ValueIdx
import proofs.«159673_j64854006170165_1_alg».proof.Proof.LibMatmulRows
import proofs.«159673_j64854006170165_1_alg».proof.Proof.LibBiasRows
import proofs.«159673_j64854006170165_1_alg».proof.Proof.LibLayout
import proofs.«159673_j64854006170165_1_alg».proof.Proof.LibLaneMax

noncomputable section

namespace Cert.Sage

open Idealize.ShloMosaic Idealize.ShloMosaic.ValueIdx
open scoped BigOperators

/-- A matrix of R rows and C columns of extended reals. -/
abbrev Mat (R C : ℕ) := (⟨2, ![R, C]⟩ : Shape).Idx → EReal
/-- A vector of N extended reals. -/
abbrev Vc (N : ℕ) := (⟨1, ![N]⟩ : Shape).Idx → EReal

/-- The pre-activation at (p, q): row p of a against column q of Wl, plus row p of x against column q of Wr, plus b(q). -/
def preAt {R K N : ℕ} (a x : Mat R K) (Wl : Mat K N) (b : Vc N) (Wr : Mat K N) (p : Fin R) (q : Fin N) : EReal :=
  ((∑ k : Fin K, a (ix2 p k) * Wl (ix2 k q)) + ∑ k : Fin K, x (ix2 p k) * Wr (ix2 k q)) + b (ix1 q)

/-- The rectified layer: the larger of the pre-activation and the single-precision zero. -/
def reluLayer {R K N : ℕ} (a x : Mat R K) (Wl : Mat K N) (b : Vc N) (Wr : Mat K N) : Mat R N :=
  fun i => max (preAt a x Wl b Wr (i 0) (i 1)) (Ideal.ofBits .f32 0x00000000#32)

/-- The maximum of a row, folded from the single-precision word of minus infinity. -/
def rowMax {N : ℕ} (z : Fin N → EReal) : EReal :=
  (Finset.univ : Finset (Fin N)).fold max (Ideal.ofBits .f32 0xFF800000#32) z

/-- Log-softmax of a row z at position q: (z q - m) - log (sum over q' of exp (z q' - m)), m the row's maximum. -/
def lsmAt {N : ℕ} (z : Fin N → EReal) (q : Fin N) : EReal :=
  (z q - rowMax z) - Ideal.log (∑ q' : Fin N, Ideal.exp (z q' - rowMax z))

/-- The log-softmax layer: log-softmax of each row of pre-activations. -/
def lsmLayer {R K N : ℕ} (a x : Mat R K) (Wl : Mat K N) (b : Vc N) (Wr : Mat K N) : Mat R N :=
  fun i => lsmAt (fun q => preAt a x Wl b Wr (i 0) q) (i 1)

/-! ## Row-locality -/

/-- The pre-activation of row p of (a, x) is that of row p' of (a', x') when the rows agree. -/
theorem preAt_congr {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : preAt a x Wl b Wr p q = preAt a' x' Wl b Wr p' q := by
  unfold preAt
  have e1 : ∀ k : Fin K, a (ix2 p k) * Wl (ix2 k q) = a' (ix2 p' k) * Wl (ix2 k q) := fun k => by rw [ha k]
  have e2 : ∀ k : Fin K, x (ix2 p k) * Wr (ix2 k q) = x' (ix2 p' k) * Wr (ix2 k q) := fun k => by rw [hx k]
  rw [Finset.sum_congr rfl fun k _ => e1 k, Finset.sum_congr rfl fun k _ => e2 k]

/-- The rectified layer on matrices whose rows p and p' agree: the same row of results. -/
theorem reluLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : reluLayer a x Wl b Wr (ix2 p q) = reluLayer a' x' Wl b Wr (ix2 p' q) := by
  show max (preAt a x Wl b Wr p q) _ = max (preAt a' x' Wl b Wr p' q) _
  rw [preAt_congr a x a' x' Wl b Wr p p' ha hx q]

/-- The log-softmax layer on matrices whose rows p and p' agree: the same row of results. -/
theorem lsmLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : lsmLayer a x Wl b Wr (ix2 p q) = lsmLayer a' x' Wl b Wr (ix2 p' q) := by
  show lsmAt (fun q => preAt a x Wl b Wr p q) q = lsmAt (fun q => preAt a' x' Wl b Wr p' q) q
  rw [show (fun q => preAt a x Wl b Wr p q) = fun q => preAt a' x' Wl b Wr p' q from
    funext fun c => preAt_congr a x a' x' Wl b Wr p p' ha hx c]

/-! ## The matrix unit's spelling -/

/-- Two products into zero accumulators, added, plus the bias cast to one row and laid along the rows, read at (p, q). -/
theorem pre_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ φ₃ φ₄ : FTy} (a : FVec Ideal ⟨2, ![R, K]⟩ φ₁) (x : FVec Ideal ⟨2, ![R, K]⟩ φ₂)
    (Wl : FVec Ideal ⟨2, ![K, N]⟩ φ₃) (Wr : FVec Ideal ⟨2, ![K, N]⟩ φ₄) (b : FVec Ideal ⟨1, ![N]⟩ .f32) (p : Fin R) (q : Fin N) :
    addf (addf (matmul d none a Wl (constant (F := Ideal) ⟨2, ![R, N]⟩ .f32 0x00000000#32))
        (matmul d none x Wr (constant (F := Ideal) ⟨2, ![R, N]⟩ .f32 0x00000000#32)))
      (broadcastTo ⟨2, ![R, N]⟩ (shapeCast ⟨2, ![1, N]⟩ b hc) hb) (ix2 p q) = preAt a x Wl b Wr p q := by
  show matmul d none a Wl (constant (F := Ideal) ⟨2, ![R, N]⟩ .f32 0x00000000#32) (ix2 p q)
      + matmul d none x Wr (constant (F := Ideal) ⟨2, ![R, N]⟩ .f32 0x00000000#32) (ix2 p q)
      + broadcastTo ⟨2, ![R, N]⟩ (shapeCast ⟨2, ![1, N]⟩ b hc) hb (ix2 p q) = preAt a x Wl b Wr p q
  rw [Cert.LibMatmulRows.matmul_rows d hrank hsize hl0 hl1 hr0 hr1 a Wl p q,
    Cert.LibMatmulRows.matmul_rows d hrank hsize hl0 hl1 hr0 hr1 x Wr p q, Cert.LibBiasRows.bias_rows b hc hb p q]
  rfl

/-- A row's maximum subtracted, then the logarithm of the row's sum of exponentials subtracted — the reductions over the
    lane axis, their results cast to a column and laid back over the lanes — read at (p, q). -/
theorem lsm_of_lanes {R N : ℕ} (z : FVec Ideal ⟨2, ![R, N]⟩ .f32)
    (hred : Shape.Reduces ⟨2, ![R, N]⟩ [1] ⟨1, ![R]⟩) (hc1 : (⟨1, ![R]⟩ : Shape).ShapeCasts ⟨2, ![R, 1]⟩)
    (hb1 : (⟨2, ![R, 1]⟩ : Shape).Broadcasts ⟨2, ![R, N]⟩) (hφ : FKind.Formats .f32)
    (hmax : (0xFF800000#32 : BitVec 32) = FKind.maximumf.neutral .f32 hφ)
    (hadd : (0x00000000#32 : BitVec 32) = FKind.add.neutral .f32 hφ) (p : Fin R) (q : Fin N) :
    subf (subf z (broadcastTo ⟨2, ![R, N]⟩ (shapeCast ⟨2, ![R, 1]⟩
            (multiReduction .maximumf [1] ⟨1, ![R]⟩ z 0xFF800000#32 hred hφ hmax) hc1) hb1))
      (broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1) (ix2 p q)
      = lsmAt (fun q' => z (ix2 p q')) q := by
  have hM : ∀ c : Fin N, broadcastTo ⟨2, ![R, N]⟩ (shapeCast ⟨2, ![R, 1]⟩
      (multiReduction .maximumf [1] ⟨1, ![R]⟩ z 0xFF800000#32 hred hφ hmax) hc1) hb1 (ix2 p c)
      = rowMax (fun q' => z (ix2 p q')) := fun c => by
    rw [Cert.LibLayout.broadcastTo_a1_ab_apply, Cert.LibLayout.shapeCast_a_a1_apply, Cert.LibLaneMax.laneMax_apply]
    rfl
  show (z (ix2 p q) - broadcastTo ⟨2, ![R, N]⟩ (shapeCast ⟨2, ![R, 1]⟩
      (multiReduction .maximumf [1] ⟨1, ![R]⟩ z 0xFF800000#32 hred hφ hmax) hc1) hb1 (ix2 p q))
    - broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1 (ix2 p q) = _
  rw [hM q, Cert.LibLayout.broadcastTo_a1_ab_apply]
  show _ - Ideal.log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1 (ix2 p (0 : Fin 1))) = _
  rw [Cert.LibLayout.shapeCast_a_a1_apply, Cert.LibLayout.laneSum_apply]
  unfold lsmAt
  refine congrArg (fun s => (z (ix2 p q) - rowMax fun q' => z (ix2 p q')) - Ideal.log s) ?_
  refine Finset.sum_congr rfl fun k _ => ?_
  show Ideal.exp (z (ix2 p k) - broadcastTo ⟨2, ![R, N]⟩ (shapeCast ⟨2, ![R, 1]⟩
      (multiReduction .maximumf [1] ⟨1, ![R]⟩ z 0xFF800000#32 hred hφ hmax) hc1) hb1 (ix2 p k)) = _
  rw [hM k]

/-! ## The host's spelling -/

/-- The host's first product plus the bias broadcast twice, plus the second product, read at (p, q): the same three
    summands in another order. -/
theorem pre_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (a x : FVec Ideal ⟨2, ![R, K]⟩ .f32) (Wl Wr : FVec Ideal ⟨2, ![K, N]⟩ .f32) (b : FVec Ideal ⟨1, ![N]⟩ .f32)
    (p : Fin R) (q : Fin N) :
    addf (addf (Host.dotGeneral d none a Wl)
        (broadcastInDim ⟨2, ![R, N]⟩ ![0, 1] h2 (broadcastInDim ⟨2, ![1, N]⟩ ![1] h1 b)))
      (Host.dotGeneral d none x Wr) (ix2 p q) = preAt a x Wl b Wr p q := by
  show Host.dotGeneral d none a Wl (ix2 p q)
      + broadcastInDim ⟨2, ![R, N]⟩ ![0, 1] h2 (broadcastInDim ⟨2, ![1, N]⟩ ![1] h1 b) (ix2 p q)
      + Host.dotGeneral d none x Wr (ix2 p q) = preAt a x Wl b Wr p q
  rw [Cert.LibMatmulRows.hostdot_rows d hrank hsize hl0 hl1 hr0 hr1 a Wl p q,
    Cert.LibMatmulRows.hostdot_rows d hrank hsize hl0 hl1 hr0 hr1 x Wr p q, Cert.LibBiasRows.bias_host hN b h1 h2 p q]
  exact add_right_comm _ _ _

/-- A maximum with a value the fold starts from changes nothing: the fold is at least its starting value. -/
theorem max_start_rowMax {N : ℕ} (z : Fin N → EReal) :
    max (Ideal.ofBits .f32 0xFF800000#32) (rowMax z) = rowMax z :=
  max_eq_right ((Finset.le_fold_max _).mpr (Or.inl le_rfl))

end Cert.Sage

end
-- ==== Proof.LibMeanLayers.lean ====
/-
  GENERAL LEMMAS: the mean step of a mean-aggregating graph layer and a one-column classifier after such a layer, on
  extended reals; nothing here mentions a program and every extent is arbitrary.

  For a matrix s of summed neighbour features (R rows, K columns) and a count dg p per row, the mean matrix is
      meanOf s dg (p, k) = s(p, k) / max (dg p) 1
  with the exact division of extended reals and the single-precision word of 1. With the pre-activation
      preAt a x Wl b Wr (p, q) = (sum_k a(p, k) * Wl(k, q) + sum_k x(p, k) * Wr(k, q)) + b(q)
  the classifier score of row p against a one-column matrix wc and a scalar bc is
      scoreAt (p) = (sum_j preAt (p, j) * wc(j, 0)) + bc.

  Proved: row p of the mean, of the pre-activation of the mean and of the score depends only on row p of s and x and on
  dg p (so a block of consecutive rows computes that block of rows of the whole result); and the matrix unit's
  spellings read at an entry — the count column compared with 1, laid along the lanes and divided into s; two
  products into zero accumulators, added, plus a ONE-ROW bias block laid along the rows; a product of the
  pre-activations with a one-column matrix into zero plus a one-by-one block laid along the rows. No entry needs to be
  finite: every step is a congruence or the definition of a product as a sum.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«159673_j64854006170165_1_alg».proof.Proof.LibMatmulRows
import proofs.«159673_j64854006170165_1_alg».proof.Proof.LibLayout
import proofs.«159673_j64854006170165_1_alg».proof.Proof.LibSageLayers
import proofs.«159673_j64854006170165_1_alg».proof.Proof.LibRowBias

noncomputable section

namespace Cert.MeanLayers

open Idealize.ShloMosaic Idealize.ShloMosaic.ValueIdx Cert.Sage Cert.LibRowBias
open scoped BigOperators

/-- The single-precision word of 1, as an extended real. -/
abbrev oneW : EReal := Ideal.ofBits .f32 0x3F800000#32

/-- The mean matrix: s(p, k) divided by the larger of the row's count and 1. -/
def meanOf {R K : ℕ} (s : Mat R K) (dg : Fin R → EReal) : Mat R K :=
  fun i => Ideal.div (s i) (max (dg (i 0)) oneW)

theorem meanOf_apply {R K : ℕ} (s : Mat R K) (dg : Fin R → EReal) (p : Fin R) (k : Fin K) :
    meanOf s dg (ix2 p k) = Ideal.div (s (ix2 p k)) (max (dg p) oneW) := rfl

/-- Row p of the mean depends only on row p of s and on the count of row p. -/
theorem meanOf_row {R R' K : ℕ} (s : Mat R K) (s' : Mat R' K) (dg : Fin R → EReal) (dg' : Fin R' → EReal)
    (p : Fin R) (p' : Fin R') (hs : ∀ k : Fin K, s (ix2 p k) = s' (ix2 p' k)) (hd : dg p = dg' p') (k : Fin K) :
    meanOf s dg (ix2 p k) = meanOf s' dg' (ix2 p' k) := by
  rw [meanOf_apply, meanOf_apply, hs k, hd]

/-- The classifier score of row p: the row of pre-activations against the one column wc, plus bc. -/
def scoreAt {R K N : ℕ} (a x : Mat R K) (Wl : Mat K N) (b : Vc N) (Wr : Mat K N) (wc : Mat N 1) (bc : EReal)
    (p : Fin R) : EReal :=
  (∑ j : Fin N, preAt a x Wl b Wr p j * wc (ix2 j (0 : Fin 1))) + bc

/-- The scores as a column. -/
def scoreCol {R K N : ℕ} (a x : Mat R K) (Wl : Mat K N) (b : Vc N) (Wr : Mat K N) (wc : Mat N 1) (bc : EReal) :
    Mat R 1 := fun i => scoreAt a x Wl b Wr wc bc (i 0)

/-- The scores as a vector. -/
def scoreVec {R K N : ℕ} (a x : Mat R K) (Wl : Mat K N) (b : Vc N) (Wr : Mat K N) (wc : Mat N 1) (bc : EReal) :
    Vc R := fun i => scoreAt a x Wl b Wr wc bc (i 0)

theorem scoreCol_apply {R K N : ℕ} (a x : Mat R K) (Wl : Mat K N) (b : Vc N) (Wr : Mat K N) (wc : Mat N 1) (bc : EReal)
    (p : Fin R) (u : Fin 1) : scoreCol a x Wl b Wr wc bc (ix2 p u) = scoreAt a x Wl b Wr wc bc p := rfl

theorem scoreVec_apply {R K N : ℕ} (a x : Mat R K) (Wl : Mat K N) (b : Vc N) (Wr : Mat K N) (wc : Mat N 1) (bc : EReal)
    (p : Fin R) : scoreVec a x Wl b Wr wc bc (ix1 p) = scoreAt a x Wl b Wr wc bc p := rfl

/-- The score of row p depends only on rows p of a and x. -/
theorem scoreAt_row {R R' K N : ℕ} (a x : Mat R K) (a' x' : Mat R' K) (Wl : Mat K N) (b : Vc N) (Wr : Mat K N)
    (wc : Mat N 1) (bc : EReal) (p : Fin R) (p' : Fin R')
    (ha : ∀ k : Fin K, a (ix2 p k) = a' (ix2 p' k)) (hx : ∀ k : Fin K, x (ix2 p k) = x' (ix2 p' k)) :
    scoreAt a x Wl b Wr wc bc p = scoreAt a' x' Wl b Wr wc bc p' := by
  unfold scoreAt
  rw [Finset.sum_congr rfl fun j _ => by rw [preAt_congr a x a' x' Wl b Wr p p' ha hx j]]

/-! ## A block of rows against the whole matrices -/

/-- The rectified layer of the means at an entry j of one pair of matrices and at an entry i of another: equal when
    the columns agree and row (j 0) of the first pair is row (i 0) of the second (features, sums and count). -/
theorem reluLayer_mean_at {R R' K N : ℕ} (s x : Mat R K) (s' x' : Mat R' K) (dg : Fin R → EReal) (dg' : Fin R' → EReal)
    (Wl : Mat K N) (b : Vc N) (Wr : Mat K N) (j : (⟨2, ![R, N]⟩ : Shape).Idx) (i : (⟨2, ![R', N]⟩ : Shape).Idx)
    (hq : (i 1).val = (j 1).val)
    (hs : ∀ k : Fin K, s (ix2 (j 0) k) = s' (ix2 (i 0) k)) (hx : ∀ k : Fin K, x (ix2 (j 0) k) = x' (ix2 (i 0) k))
    (hd : dg (j 0) = dg' (i 0)) :
    reluLayer (meanOf s dg) x Wl b Wr j = reluLayer (meanOf s' dg') x' Wl b Wr i := by
  have hq' : (i 1 : Fin N) = j 1 := Fin.ext hq
  rw [eq_ix2 j, eq_ix2 i, hq']
  exact reluLayer_row _ _ _ _ Wl b Wr (j 0) (i 0) (fun k => meanOf_row s s' dg dg' (j 0) (i 0) hs hd k) hx (j 1)

/-- The score column at an entry j of one pair of matrices and at an entry i of another, when row (j 0) of the first
    pair is row (i 0) of the second. -/
theorem scoreCol_mean_at {R R' K N : ℕ} (s x : Mat R K) (s' x' : Mat R' K) (dg : Fin R → EReal) (dg' : Fin R' → EReal)
    (Wl : Mat K N) (b : Vc N) (Wr : Mat K N) (wc : Mat N 1) (bc : EReal)
    (j : (⟨2, ![R, 1]⟩ : Shape).Idx) (i : (⟨2, ![R', 1]⟩ : Shape).Idx)
    (hs : ∀ k : Fin K, s (ix2 (j 0) k) = s' (ix2 (i 0) k)) (hx : ∀ k : Fin K, x (ix2 (j 0) k) = x' (ix2 (i 0) k))
    (hd : dg (j 0) = dg' (i 0)) :
    scoreCol (meanOf s dg) x Wl b Wr wc bc j = scoreCol (meanOf s' dg') x' Wl b Wr wc bc i :=
  scoreAt_row _ _ _ _ Wl b Wr wc bc (j 0) (i 0) (fun k => meanOf_row s s' dg dg' (j 0) (i 0) hs hd k) hx

/-! ## The matrix unit's spellings -/

/-- The count column compared with 1, laid along the lanes, divided into s: read at (p, k) it is the mean. -/
theorem mean_of_lanes {R K : ℕ} (s : FVec Ideal ⟨2, ![R, K]⟩ .f32) (dv : FVec Ideal ⟨2, ![R, 1]⟩ .f32)
    (hcs : (⟨2, ![R, K]⟩ : Shape).ShapeCasts ⟨2, ![R, K]⟩) (hc : (⟨2, ![R, 1]⟩ : Shape).ShapeCasts ⟨2, ![R, 1]⟩)
    (hb : (⟨2, ![R, 1]⟩ : Shape).Broadcasts ⟨2, ![R, K]⟩) (p : Fin R) (k : Fin K) :
    divf (shapeCast ⟨2, ![R, K]⟩ s hcs)
        (broadcastTo ⟨2, ![R, K]⟩ (maximumf (shapeCast ⟨2, ![R, 1]⟩ dv hc)
          (broadcast ⟨2, ![R, 1]⟩ (Scalar.ofBits (F := Ideal) .f32 0x3F800000#32))) hb) (ix2 p k)
      = meanOf s (fun r => dv (ix2 r (0 : Fin 1))) (ix2 p k) := by
  show Ideal.div (shapeCast ⟨2, ![R, K]⟩ s hcs (ix2 p k))
      (broadcastTo ⟨2, ![R, K]⟩ (maximumf (shapeCast ⟨2, ![R, 1]⟩ dv hc)
          (broadcast ⟨2, ![R, 1]⟩ (Scalar.ofBits (F := Ideal) .f32 0x3F800000#32))) hb (ix2 p k)) = _
  rw [shapeCast_self, Cert.LibLayout.broadcastTo_a1_ab_apply]
  show Ideal.div (s (ix2 p k)) (max (shapeCast ⟨2, ![R, 1]⟩ dv hc (ix2 p (0 : Fin 1))) oneW) = _
  rw [shapeCast_self]
  rfl

/-- Two products into zero accumulators, added, plus a one-row bias block laid along the rows, read at (p, q). -/
theorem pre_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ φ₃ φ₄ : FTy} (a : FVec Ideal ⟨2, ![R, K]⟩ φ₁) (x : FVec Ideal ⟨2, ![R, K]⟩ φ₂)
    (Wl : FVec Ideal ⟨2, ![K, N]⟩ φ₃) (Wr : FVec Ideal ⟨2, ![K, N]⟩ φ₄) (B : FVec Ideal ⟨2, ![1, N]⟩ .f32)
    (p : Fin R) (q : Fin N) :
    addf (addf (matmul d none a Wl (constant (F := Ideal) ⟨2, ![R, N]⟩ .f32 0x00000000#32))
        (matmul d none x Wr (constant (F := Ideal) ⟨2, ![R, N]⟩ .f32 0x00000000#32)))
      (broadcastTo ⟨2, ![R, N]⟩ (shapeCast ⟨2, ![1, N]⟩ B hc) hb) (ix2 p q) = preAt a x Wl (rowOf B) Wr p q := by
  show matmul d none a Wl (constant (F := Ideal) ⟨2, ![R, N]⟩ .f32 0x00000000#32) (ix2 p q)
      + matmul d none x Wr (constant (F := Ideal) ⟨2, ![R, N]⟩ .f32 0x00000000#32) (ix2 p q)
      + broadcastTo ⟨2, ![R, N]⟩ (shapeCast ⟨2, ![1, N]⟩ B hc) hb (ix2 p q) = preAt a x Wl (rowOf B) Wr p q
  rw [Cert.LibMatmulRows.matmul_rows d hrank hsize hl0 hl1 hr0 hr1 a Wl p q,
    Cert.LibMatmulRows.matmul_rows d hrank hsize hl0 hl1 hr0 hr1 x Wr p q, bias_block B hc hb p q]
  rfl

/-- A matrix z against a one-column matrix into a zero accumulator, plus a one-by-one block laid along the rows, read
    at (p, 0): the row of z against the column, plus the block's entry. -/
theorem score_of_matmul {R N : ℕ} (d : DotDims ⟨2, ![R, N]⟩ ⟨2, ![N, 1]⟩ ⟨2, ![R, 1]⟩)
    (hrank : d.contr.rank = 1) (hsize : d.contr.size ⟨0, by omega⟩ = N)
    (hl0 : ∀ (i : (⟨2, ![R, 1]⟩ : Shape).Idx) (s : d.contr.Idx), (d.lhsIdx i s 0).val = (i 0).val)
    (hl1 : ∀ (i : (⟨2, ![R, 1]⟩ : Shape).Idx) (s : d.contr.Idx), (d.lhsIdx i s 1).val = (s ⟨0, by omega⟩).val)
    (hr0 : ∀ (i : (⟨2, ![R, 1]⟩ : Shape).Idx) (s : d.contr.Idx), (d.rhsIdx i s 0).val = (s ⟨0, by omega⟩).val)
    (hr1 : ∀ (i : (⟨2, ![R, 1]⟩ : Shape).Idx) (s : d.contr.Idx), (d.rhsIdx i s 1).val = (i 1).val)
    (hc : (⟨2, ![1, 1]⟩ : Shape).ShapeCasts ⟨2, ![1, 1]⟩) (hb : (⟨2, ![1, 1]⟩ : Shape).Broadcasts ⟨2, ![R, 1]⟩)
    {φ₁ φ₂ : FTy} (z : FVec Ideal ⟨2, ![R, N]⟩ φ₁) (wc : FVec Ideal ⟨2, ![N, 1]⟩ φ₂) (C : FVec Ideal ⟨2, ![1, 1]⟩ .f32)
    (p : Fin R) :
    addf (matmul d none z wc (constant (F := Ideal) ⟨2, ![R, 1]⟩ .f32 0x00000000#32))
      (broadcastTo ⟨2, ![R, 1]⟩ (shapeCast ⟨2, ![1, 1]⟩ C hc) hb) (ix2 p (0 : Fin 1))
      = (∑ j : Fin N, z (ix2 p j) * wc (ix2 j (0 : Fin 1))) + C (ix2 (0 : Fin 1) (0 : Fin 1)) := by
  show matmul d none z wc (constant (F := Ideal) ⟨2, ![R, 1]⟩ .f32 0x00000000#32) (ix2 p (0 : Fin 1))
      + broadcastTo ⟨2, ![R, 1]⟩ (shapeCast ⟨2, ![1, 1]⟩ C hc) hb (ix2 p (0 : Fin 1)) = _
  rw [Cert.LibMatmulRows.matmul_rows d hrank hsize hl0 hl1 hr0 hr1 z wc p (0 : Fin 1), bias_block C hc hb p (0 : Fin 1)]

end Cert.MeanLayers

end
-- ==== Proof.LibGraphConv.lean ====
/-
  GENERAL LEMMAS: the three dense stages of a two-layer graph convolution with mean pooling and a three-layer classifier, as
  functions on extended reals; nothing here mentions a program and every extent is arbitrary.

  For a matrix a of R rows and a degree d p per row, scaleRows a d multiplies row p by 1 / sqrt (d p).
  With affine h W b (p, q) = sum_k h(p, k) * W(k, q) + b(q) and the rectifier max(., 0):
    conv2 agg din W b      = rectifier (affine (scaleRows agg din) W b)
    conv1 agg din dout W b = scaleRows (conv2 agg din W b) dout
    meanRows s cnt (p, k)  = s(p, k) / max (cnt p) 1
    head s cnt W1 b1 W2 b2 W3 b3 = affine (rectifier (affine (rectifier (affine (meanRows s cnt) W1 b1)) W2 b2)) W3 b3.
  Row p of each result depends only on row p of the row-indexed inputs (ROW-LOCALITY), so a block of consecutive rows
  computes that block of rows of the whole result. Also here: the matrix unit's spelling of a row scaling and of the
  mean, read at an entry. No law of extended-real arithmetic is used beyond congruence, so no entry has to be finite.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«159673_j64854006170165_1_alg».proof.Proof.LibMatmulRows
import proofs.«159673_j64854006170165_1_alg».proof.Proof.LibBiasRows
import proofs.«159673_j64854006170165_1_alg».proof.Proof.LibDenseLayers
import proofs.«159673_j64854006170165_1_alg».proof.Proof.LibRowBias
import proofs.«159673_j64854006170165_1_alg».proof.Proof.LibLayout

noncomputable section

namespace Cert.GraphSpec

open Idealize.ShloMosaic Idealize.ShloMosaic.ValueIdx Cert.LibDenseLayers Cert.LibRowBias
open scoped BigOperators

/-- A matrix of R rows and K columns of extended reals. -/
abbrev Mat (R K : ℕ) := (⟨2, ![R, K]⟩ : Shape).Idx → EReal
/-- A vector of N extended reals. -/
abbrev Vc (N : ℕ) := (⟨1, ![N]⟩ : Shape).Idx → EReal

/-- The single-precision word of 1, as an extended real. -/
abbrev oneW : EReal := Ideal.ofBits .f32 0x3F800000#32

/-- Every row p multiplied by the reciprocal square root of the row's degree d p. -/
def scaleRows {R K : ℕ} (a : Mat R K) (d : Fin R → EReal) : Mat R K :=
  fun i => a i * Ideal.rsqrt (d (i 0))

theorem scaleRows_apply {R K : ℕ} (a : Mat R K) (d : Fin R → EReal) (p : Fin R) (k : Fin K) :
    scaleRows a d (ix2 p k) = a (ix2 p k) * Ideal.rsqrt (d p) := rfl

/-- The second graph convolution's dense stage: the aggregate scaled by the in-degrees, an affine layer, the rectifier. -/
def conv2 {R K N : ℕ} (agg : Mat R K) (din : Fin R → EReal) (W : Mat K N) (b : Vc N) : Mat R N :=
  stage1 (scaleRows agg din) W b

/-- The first graph convolution's dense stage: the same, then scaled by the out-degrees for the next layer. -/
def conv1 {R K N : ℕ} (agg : Mat R K) (din dout : Fin R → EReal) (W : Mat K N) (b : Vc N) : Mat R N :=
  scaleRows (conv2 agg din W b) dout

/-- The mean over a group: the group's sum divided by the larger of its count and 1. -/
def meanRows {R K : ℕ} (s : Mat R K) (cnt : Fin R → EReal) : Mat R K :=
  fun i => Ideal.div (s i) (max (cnt (i 0)) oneW)

theorem meanRows_apply {R K : ℕ} (s : Mat R K) (cnt : Fin R → EReal) (p : Fin R) (k : Fin K) :
    meanRows s cnt (ix2 p k) = Ideal.div (s (ix2 p k)) (max (cnt p) oneW) := rfl

/-- The classifier on the group means: two rectified affine layers and a last affine layer of one column. -/
def head {R K N M : ℕ} (s : Mat R K) (cnt : Fin R → EReal) (W1 : Mat K N) (b1 : Vc N) (W2 : Mat N M) (b2 : Vc M)
    (W3 : Mat M 1) (b3 : Vc 1) : Mat R 1 :=
  affine (stage1 (stage1 (meanRows s cnt) W1 b1) W2 b2) W3 b3

/-! ## Row-locality -/

/-- Row p of conv2 depends only on row p of the aggregate and on the in-degree of row p. -/
theorem conv2_row {R R' K N : ℕ} (agg : Mat R K) (agg' : Mat R' K) (din : Fin R → EReal) (din' : Fin R' → EReal)
    (W : Mat K N) (b : Vc N) (p : Fin R) (p' : Fin R')
    (ha : ∀ k : Fin K, agg (ix2 p k) = agg' (ix2 p' k)) (hd : din p = din' p') (q : Fin N) :
    conv2 agg din W b (ix2 p q) = conv2 agg' din' W b (ix2 p' q) :=
  stage1_row _ _ W b p p' (fun k => by rw [scaleRows_apply, scaleRows_apply, ha k, hd]) q

/-- Row p of conv1 depends only on row p of the aggregate and on the two degrees of row p. -/
theorem conv1_row {R R' K N : ℕ} (agg : Mat R K) (agg' : Mat R' K) (din dout : Fin R → EReal) (din' dout' : Fin R' → EReal)
    (W : Mat K N) (b : Vc N) (p : Fin R) (p' : Fin R')
    (ha : ∀ k : Fin K, agg (ix2 p k) = agg' (ix2 p' k)) (hd : din p = din' p') (ho : dout p = dout' p') (q : Fin N) :
    conv1 agg din dout W b (ix2 p q) = conv1 agg' din' dout' W b (ix2 p' q) := by
  show conv2 agg din W b (ix2 p q) * Ideal.rsqrt (dout p) = conv2 agg' din' W b (ix2 p' q) * Ideal.rsqrt (dout' p')
  rw [conv2_row agg agg' din din' W b p p' ha hd q, ho]

/-- The same with the weights and the bias replaced by equal ones. -/
theorem conv2_blk {R R' K N : ℕ} (agg : Mat R K) (agg' : Mat R' K) (din : Fin R → EReal) (din' : Fin R' → EReal)
    (W W' : Mat K N) (b b' : Vc N) (hW : W = W') (hb : b = b') (p : Fin R) (p' : Fin R')
    (ha : ∀ k : Fin K, agg (ix2 p k) = agg' (ix2 p' k)) (hd : din p = din' p') (q : Fin N) :
    conv2 agg din W b (ix2 p q) = conv2 agg' din' W' b' (ix2 p' q) := by
  subst hW; subst hb
  exact conv2_row agg agg' din din' W b p p' ha hd q

/-- The same for the first convolution. -/
theorem conv1_blk {R R' K N : ℕ} (agg : Mat R K) (agg' : Mat R' K) (din dout : Fin R → EReal) (din' dout' : Fin R' → EReal)
    (W W' : Mat K N) (b b' : Vc N) (hW : W = W') (hb : b = b') (p : Fin R) (p' : Fin R')
    (ha : ∀ k : Fin K, agg (ix2 p k) = agg' (ix2 p' k)) (hd : din p = din' p') (ho : dout p = dout' p') (q : Fin N) :
    conv1 agg din dout W b (ix2 p q) = conv1 agg' din' dout' W' b' (ix2 p' q) := by
  subst hW; subst hb
  exact conv1_row agg agg' din dout din' dout' W b p p' ha hd ho q

/-! ## The matrix unit's spellings of the row operations -/

/-- A matrix times the reciprocal square root of a degree column laid along the lanes, read at (p, k). -/
theorem scaled_of_lanes {R K : ℕ} (a : FVec Ideal ⟨2, ![R, K]⟩ .f32) (dv : FVec Ideal ⟨2, ![R, 1]⟩ .f32)
    (hca : (⟨2, ![R, K]⟩ : Shape).ShapeCasts ⟨2, ![R, K]⟩) (hcd : (⟨2, ![R, 1]⟩ : Shape).ShapeCasts ⟨2, ![R, 1]⟩)
    (hb : (⟨2, ![R, 1]⟩ : Shape).Broadcasts ⟨2, ![R, K]⟩) (p : Fin R) (k : Fin K) :
    mulf (shapeCast ⟨2, ![R, K]⟩ a hca) (broadcastTo ⟨2, ![R, K]⟩ (rsqrt (shapeCast ⟨2, ![R, 1]⟩ dv hcd)) hb) (ix2 p k)
      = scaleRows a (fun r => dv (ix2 r (0 : Fin 1))) (ix2 p k) := by
  show shapeCast ⟨2, ![R, K]⟩ a hca (ix2 p k)
      * broadcastTo ⟨2, ![R, K]⟩ (rsqrt (shapeCast ⟨2, ![R, 1]⟩ dv hcd)) hb (ix2 p k) = _
  rw [shapeCast_self, Cert.LibLayout.broadcastTo_a1_ab_apply]
  show a (ix2 p k) * Ideal.rsqrt (shapeCast ⟨2, ![R, 1]⟩ dv hcd (ix2 p (0 : Fin 1))) = _
  rw [shapeCast_self]
  rfl

/-- A degree column's reciprocal square root laid along the lanes, read at (p, q). -/
theorem rsqrt_lane {R N : ℕ} (dv : FVec Ideal ⟨2, ![R, 1]⟩ .f32)
    (hcd : (⟨2, ![R, 1]⟩ : Shape).ShapeCasts ⟨2, ![R, 1]⟩) (hb : (⟨2, ![R, 1]⟩ : Shape).Broadcasts ⟨2, ![R, N]⟩)
    (p : Fin R) (q : Fin N) :
    broadcastTo ⟨2, ![R, N]⟩ (rsqrt (shapeCast ⟨2, ![R, 1]⟩ dv hcd)) hb (ix2 p q) = Ideal.rsqrt (dv (ix2 p (0 : Fin 1))) := by
  rw [Cert.LibLayout.broadcastTo_a1_ab_apply]
  show Ideal.rsqrt (shapeCast ⟨2, ![R, 1]⟩ dv hcd (ix2 p (0 : Fin 1))) = _
  rw [shapeCast_self]

/-- A sum matrix divided by its count column, compared with 1 and laid along the lanes, read at (p, k): the mean. -/
theorem mean_of_lanes {R K : ℕ} (s : FVec Ideal ⟨2, ![R, K]⟩ .f32) (dv : FVec Ideal ⟨2, ![R, 1]⟩ .f32)
    (hcs : (⟨2, ![R, K]⟩ : Shape).ShapeCasts ⟨2, ![R, K]⟩) (hc : (⟨2, ![R, 1]⟩ : Shape).ShapeCasts ⟨2, ![R, 1]⟩)
    (hb : (⟨2, ![R, 1]⟩ : Shape).Broadcasts ⟨2, ![R, K]⟩) (p : Fin R) (k : Fin K) :
    divf (shapeCast ⟨2, ![R, K]⟩ s hcs)
        (broadcastTo ⟨2, ![R, K]⟩ (maximumf (shapeCast ⟨2, ![R, 1]⟩ dv hc)
          (broadcast ⟨2, ![R, 1]⟩ (Scalar.ofBits (F := Ideal) .f32 0x3F800000#32))) hb) (ix2 p k)
      = meanRows s (fun r => dv (ix2 r (0 : Fin 1))) (ix2 p k) := by
  show Ideal.div (shapeCast ⟨2, ![R, K]⟩ s hcs (ix2 p k))
      (broadcastTo ⟨2, ![R, K]⟩ (maximumf (shapeCast ⟨2, ![R, 1]⟩ dv hc)
          (broadcast ⟨2, ![R, 1]⟩ (Scalar.ofBits (F := Ideal) .f32 0x3F800000#32))) hb (ix2 p k)) = _
  rw [shapeCast_self, Cert.LibLayout.broadcastTo_a1_ab_apply]
  show Ideal.div (s (ix2 p k)) (max (shapeCast ⟨2, ![R, 1]⟩ dv hc (ix2 p (0 : Fin 1))) oneW) = _
  rw [shapeCast_self]
  rfl

end Cert.GraphSpec

end
-- ==== Proof.LibHostDense.lean ====
/-
  GENERAL LEMMAS: the host's spellings of the dense stages, read as whole-array functions on extended reals; nothing here mentions a
  program and every extent is arbitrary.

  A vector of R row statistics laid out as a column [R, 1] and then along the lanes reads, at (p, k), the vector at p;
  a scalar broadcast to every entry reads the scalar; a bias vector of ANY length broadcast to one row and along the
  rows reads the bias at the column. With these, x * rsqrt(d)[:, None] is scaleRows, a dot_general plus bias is the affine
  layer, max(., 0) is the rectifier, s / max(1, cnt)[:, None] is the mean (max is symmetric), and so the host's lines for
  a graph convolution's dense stage and for the classifier are conv2, conv1 and head. No entry needs to be finite.
-/
import proofs.«159673_j64854006170165_1_alg».proof.Proof.LibGraphConv

noncomputable section

namespace Cert.HostSpell

open Idealize.ShloMosaic Idealize.ShloMosaic.ValueIdx Cert.LibDenseLayers Cert.GraphSpec
open scoped BigOperators

variable {α : Type}

/-- A vector laid out as a column and then along K lanes reads, at (p, k), the vector at p. -/
theorem col_host {R K : ℕ} (v : (⟨1, ![R]⟩ : Shape).Idx → α)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2)) (p : Fin R) (k : Fin K) :
    broadcastInDim ⟨2, ![R, K]⟩ ![0, 1] h2 (broadcastInDim ⟨2, ![R, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if R = 1 then 0 else p.val
      split
      · have := p.isLt; omega
      · rfl
    | ⟨1, _⟩ => show (0 : ℕ) = if (1 : ℕ) = 1 then 0 else k.val; rw [if_pos rfl]
  · match a with
    | ⟨0, _⟩ =>
      show p.val = if R = 1 then 0 else p.val
      split
      · have := p.isLt; omega
      · rfl

/-- A scalar broadcast to every entry of an array reads the scalar. -/
theorem splat_host {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A bias vector of any length broadcast to one row and then along R rows reads, at (r, c), the bias at c. -/
theorem bias_any {R n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

section Stages

variable {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2))
    (hc1 : (⟨1, ![R]⟩ : Shape).BroadcastsInDim ⟨2, ![R, 1]⟩ (![0] : Fin 1 → Fin 2))
    (hcK : (⟨2, ![R, 1]⟩ : Shape).BroadcastsInDim ⟨2, ![R, K]⟩ (![0, 1] : Fin 2 → Fin 2))
    (hcN : (⟨2, ![R, 1]⟩ : Shape).BroadcastsInDim ⟨2, ![R, N]⟩ (![0, 1] : Fin 2 → Fin 2))

include hrank hsize hl0 hl1 hr0 hr1 in
/-- The host's dot_general plus a bias of any length broadcast twice is the affine layer. -/
theorem affine_of_dot_any (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, bias_any b h1 h2 p q]
  rfl

/-- The host's max with a broadcast zero is the rectifier. -/
theorem relu_of_host (a : FVec Ideal ⟨2, ![R, N]⟩ .f32) :
    maximumf a (broadcastInDim ⟨2, ![R, N]⟩ ![] h0 (constant (F := Ideal) ⟨0, ![]⟩ .f32 0x00000000#32)) = relu a := by
  funext j
  show max (a j) (broadcastInDim ⟨2, ![R, N]⟩ ![] h0 (constant (F := Ideal) ⟨0, ![]⟩ .f32 0x00000000#32) j) = max (a j) _
  rw [splat_host]
  rfl

include hrank hsize hl0 hl1 hr0 hr1 in
/-- The host's rectified dot_general-plus-bias is the rectified affine layer. -/
theorem stage1_of_host (h : FVec Ideal ⟨2, ![R, K]⟩ .f32) (W : FVec Ideal ⟨2, ![K, N]⟩ .f32) (b : FVec Ideal ⟨1, ![N]⟩ .f32) :
    maximumf (addf (Host.dotGeneral d none h W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32)) = stage1 h W b := by
  rw [affine_of_dot_any d hrank hsize hl0 hl1 hr0 hr1 h1 h2 h W b, relu_of_host h0]
  rfl

/-- A matrix times the reciprocal square roots of a degree vector laid along the rows is scaleRows. -/
theorem scaled_of_host (a : FVec Ideal ⟨2, ![R, K]⟩ .f32) (dg : FVec Ideal ⟨1, ![R]⟩ .f32) :
    mulf a (broadcastInDim ⟨2, ![R, K]⟩ ![0, 1] hcK (broadcastInDim ⟨2, ![R, 1]⟩ ![0] hc1 (Host.rsqrt dg)))
      = scaleRows a (fun r => dg (ix1 r)) := by
  funext j
  obtain ⟨p, k, rfl⟩ : ∃ (p : Fin R) (k : Fin K), j = ix2 p k := ⟨j 0, j 1, eq_ix2 j⟩
  show a (ix2 p k) * broadcastInDim ⟨2, ![R, K]⟩ ![0, 1] hcK (broadcastInDim ⟨2, ![R, 1]⟩ ![0] hc1 (Host.rsqrt dg)) (ix2 p k) = _
  rw [col_host (Host.rsqrt dg) hc1 hcK p k]
  rfl

include hrank hsize hl0 hl1 hr0 hr1 in
/-- The host's lines of the second convolution's dense stage are conv2. -/
theorem conv2_of_host (agg : FVec Ideal ⟨2, ![R, K]⟩ .f32) (din : FVec Ideal ⟨1, ![R]⟩ .f32)
    (W : FVec Ideal ⟨2, ![K, N]⟩ .f32) (b : FVec Ideal ⟨1, ![N]⟩ .f32) :
    maximumf (addf (Host.dotGeneral d none
          (mulf agg (broadcastInDim ⟨2, ![R, K]⟩ ![0, 1] hcK (broadcastInDim ⟨2, ![R, 1]⟩ ![0] hc1 (Host.rsqrt din)))) W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32))
      = conv2 agg (fun r => din (ix1 r)) W b := by
  rw [scaled_of_host hc1 hcK agg din]
  exact stage1_of_host d hrank hsize hl0 hl1 hr0 hr1 h1 h2 h0 _ W b

include hrank hsize hl0 hl1 hr0 hr1 in
/-- The host's lines of the first convolution's dense stage are conv1. -/
theorem conv1_of_host (agg : FVec Ideal ⟨2, ![R, K]⟩ .f32) (din dout : FVec Ideal ⟨1, ![R]⟩ .f32)
    (W : FVec Ideal ⟨2, ![K, N]⟩ .f32) (b : FVec Ideal ⟨1, ![N]⟩ .f32) :
    mulf (maximumf (addf (Host.dotGeneral d none
          (mulf agg (broadcastInDim ⟨2, ![R, K]⟩ ![0, 1] hcK (broadcastInDim ⟨2, ![R, 1]⟩ ![0] hc1 (Host.rsqrt din)))) W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32)))
      (broadcastInDim ⟨2, ![R, N]⟩ ![0, 1] hcN (broadcastInDim ⟨2, ![R, 1]⟩ ![0] hc1 (Host.rsqrt dout)))
      = conv1 agg (fun r => din (ix1 r)) (fun r => dout (ix1 r)) W b := by
  rw [conv2_of_host d hrank hsize hl0 hl1 hr0 hr1 h1 h2 h0 hc1 hcK agg din W b]
  exact scaled_of_host hc1 hcN _ dout

/-- The sums divided by max(1, count) laid along the lanes are the means. -/
theorem mean_of_host (s : FVec Ideal ⟨2, ![R, K]⟩ .f32) (cnt : FVec Ideal ⟨1, ![R]⟩ .f32)
    (hs : (⟨0, ![]⟩ : Shape).BroadcastsInDim ⟨1, ![R]⟩ (![] : Fin 0 → Fin 1)) :
    Host.divf s (broadcastInDim ⟨2, ![R, K]⟩ ![0, 1] hcK (broadcastInDim ⟨2, ![R, 1]⟩ ![0] hc1
        (maximumf (broadcastInDim ⟨1, ![R]⟩ ![] hs (id (constant (F := Ideal) ⟨0, ![]⟩ .f32 0x3F800000#32))) cnt)))
      = meanRows s (fun r => cnt (ix1 r)) := by
  funext j
  obtain ⟨p, k, rfl⟩ : ∃ (p : Fin R) (k : Fin K), j = ix2 p k := ⟨j 0, j 1, eq_ix2 j⟩
  show Ideal.div (s (ix2 p k)) (broadcastInDim ⟨2, ![R, K]⟩ ![0, 1] hcK (broadcastInDim ⟨2, ![R, 1]⟩ ![0] hc1
        (maximumf (broadcastInDim ⟨1, ![R]⟩ ![] hs (constant (F := Ideal) ⟨0, ![]⟩ .f32 0x3F800000#32)) cnt)) (ix2 p k)) = _
  rw [col_host _ hc1 hcK p k]
  show Ideal.div (s (ix2 p k)) (max (broadcastInDim ⟨1, ![R]⟩ ![] hs (constant (F := Ideal) ⟨0, ![]⟩ .f32 0x3F800000#32) (ix1 p)) (cnt (ix1 p))) = _
  rw [splat_host, max_comm]
  rfl

end Stages

/-- max is symmetric on arrays of extended reals. -/
theorem maxf_comm {s : Shape} (a b : FVec Ideal s .f32) : maximumf a b = maximumf b a :=
  funext fun i => max_comm (a i) (b i)

end Cert.HostSpell

end
-- ==== Proof.LibSageTwo.lean ====
/-
  GENERAL LEMMAS: a mean-aggregating graph layer whose two products contract over DIFFERENT widths and whose weights are
  stored output-major, [N, K], as a linear layer keeps them; on extended reals, every extent arbitrary, no program mentioned.

  For a weight matrix W of N rows and K columns, dotT a W (p, q) = sum over k of a(p, k) * W(q, k) is row p of a against
  row q of W, the product a * W^T. With aggregated features a (R rows, Ka columns), node features x (R rows, Kx columns),
  weights Wl [N, Ka], Wr [N, Kx] and a bias b of length N the pre-activation is
      preT (p, q) = (dotT a Wl (p, q) + dotT x Wr (p, q)) + b(q),
  layer is its maximum with zero, and proj z W b (p, q) = dotT z W (p, q) + b(q) is a plain linear layer.
  layer1 a Wl B (p, q) = max (dotT a Wl (p, q) + B(0, q)) 0 is the same layer when the node features are one repeated row
  and the second product has been folded into a one-row bias B beforehand.

  Proved: each of them at row p depends only on row p of its operands; the folded form is the layer; and the spellings —
  the matrix unit's product of a narrowed operand with a narrowed, transposed weight into zero; the host's dot_general
  with a transposed weight; the bodies "mean, one or two products, one-row bias, maximum with zero" and "product plus
  one-row bias"; the host's lines "sums / max(count, 1) laid along the lanes, product, bias broadcast twice, second
  product, maximum with a broadcast zero". Only commutativity and associativity of the sum of three extended reals are
  used, so nothing needs to be finite.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«159673_j64854006170165_1_alg».proof.Proof.LibMatmulRows
import proofs.«159673_j64854006170165_1_alg».proof.Proof.LibRowBias
import proofs.«159673_j64854006170165_1_alg».proof.Proof.LibMeanLayers
import proofs.«159673_j64854006170165_1_alg».proof.Proof.LibHostDense

noncomputable section

namespace Cert.SageTwo

open Idealize.ShloMosaic Idealize.ShloMosaic.ValueIdx Cert.Sage Cert.LibRowBias Cert.MeanLayers
open scoped BigOperators

/-- The single-precision word of 0, as an extended real. -/
abbrev zeroW : EReal := Ideal.ofBits .f32 0x00000000#32

/-- Row p of a against row q of W: the entry (p, q) of a * W^T. -/
def dotT {R K N : ℕ} (a : Mat R K) (W : Mat N K) (p : Fin R) (q : Fin N) : EReal :=
  ∑ k : Fin K, a (ix2 p k) * W (ix2 q k)

theorem dotT_congr {R R' K N : ℕ} (a : Mat R K) (a' : Mat R' K) (W : Mat N K) (p : Fin R) (p' : Fin R')
    (h : ∀ k : Fin K, a (ix2 p k) = a' (ix2 p' k)) (q : Fin N) : dotT a W p q = dotT a' W p' q :=
  Finset.sum_congr rfl fun k _ => by rw [h k]

/-- The pre-activation at (p, q). -/
def preT {R Ka Kx N : ℕ} (a : Mat R Ka) (x : Mat R Kx) (Wl : Mat N Ka) (b : Vc N) (Wr : Mat N Kx) (p : Fin R) (q : Fin N) :
    EReal :=
  (dotT a Wl p q + dotT x Wr p q) + b (ix1 q)

/-- The rectified layer. -/
def layer {R Ka Kx N : ℕ} (a : Mat R Ka) (x : Mat R Kx) (Wl : Mat N Ka) (b : Vc N) (Wr : Mat N Kx) : Mat R N :=
  fun i => max (preT a x Wl b Wr (i 0) (i 1)) zeroW

/-- The rectified layer with the second product folded into a one-row bias. -/
def layer1 {R K N : ℕ} (a : Mat R K) (Wl : Mat N K) (B : Mat 1 N) : Mat R N :=
  fun i => max (dotT a Wl (i 0) (i 1) + B (ix2 (0 : Fin 1) (i 1))) zeroW

/-- A plain linear layer z * W^T + b. -/
def proj {R K N : ℕ} (z : Mat R K) (W : Mat N K) (b : Vc N) : Mat R N :=
  fun i => dotT z W (i 0) (i 1) + b (ix1 (i 1))

/-- The matrix of R copies of the one row of u. -/
def rep {R K : ℕ} (u : Mat 1 K) : Mat R K := fun i => u (ix2 (0 : Fin 1) (i 1))

theorem layer_apply {R Ka Kx N : ℕ} (a : Mat R Ka) (x : Mat R Kx) (Wl : Mat N Ka) (b : Vc N) (Wr : Mat N Kx)
    (p : Fin R) (q : Fin N) : layer a x Wl b Wr (ix2 p q) = max (preT a x Wl b Wr p q) zeroW := rfl

theorem layer1_apply {R K N : ℕ} (a : Mat R K) (Wl : Mat N K) (B : Mat 1 N) (p : Fin R) (q : Fin N) :
    layer1 a Wl B (ix2 p q) = max (dotT a Wl p q + B (ix2 (0 : Fin 1) q)) zeroW := rfl

theorem proj_apply {R K N : ℕ} (z : Mat R K) (W : Mat N K) (b : Vc N) (p : Fin R) (q : Fin N) :
    proj z W b (ix2 p q) = dotT z W p q + b (ix1 q) := rfl

/-! ## Row-locality -/

/-- Entry j of the layer of one set of matrices and entry i of the layer of another agree when the columns agree and
    row (j 0) of the first set is row (i 0) of the second. -/
theorem layer_at {R R' Ka Kx N : ℕ} (a : Mat R Ka) (x : Mat R Kx) (a' : Mat R' Ka) (x' : Mat R' Kx)
    (Wl : Mat N Ka) (b : Vc N) (Wr : Mat N Kx) (j : (⟨2, ![R, N]⟩ : Shape).Idx) (i : (⟨2, ![R', N]⟩ : Shape).Idx)
    (hq : (i 1).val = (j 1).val) (ha : ∀ k : Fin Ka, a (ix2 (j 0) k) = a' (ix2 (i 0) k))
    (hx : ∀ k : Fin Kx, x (ix2 (j 0) k) = x' (ix2 (i 0) k)) :
    layer a x Wl b Wr j = layer a' x' Wl b Wr i := by
  have hq' : (i 1 : Fin N) = j 1 := Fin.ext hq
  show max (preT a x Wl b Wr (j 0) (j 1)) zeroW = max (preT a' x' Wl b Wr (i 0) (i 1)) zeroW
  unfold preT
  rw [hq', dotT_congr a a' Wl (j 0) (i 0) ha (j 1), dotT_congr x x' Wr (j 0) (i 0) hx (j 1)]

theorem layer1_at {R R' K N : ℕ} (a : Mat R K) (a' : Mat R' K) (Wl : Mat N K) (B : Mat 1 N)
    (j : (⟨2, ![R, N]⟩ : Shape).Idx) (i : (⟨2, ![R', N]⟩ : Shape).Idx)
    (hq : (i 1).val = (j 1).val) (ha : ∀ k : Fin K, a (ix2 (j 0) k) = a' (ix2 (i 0) k)) :
    layer1 a Wl B j = layer1 a' Wl B i := by
  have hq' : (i 1 : Fin N) = j 1 := Fin.ext hq
  show max (dotT a Wl (j 0) (j 1) + B (ix2 (0 : Fin 1) (j 1))) zeroW = max (dotT a' Wl (i 0) (i 1) + B (ix2 (0 : Fin 1) (i 1))) zeroW
  rw [hq', dotT_congr a a' Wl (j 0) (i 0) ha (j 1)]

theorem proj_at {R R' K N : ℕ} (z : Mat R K) (z' : Mat R' K) (W : Mat N K) (b : Vc N)
    (j : (⟨2, ![R, N]⟩ : Shape).Idx) (i : (⟨2, ![R', N]⟩ : Shape).Idx)
    (hq : (i 1).val = (j 1).val) (hz : ∀ k : Fin K, z (ix2 (j 0) k) = z' (ix2 (i 0) k)) :
    proj z W b j = proj z' W b i := by
  have hq' : (i 1 : Fin N) = j 1 := Fin.ext hq
  show dotT z W (j 0) (j 1) + b (ix1 (j 1)) = dotT z' W (i 0) (i 1) + b (ix1 (i 1))
  rw [hq', dotT_congr z z' W (j 0) (i 0) hz (j 1)]

/-- The folded form is the layer: when B(0, q) = b(q) + (row of u against row q of Wr), the layer with the repeated row
    u as node features is the folded layer. Three summands in another grouping. -/
theorem layer1_eq_layer {R Ka Kx N : ℕ} (a : Mat R Ka) (u : Mat 1 Kx) (Wl : Mat N Ka) (b : Vc N) (Wr : Mat N Kx) (B : Mat 1 N)
    (hB : ∀ q : Fin N, B (ix2 (0 : Fin 1) q) = b (ix1 q) + dotT u Wr (0 : Fin 1) q) :
    layer1 a Wl B = layer a (rep (R := R) u) Wl b Wr := by
  funext i
  show max (dotT a Wl (i 0) (i 1) + B (ix2 (0 : Fin 1) (i 1))) zeroW = max (preT a (rep u) Wl b Wr (i 0) (i 1)) zeroW
  unfold preT
  rw [hB (i 1), show dotT (rep (R := R) u) Wr (i 0) (i 1) = dotT u Wr (0 : Fin 1) (i 1) from rfl]
  rw [add_comm (b (ix1 (i 1))) _, add_assoc]

/-! ## The products' spellings -/

section Dots
variable {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (ht : (⟨2, ![N, K]⟩ : Shape).Transposes [1, 0] ⟨2, ![K, N]⟩)

include hrank hsize hl0 hl1 hr0 hr1 in
/-- The matrix unit's product with a transposed weight into zero, read at (p, q). -/
theorem mxuT_apply {φ₁ φ₂ : FTy} (a : FVec Ideal ⟨2, ![R, K]⟩ φ₁) (W : FVec Ideal ⟨2, ![N, K]⟩ φ₂) (p : Fin R) (q : Fin N) :
    matmul d none a (transpose ⟨2, ![K, N]⟩ [1, 0] W ht) (constant (F := Ideal) ⟨2, ![R, N]⟩ .f32 0x00000000#32) (ix2 p q)
      = dotT a W p q := by
  rw [Cert.LibMatmulRows.matmul_rows d hrank hsize hl0 hl1 hr0 hr1 a _ p q]
  exact Finset.sum_congr rfl fun k _ => by rw [transpose_ix2_apply W ht k q]

include hrank hsize hl0 hl1 hr0 hr1 in
/-- The host's dot_general with a transposed weight, read at (p, q). -/
theorem hostT_apply (a : FVec Ideal ⟨2, ![R, K]⟩ .f32) (W : FVec Ideal ⟨2, ![N, K]⟩ .f32) (p : Fin R) (q : Fin N) :
    Host.dotGeneral d none a (transpose ⟨2, ![K, N]⟩ [1, 0] W ht) (ix2 p q) = dotT a W p q := by
  rw [Cert.LibMatmulRows.hostdot_rows d hrank hsize hl0 hl1 hr0 hr1 a _ p q]
  exact Finset.sum_congr rfl fun k _ => by rw [transpose_ix2_apply W ht k q]

end Dots

/-! ## The bodies' spellings -/

/-- The sums divided by the larger of the count column and 1 laid along the lanes, narrowed: the mean at (p, k). -/
theorem mean_narrowed {R K : ℕ} (s : FVec Ideal ⟨2, ![R, K]⟩ .f32) (dv : FVec Ideal ⟨2, ![R, 1]⟩ .f32)
    (hcs : (⟨2, ![R, K]⟩ : Shape).ShapeCasts ⟨2, ![R, K]⟩) (hc1 : (⟨2, ![R, 1]⟩ : Shape).ShapeCasts ⟨2, ![R, 1]⟩)
    (hb1 : (⟨2, ![R, 1]⟩ : Shape).Broadcasts ⟨2, ![R, K]⟩) (hlt : FTy.bits .bf16 < FTy.bits .f32) (p : Fin R) (k : Fin K) :
    (truncf .bf16 (divf (shapeCast ⟨2, ![R, K]⟩ s hcs)
            (broadcastTo ⟨2, ![R, K]⟩ (maximumf (shapeCast ⟨2, ![R, 1]⟩ dv hc1)
              (broadcast ⟨2, ![R, 1]⟩ (Scalar.ofBits (F := Ideal) .f32 0x3F800000#32))) hb1)) hlt) (ix2 p k) = meanOf s (fun r => dv (ix2 r (0 : Fin 1))) (ix2 p k) :=
  mean_of_lanes s dv hcs hc1 hb1 p k

/-- Mean, one product with a transposed weight into zero, a one-row bias laid along the rows, maximum with zero. -/
theorem body_one {R K N : ℕ} (d : DotDims ⟨2, ![R, K]⟩ ⟨2, ![K, N]⟩ ⟨2, ![R, N]⟩)
    (drank : d.contr.rank = 1) (dsize : d.contr.size ⟨0, by omega⟩ = K)
    (dl0 : ∀ (i : (⟨2, ![R, N]⟩ : Shape).Idx) (s : d.contr.Idx), (d.lhsIdx i s 0).val = (i 0).val)
    (dl1 : ∀ (i : (⟨2, ![R, N]⟩ : Shape).Idx) (s : d.contr.Idx), (d.lhsIdx i s 1).val = (s ⟨0, by omega⟩).val)
    (dr0 : ∀ (i : (⟨2, ![R, N]⟩ : Shape).Idx) (s : d.contr.Idx), (d.rhsIdx i s 0).val = (s ⟨0, by omega⟩).val)
    (dr1 : ∀ (i : (⟨2, ![R, N]⟩ : Shape).Idx) (s : d.contr.Idx), (d.rhsIdx i s 1).val = (i 1).val)
    (ht : (⟨2, ![N, K]⟩ : Shape).Transposes [1, 0] ⟨2, ![K, N]⟩)
    (hcs : (⟨2, ![R, K]⟩ : Shape).ShapeCasts ⟨2, ![R, K]⟩) (hc1 : (⟨2, ![R, 1]⟩ : Shape).ShapeCasts ⟨2, ![R, 1]⟩)
    (hb1 : (⟨2, ![R, 1]⟩ : Shape).Broadcasts ⟨2, ![R, K]⟩)
    (hcB : (⟨2, ![1, N]⟩ : Shape).ShapeCasts ⟨2, ![1, N]⟩) (hbB : (⟨2, ![1, N]⟩ : Shape).Broadcasts ⟨2, ![R, N]⟩)
    (hlt : FTy.bits .bf16 < FTy.bits .f32)
    (s : FVec Ideal ⟨2, ![R, K]⟩ .f32) (dv : FVec Ideal ⟨2, ![R, 1]⟩ .f32) (W : FVec Ideal ⟨2, ![N, K]⟩ .f32)
    (B : FVec Ideal ⟨2, ![1, N]⟩ .f32) (p : Fin R) (q : Fin N) :
    maximumf (addf (matmul d none (truncf .bf16 (divf (shapeCast ⟨2, ![R, K]⟩ s hcs)
            (broadcastTo ⟨2, ![R, K]⟩ (maximumf (shapeCast ⟨2, ![R, 1]⟩ dv hc1)
              (broadcast ⟨2, ![R, 1]⟩ (Scalar.ofBits (F := Ideal) .f32 0x3F800000#32))) hb1)) hlt)
          (transpose ⟨2, ![K, N]⟩ [1, 0] (truncf .bf16 W hlt) ht) (constant (F := Ideal) ⟨2, ![R, N]⟩ .f32 0x00000000#32))
        (broadcastTo ⟨2, ![R, N]⟩ (shapeCast ⟨2, ![1, N]⟩ B hcB) hbB))
      (broadcast ⟨2, ![R, N]⟩ (Scalar.ofBits (F := Ideal) .f32 0x00000000#32)) (ix2 p q)
      = layer1 (meanOf s (fun r => dv (ix2 r (0 : Fin 1)))) W B (ix2 p q) := by
  show max (matmul d none (truncf .bf16 (divf (shapeCast ⟨2, ![R, K]⟩ s hcs)
            (broadcastTo ⟨2, ![R, K]⟩ (maximumf (shapeCast ⟨2, ![R, 1]⟩ dv hc1)
              (broadcast ⟨2, ![R, 1]⟩ (Scalar.ofBits (F := Ideal) .f32 0x3F800000#32))) hb1)) hlt)
          (transpose ⟨2, ![K, N]⟩ [1, 0] (truncf .bf16 W hlt) ht) (constant (F := Ideal) ⟨2, ![R, N]⟩ .f32 0x00000000#32) (ix2 p q)
        + broadcastTo ⟨2, ![R, N]⟩ (shapeCast ⟨2, ![1, N]⟩ B hcB) hbB (ix2 p q)) zeroW = _
  rw [mxuT_apply d drank dsize dl0 dl1 dr0 dr1 ht _ _ p q, bias_block B hcB hbB p q, layer1_apply]
  refine congrArg (fun z => max (z + B (ix2 (0 : Fin 1) q)) zeroW) ?_
  exact Finset.sum_congr rfl fun k _ => congrArg (· * W (ix2 q k)) (mean_narrowed s dv hcs hc1 hb1 hlt p k)

/-- Mean, two products with transposed weights into zero, added, a one-row bias laid along the rows, maximum with zero. -/
theorem body_two {R Ka Kx N : ℕ} (da : DotDims ⟨2, ![R, Ka]⟩ ⟨2, ![Ka, N]⟩ ⟨2, ![R, N]⟩)
    (darank : da.contr.rank = 1) (dasize : da.contr.size ⟨0, by omega⟩ = Ka)
    (dal0 : ∀ (i : (⟨2, ![R, N]⟩ : Shape).Idx) (s : da.contr.Idx), (da.lhsIdx i s 0).val = (i 0).val)
    (dal1 : ∀ (i : (⟨2, ![R, N]⟩ : Shape).Idx) (s : da.contr.Idx), (da.lhsIdx i s 1).val = (s ⟨0, by omega⟩).val)
    (dar0 : ∀ (i : (⟨2, ![R, N]⟩ : Shape).Idx) (s : da.contr.Idx), (da.rhsIdx i s 0).val = (s ⟨0, by omega⟩).val)
    (dar1 : ∀ (i : (⟨2, ![R, N]⟩ : Shape).Idx) (s : da.contr.Idx), (da.rhsIdx i s 1).val = (i 1).val)
    (dx : DotDims ⟨2, ![R, Kx]⟩ ⟨2, ![Kx, N]⟩ ⟨2, ![R, N]⟩)
    (dxrank : dx.contr.rank = 1) (dxsize : dx.contr.size ⟨0, by omega⟩ = Kx)
    (dxl0 : ∀ (i : (⟨2, ![R, N]⟩ : Shape).Idx) (s : dx.contr.Idx), (dx.lhsIdx i s 0).val = (i 0).val)
    (dxl1 : ∀ (i : (⟨2, ![R, N]⟩ : Shape).Idx) (s : dx.contr.Idx), (dx.lhsIdx i s 1).val = (s ⟨0, by omega⟩).val)
    (dxr0 : ∀ (i : (⟨2, ![R, N]⟩ : Shape).Idx) (s : dx.contr.Idx), (dx.rhsIdx i s 0).val = (s ⟨0, by omega⟩).val)
    (dxr1 : ∀ (i : (⟨2, ![R, N]⟩ : Shape).Idx) (s : dx.contr.Idx), (dx.rhsIdx i s 1).val = (i 1).val)
    (hta : (⟨2, ![N, Ka]⟩ : Shape).Transposes [1, 0] ⟨2, ![Ka, N]⟩) (htx : (⟨2, ![N, Kx]⟩ : Shape).Transposes [1, 0] ⟨2, ![Kx, N]⟩)
    (hcs : (⟨2, ![R, Ka]⟩ : Shape).ShapeCasts ⟨2, ![R, Ka]⟩) (hc1 : (⟨2, ![R, 1]⟩ : Shape).ShapeCasts ⟨2, ![R, 1]⟩)
    (hb1 : (⟨2, ![R, 1]⟩ : Shape).Broadcasts ⟨2, ![R, Ka]⟩)
    (hcB : (⟨2, ![1, N]⟩ : Shape).ShapeCasts ⟨2, ![1, N]⟩) (hbB : (⟨2, ![1, N]⟩ : Shape).Broadcasts ⟨2, ![R, N]⟩)
    (hlt : FTy.bits .bf16 < FTy.bits .f32)
    (s : FVec Ideal ⟨2, ![R, Ka]⟩ .f32) (dv : FVec Ideal ⟨2, ![R, 1]⟩ .f32) (x : FVec Ideal ⟨2, ![R, Kx]⟩ .f32)
    (Wl : FVec Ideal ⟨2, ![N, Ka]⟩ .f32) (Wr : FVec Ideal ⟨2, ![N, Kx]⟩ .f32)
    (B : FVec Ideal ⟨2, ![1, N]⟩ .f32) (p : Fin R) (q : Fin N) :
    maximumf (addf (addf (matmul da none (truncf .bf16 (divf (shapeCast ⟨2, ![R, Ka]⟩ s hcs)
            (broadcastTo ⟨2, ![R, Ka]⟩ (maximumf (shapeCast ⟨2, ![R, 1]⟩ dv hc1)
              (broadcast ⟨2, ![R, 1]⟩ (Scalar.ofBits (F := Ideal) .f32 0x3F800000#32))) hb1)) hlt)
            (transpose ⟨2, ![Ka, N]⟩ [1, 0] (truncf .bf16 Wl hlt) hta) (constant (F := Ideal) ⟨2, ![R, N]⟩ .f32 0x00000000#32))
          (matmul dx none (truncf .bf16 x hlt)
            (transpose ⟨2, ![Kx, N]⟩ [1, 0] (truncf .bf16 Wr hlt) htx) (constant (F := Ideal) ⟨2, ![R, N]⟩ .f32 0x00000000#32)))
        (broadcastTo ⟨2, ![R, N]⟩ (shapeCast ⟨2, ![1, N]⟩ B hcB) hbB))
      (broadcast ⟨2, ![R, N]⟩ (Scalar.ofBits (F := Ideal) .f32 0x00000000#32)) (ix2 p q)
      = layer (meanOf s (fun r => dv (ix2 r (0 : Fin 1)))) x Wl (rowOf B) Wr (ix2 p q) := by
  show max ((matmul da none (truncf .bf16 (divf (shapeCast ⟨2, ![R, Ka]⟩ s hcs)
            (broadcastTo ⟨2, ![R, Ka]⟩ (maximumf (shapeCast ⟨2, ![R, 1]⟩ dv hc1)
              (broadcast ⟨2, ![R, 1]⟩ (Scalar.ofBits (F := Ideal) .f32 0x3F800000#32))) hb1)) hlt)
            (transpose ⟨2, ![Ka, N]⟩ [1, 0] (truncf .bf16 Wl hlt) hta) (constant (F := Ideal) ⟨2, ![R, N]⟩ .f32 0x00000000#32) (ix2 p q)
          + matmul dx none (truncf .bf16 x hlt)
            (transpose ⟨2, ![Kx, N]⟩ [1, 0] (truncf .bf16 Wr hlt) htx) (constant (F := Ideal) ⟨2, ![R, N]⟩ .f32 0x00000000#32) (ix2 p q))
        + broadcastTo ⟨2, ![R, N]⟩ (shapeCast ⟨2, ![1, N]⟩ B hcB) hbB (ix2 p q)) zeroW = _
  rw [mxuT_apply da darank dasize dal0 dal1 dar0 dar1 hta _ _ p q, mxuT_apply dx dxrank dxsize dxl0 dxl1 dxr0 dxr1 htx _ _ p q, bias_block B hcB hbB p q, layer_apply]
  refine congrArg (fun z => max ((z + dotT x Wr p q) + B (ix2 (0 : Fin 1) q)) zeroW) ?_
  exact Finset.sum_congr rfl fun k _ => congrArg (· * Wl (ix2 q k)) (mean_narrowed s dv hcs hc1 hb1 hlt p k)

/-- One product with a transposed weight into zero plus a one-row bias laid along the rows: the linear layer. -/
theorem body_proj {R K N : ℕ} (d : DotDims ⟨2, ![R, K]⟩ ⟨2, ![K, N]⟩ ⟨2, ![R, N]⟩)
    (drank : d.contr.rank = 1) (dsize : d.contr.size ⟨0, by omega⟩ = K)
    (dl0 : ∀ (i : (⟨2, ![R, N]⟩ : Shape).Idx) (s : d.contr.Idx), (d.lhsIdx i s 0).val = (i 0).val)
    (dl1 : ∀ (i : (⟨2, ![R, N]⟩ : Shape).Idx) (s : d.contr.Idx), (d.lhsIdx i s 1).val = (s ⟨0, by omega⟩).val)
    (dr0 : ∀ (i : (⟨2, ![R, N]⟩ : Shape).Idx) (s : d.contr.Idx), (d.rhsIdx i s 0).val = (s ⟨0, by omega⟩).val)
    (dr1 : ∀ (i : (⟨2, ![R, N]⟩ : Shape).Idx) (s : d.contr.Idx), (d.rhsIdx i s 1).val = (i 1).val)
    (ht : (⟨2, ![N, K]⟩ : Shape).Transposes [1, 0] ⟨2, ![K, N]⟩)
    (hcB : (⟨2, ![1, N]⟩ : Shape).ShapeCasts ⟨2, ![1, N]⟩) (hbB : (⟨2, ![1, N]⟩ : Shape).Broadcasts ⟨2, ![R, N]⟩)
    (hlt : FTy.bits .bf16 < FTy.bits .f32)
    (z : FVec Ideal ⟨2, ![R, K]⟩ .f32) (W : FVec Ideal ⟨2, ![N, K]⟩ .f32) (B : FVec Ideal ⟨2, ![1, N]⟩ .f32) (p : Fin R) (q : Fin N) :
    addf (matmul d none (truncf .bf16 z hlt)
          (transpose ⟨2, ![K, N]⟩ [1, 0] (truncf .bf16 W hlt) ht) (constant (F := Ideal) ⟨2, ![R, N]⟩ .f32 0x00000000#32))
        (broadcastTo ⟨2, ![R, N]⟩ (shapeCast ⟨2, ![1, N]⟩ B hcB) hbB) (ix2 p q)
      = proj z W (rowOf B) (ix2 p q) := by
  show matmul d none (truncf .bf16 z hlt)
          (transpose ⟨2, ![K, N]⟩ [1, 0] (truncf .bf16 W hlt) ht) (constant (F := Ideal) ⟨2, ![R, N]⟩ .f32 0x00000000#32) (ix2 p q)
        + broadcastTo ⟨2, ![R, N]⟩ (shapeCast ⟨2, ![1, N]⟩ B hcB) hbB (ix2 p q) = _
  rw [mxuT_apply d drank dsize dl0 dl1 dr0 dr1 ht _ _ p q, bias_block B hcB hbB p q]
  rfl

/-! ## The host's spellings -/

open Cert.HostSpell in
/-- The sums divided by the larger of the counts and 1, the quotient's divisor laid as a column and along the lanes: the mean. -/
theorem host_mean {R K : ℕ} (s : FVec Ideal ⟨2, ![R, K]⟩ .f32) (cnt : FVec Ideal ⟨1, ![R]⟩ .f32)
    (hs : (⟨0, ![]⟩ : Shape).BroadcastsInDim ⟨1, ![R]⟩ (![] : Fin 0 → Fin 1))
    (hc1 : (⟨1, ![R]⟩ : Shape).BroadcastsInDim ⟨2, ![R, 1]⟩ (![0] : Fin 1 → Fin 2))
    (hcK : (⟨2, ![R, 1]⟩ : Shape).BroadcastsInDim ⟨2, ![R, K]⟩ (![0, 1] : Fin 2 → Fin 2)) :
    Host.divf s (broadcastInDim ⟨2, ![R, K]⟩ ![0, 1] hcK (broadcastInDim ⟨2, ![R, 1]⟩ ![0] hc1
        (maximumf cnt (broadcastInDim ⟨1, ![R]⟩ ![] hs (constant (F := Ideal) ⟨0, ![]⟩ .f32 0x3F800000#32)))))
      = meanOf s (fun r => cnt (ix1 r)) := by
  funext j
  obtain ⟨p, k, rfl⟩ : ∃ (p : Fin R) (k : Fin K), j = ix2 p k := ⟨j 0, j 1, eq_ix2 j⟩
  show Ideal.div (s (ix2 p k)) (broadcastInDim ⟨2, ![R, K]⟩ ![0, 1] hcK (broadcastInDim ⟨2, ![R, 1]⟩ ![0] hc1
        (maximumf cnt (broadcastInDim ⟨1, ![R]⟩ ![] hs (constant (F := Ideal) ⟨0, ![]⟩ .f32 0x3F800000#32)))) (ix2 p k)) = _
  rw [col_host _ hc1 hcK p k]
  show Ideal.div (s (ix2 p k)) (max (cnt (ix1 p)) (broadcastInDim ⟨1, ![R]⟩ ![] hs (constant (F := Ideal) ⟨0, ![]⟩ .f32 0x3F800000#32) (ix1 p))) = _
  rw [splat_host]
  rfl

open Cert.HostSpell in
/-- First product, bias broadcast twice, second product, maximum with a broadcast zero: the layer. -/
theorem host_layer {R Ka Kx N : ℕ} (da : DotDims ⟨2, ![R, Ka]⟩ ⟨2, ![Ka, N]⟩ ⟨2, ![R, N]⟩)
    (darank : da.contr.rank = 1) (dasize : da.contr.size ⟨0, by omega⟩ = Ka)
    (dal0 : ∀ (i : (⟨2, ![R, N]⟩ : Shape).Idx) (s : da.contr.Idx), (da.lhsIdx i s 0).val = (i 0).val)
    (dal1 : ∀ (i : (⟨2, ![R, N]⟩ : Shape).Idx) (s : da.contr.Idx), (da.lhsIdx i s 1).val = (s ⟨0, by omega⟩).val)
    (dar0 : ∀ (i : (⟨2, ![R, N]⟩ : Shape).Idx) (s : da.contr.Idx), (da.rhsIdx i s 0).val = (s ⟨0, by omega⟩).val)
    (dar1 : ∀ (i : (⟨2, ![R, N]⟩ : Shape).Idx) (s : da.contr.Idx), (da.rhsIdx i s 1).val = (i 1).val)
    (dx : DotDims ⟨2, ![R, Kx]⟩ ⟨2, ![Kx, N]⟩ ⟨2, ![R, N]⟩)
    (dxrank : dx.contr.rank = 1) (dxsize : dx.contr.size ⟨0, by omega⟩ = Kx)
    (dxl0 : ∀ (i : (⟨2, ![R, N]⟩ : Shape).Idx) (s : dx.contr.Idx), (dx.lhsIdx i s 0).val = (i 0).val)
    (dxl1 : ∀ (i : (⟨2, ![R, N]⟩ : Shape).Idx) (s : dx.contr.Idx), (dx.lhsIdx i s 1).val = (s ⟨0, by omega⟩).val)
    (dxr0 : ∀ (i : (⟨2, ![R, N]⟩ : Shape).Idx) (s : dx.contr.Idx), (dx.rhsIdx i s 0).val = (s ⟨0, by omega⟩).val)
    (dxr1 : ∀ (i : (⟨2, ![R, N]⟩ : Shape).Idx) (s : dx.contr.Idx), (dx.rhsIdx i s 1).val = (i 1).val)
    (hta : (⟨2, ![N, Ka]⟩ : Shape).Transposes [1, 0] ⟨2, ![Ka, N]⟩) (htx : (⟨2, ![N, Kx]⟩ : Shape).Transposes [1, 0] ⟨2, ![Kx, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2))
    (a : FVec Ideal ⟨2, ![R, Ka]⟩ .f32) (x : FVec Ideal ⟨2, ![R, Kx]⟩ .f32)
    (Wl : FVec Ideal ⟨2, ![N, Ka]⟩ .f32) (Wr : FVec Ideal ⟨2, ![N, Kx]⟩ .f32) (b : FVec Ideal ⟨1, ![N]⟩ .f32) :
    maximumf (addf (addf (Host.dotGeneral da none a (transpose ⟨2, ![Ka, N]⟩ [1, 0] Wl hta))
          (broadcastInDim ⟨2, ![R, N]⟩ ![0, 1] h2 (broadcastInDim ⟨2, ![1, N]⟩ ![1] h1 b)))
        (Host.dotGeneral dx none x (transpose ⟨2, ![Kx, N]⟩ [1, 0] Wr htx)))
      (broadcastInDim ⟨2, ![R, N]⟩ ![] h0 (constant (F := Ideal) ⟨0, ![]⟩ .f32 0x00000000#32))
      = layer a x Wl b Wr := by
  funext j
  obtain ⟨p, q, rfl⟩ : ∃ (p : Fin R) (q : Fin N), j = ix2 p q := ⟨j 0, j 1, eq_ix2 j⟩
  show max ((Host.dotGeneral da none a (transpose ⟨2, ![Ka, N]⟩ [1, 0] Wl hta) (ix2 p q)
        + broadcastInDim ⟨2, ![R, N]⟩ ![0, 1] h2 (broadcastInDim ⟨2, ![1, N]⟩ ![1] h1 b) (ix2 p q))
      + Host.dotGeneral dx none x (transpose ⟨2, ![Kx, N]⟩ [1, 0] Wr htx) (ix2 p q))
    (broadcastInDim ⟨2, ![R, N]⟩ ![] h0 (constant (F := Ideal) ⟨0, ![]⟩ .f32 0x00000000#32) (ix2 p q)) = _
  rw [hostT_apply da darank dasize dal0 dal1 dar0 dar1 hta a Wl p q, hostT_apply dx dxrank dxsize dxl0 dxl1 dxr0 dxr1 htx x Wr p q, bias_any b h1 h2 p q, splat_host,
    layer_apply]
  unfold preT
  rw [add_right_comm]
  rfl

open Cert.HostSpell in
/-- Product plus the bias broadcast twice: the linear layer. -/
theorem host_proj {R K N : ℕ} (d : DotDims ⟨2, ![R, K]⟩ ⟨2, ![K, N]⟩ ⟨2, ![R, N]⟩)
    (drank : d.contr.rank = 1) (dsize : d.contr.size ⟨0, by omega⟩ = K)
    (dl0 : ∀ (i : (⟨2, ![R, N]⟩ : Shape).Idx) (s : d.contr.Idx), (d.lhsIdx i s 0).val = (i 0).val)
    (dl1 : ∀ (i : (⟨2, ![R, N]⟩ : Shape).Idx) (s : d.contr.Idx), (d.lhsIdx i s 1).val = (s ⟨0, by omega⟩).val)
    (dr0 : ∀ (i : (⟨2, ![R, N]⟩ : Shape).Idx) (s : d.contr.Idx), (d.rhsIdx i s 0).val = (s ⟨0, by omega⟩).val)
    (dr1 : ∀ (i : (⟨2, ![R, N]⟩ : Shape).Idx) (s : d.contr.Idx), (d.rhsIdx i s 1).val = (i 1).val)
    (ht : (⟨2, ![N, K]⟩ : Shape).Transposes [1, 0] ⟨2, ![K, N]⟩)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (z : FVec Ideal ⟨2, ![R, K]⟩ .f32) (W : FVec Ideal ⟨2, ![N, K]⟩ .f32) (b : FVec Ideal ⟨1, ![N]⟩ .f32) :
    addf (Host.dotGeneral d none z (transpose ⟨2, ![K, N]⟩ [1, 0] W ht))
      (broadcastInDim ⟨2, ![R, N]⟩ ![0, 1] h2 (broadcastInDim ⟨2, ![1, N]⟩ ![1] h1 b)) = proj z W b := by
  funext j
  obtain ⟨p, q, rfl⟩ : ∃ (p : Fin R) (q : Fin N), j = ix2 p q := ⟨j 0, j 1, eq_ix2 j⟩
  show Host.dotGeneral d none z (transpose ⟨2, ![K, N]⟩ [1, 0] W ht) (ix2 p q)
      + broadcastInDim ⟨2, ![R, N]⟩ ![0, 1] h2 (broadcastInDim ⟨2, ![1, N]⟩ ![1] h1 b) (ix2 p q) = _
  rw [hostT_apply d drank dsize dl0 dl1 dr0 dr1 ht z W p q, bias_any b h1 h2 p q]
  rfl

/-- A one-row matrix broadcast along R rows is R copies of the row. -/
theorem host_rep {R K : ℕ} (h : (⟨2, ![1, K]⟩ : Shape).BroadcastsInDim ⟨2, ![R, K]⟩ (![0, 1] : Fin 2 → Fin 2))
    (u : FVec Ideal ⟨2, ![1, K]⟩ .f32) : broadcastInDim ⟨2, ![R, K]⟩ ![0, 1] h u = rep (R := R) u := by
  funext j
  obtain ⟨p, k, rfl⟩ : ∃ (p : Fin R) (k : Fin K), j = ix2 p k := ⟨j 0, j 1, eq_ix2 j⟩
  refine broadcastInDim_apply _ h u (ix2 p k) (ix2 (0 : Fin 1) k) fun a => ?_
  match a with
  | ⟨0, _⟩ => show (0 : ℕ) = if (1 : ℕ) = 1 then 0 else p.val; rw [if_pos rfl]
  | ⟨1, _⟩ =>
    show k.val = if K = 1 then 0 else k.val
    split
    · have := k.isLt; omega
    · rfl

/-- A bias laid as one row plus the product of a one-row matrix with a transposed weight, read at (0, q). -/
theorem host_biasrow {K N : ℕ} (d : DotDims ⟨2, ![1, K]⟩ ⟨2, ![K, N]⟩ ⟨2, ![1, N]⟩)
    (drank : d.contr.rank = 1) (dsize : d.contr.size ⟨0, by omega⟩ = K)
    (dl0 : ∀ (i : (⟨2, ![1, N]⟩ : Shape).Idx) (s : d.contr.Idx), (d.lhsIdx i s 0).val = (i 0).val)
    (dl1 : ∀ (i : (⟨2, ![1, N]⟩ : Shape).Idx) (s : d.contr.Idx), (d.lhsIdx i s 1).val = (s ⟨0, by omega⟩).val)
    (dr0 : ∀ (i : (⟨2, ![1, N]⟩ : Shape).Idx) (s : d.contr.Idx), (d.rhsIdx i s 0).val = (s ⟨0, by omega⟩).val)
    (dr1 : ∀ (i : (⟨2, ![1, N]⟩ : Shape).Idx) (s : d.contr.Idx), (d.rhsIdx i s 1).val = (i 1).val)
    (ht : (⟨2, ![N, K]⟩ : Shape).Transposes [1, 0] ⟨2, ![K, N]⟩)
    (h1 : (⟨1, ![N]⟩ : Shape).BroadcastsInDim ⟨2, ![1, N]⟩ (![1] : Fin 1 → Fin 2))
    (b : FVec Ideal ⟨1, ![N]⟩ .f32) (u : FVec Ideal ⟨2, ![1, K]⟩ .f32) (W : FVec Ideal ⟨2, ![N, K]⟩ .f32) (q : Fin N) :
    addf (broadcastInDim ⟨2, ![1, N]⟩ ![1] h1 b) (Host.dotGeneral d none u (transpose ⟨2, ![K, N]⟩ [1, 0] W ht))
      (ix2 (0 : Fin 1) q) = b (ix1 q) + dotT u W (0 : Fin 1) q := by
  show broadcastInDim ⟨2, ![1, N]⟩ ![1] h1 b (ix2 (0 : Fin 1) q)
      + Host.dotGeneral d none u (transpose ⟨2, ![K, N]⟩ [1, 0] W ht) (ix2 (0 : Fin 1) q) = _
  rw [hostT_apply d drank dsize dl0 dl1 dr0 dr1 ht u W (0 : Fin 1) q]
  refine congrArg (· + dotT u W (0 : Fin 1) q) ?_
  refine broadcastInDim_apply _ h1 b (ix2 (0 : Fin 1) q) (ix1 q) fun a => ?_
  match a with
  | ⟨0, _⟩ =>
    show q.val = if N = 1 then 0 else q.val
    split
    · have := q.isLt; omega
    · rfl

end Cert.SageTwo

end
-- ==== Proof.KernelBlocks0.lean ====
/-
  The first region of the idealized kernel program, read as one function of the arrays it finds: every block of 5000
  rows of its output is the rectified layer "mean of the summed neighbour features, times the transposed weight, plus a
  one-row bias" of the same 5000 rows of the sums and counts, so the whole output array is that layer of the whole arrays.
-/
import proofs.«159673_j64854006170165_1_alg».proof.Proof.Gen.KernelIdeal.Frame
import proofs.«159673_j64854006170165_1_alg».proof.Proof.LibSageTwo
import Idealize.ShloMosaic.Lib.Pipeline.Value
import Idealize.ShloMosaic.Lib.ValueIdx

set_option maxRecDepth 16384

noncomputable section

namespace Cert.KernelIdeal.Blocks0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Sage Cert.LibRowBias Cert.MeanLayers Cert.SageTwo

/-! ## The body's product: its dimension record -/

theorem d64_l0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem d64_l1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem d64_r0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem d64_r1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The body's value at an entry (p, q) of a block. -/
theorem pay_at (x0 : FVec Ideal S5000x64 .f32) (x1 : FVec Ideal S5000x1 .f32) (x2 : FVec Ideal S128x64 .f32)
    (x3 : FVec Ideal S1x128 .f32) (p : Fin 5000) (q : Fin 128) :
    k0_pay1 (F := Ideal) x0 x1 x2 x3 (ix2 p q) = layer1 (meanOf x0 (fun r => x1 (ix2 r (0 : Fin 1)))) x2 x3 (ix2 p q) := by
  unfold k0_pay1
  exact body_one dot_S5000x64_S64x128_S5000x128_1_0_0_1_n_n rfl rfl d64_l0 d64_l1 d64_r0 d64_r1 _ _ _ _ _ _ _ x0 x1 x2 x3 p q

/-! ## Blocks of the arrays the region finds -/

theorem hz : (![0, 0] : Fin 2 → Nat) = fun _ => 0 := funext fun a => by fin_cases a <;> rfl

/-- The printed index maps over the grid: the row windows move with the output's block, which is the point's number;
    the weight and bias windows stay at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- Row y of block t of the sums is row 5000 t + y of the array. -/
theorem read_w0 (c : Dev nD) (t : Fin cfg0.N) (y : S5000x64.Idx) (i : S100000x64.Idx)
    (h0 : (i 0).val = t.val * 5000 + (y 0).val) (h1 : (i 1).val = (y 1).val) :
    iblk0 V c 0 t y = V c main_v9 i := by
  show V c main_v9 (((cfg0.win 0).blk t).view.emb y) = V c main_v9 i
  obtain ⟨e0, e1, -⟩ := idx_facts t
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- Row y of block t of the count column is row 5000 t + y of the array. -/
theorem read_w1 (c : Dev nD) (t : Fin cfg0.N) (y : S5000x1.Idx) (i : S100000x1.Idx)
    (h0 : (i 0).val = t.val * 5000 + (y 0).val) (h1 : (i 1).val = (y 1).val) :
    iblk0 V c 1 t y = V c main_v14 i := by
  show V c main_v14 (((cfg0.win 1).blk t).view.emb y) = V c main_v14 i
  obtain ⟨-, -, e0, e1, -⟩ := idx_facts t
  refine congrArg _ (funext fun a => Fin.ext ?_)
  match a with
  | ⟨0, _⟩ => show win0_1.index t (0 : Fin 2) * 5000 + 1 * (y 0).val = (i 0).val; omega
  | ⟨1, _⟩ => show win0_1.index t (1 : Fin 2) * 1 + 1 * (y 1).val = (i 1).val; omega

/-- The weight window's block is the whole weight matrix at every point. -/
theorem read_w2 (c : Dev nD) (t : Fin cfg0.N) : iblk0 V c 2 t = V c main_arg5 := by
  funext y
  show V c main_arg5 (((cfg0.win 2).blk t).view.emb y) = V c main_arg5 y
  obtain ⟨-, -, -, -, e0, e1, -⟩ := idx_facts t
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The bias window's block is the whole one-row bias at every point. -/
theorem read_w3 (c : Dev nD) (t : Fin cfg0.N) : iblk0 V c 3 t = V c main_v18 := by
  funext y
  show V c main_v18 (((cfg0.win 3).blk t).view.emb y) = V c main_v18 y
  obtain ⟨-, -, -, -, -, -, e0, e1, -⟩ := idx_facts t
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-! ## The output array -/

/-- The output as one function of the arrays the region finds. -/
def G (S : FVec Ideal S100000x64 .f32) (C : FVec Ideal S100000x1 .f32) (W : FVec Ideal S128x64 .f32)
    (B : FVec Ideal S1x128 .f32) : FVec Ideal S100000x128 .f32 :=
  layer1 (meanOf S (fun r => C (ix2 r (0 : Fin 1)))) W B

/-- What point t writes back is block t of G. -/
theorem flushed_eq (c : Dev nD) (t : Fin cfg0.N) :
    (dat0 V c).flushed 4 t
      = ((cfg0.win 4).blk t).view.read (Elt Ideal) (G (V c main_v9) (V c main_v14) (V c main_arg5) (V c main_v18)) := by
  show (cfg0.win 4).cut (grid0.coords t) ((dat0 V c).after 4 t) = _
  rw [after0_4]
  unfold out0_4
  rw [View.canon_unit_zero hz]
  simp only [View.ld_unit_zero (S := S5000x64) hz, View.ld_unit_zero (S := S5000x1) hz, View.ld_unit_zero (S := S128x64) hz,
    View.ld_unit_zero (S := S1x128) hz]
  rw [read_w2 V c t, read_w3 V c t]
  funext j
  obtain ⟨p, q, rfl⟩ : ∃ (p : Fin 5000) (q : Fin 128), j = ix2 p q := ⟨j 0, j 1, eq_ix2 j⟩
  obtain ⟨-, -, -, -, -, -, -, -, e0, e1⟩ := idx_facts t
  refine (pay_at (iblk0 V c 0 t) (iblk0 V c 1 t) (V c main_arg5) (V c main_v18) p q).trans ?_
  have hi0 : ((((cfg0.win 4).blk t).view.emb (ix2 p q)) 0).val = t.val * 5000 + p.val := by
    show win0_4.index t (0 : Fin 2) * 5000 + 1 * p.val = _; omega
  have hi1 : ((((cfg0.win 4).blk t).view.emb (ix2 p q)) 1).val = q.val := by
    show win0_4.index t (1 : Fin 2) * 128 + 1 * q.val = _; omega
  refine layer1_at _ _ _ _ (ix2 p q) (((cfg0.win 4).blk t).view.emb (ix2 p q)) hi1 fun k => ?_
  refine meanOf_row _ _ _ _ p _ (fun k' => read_w0 V c t (ix2 p k') _ hi0 rfl) (read_w1 V c t (ix2 p (0 : Fin 1)) _ hi0 rfl) k

/-- An index of the array is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v19).slice (win0_4.rect t)).set ↔ _
  rw [View.set_slice_whole, Rect.mem_set_unit]
  exact Iff.rfl

/-- Every row of the array is in the block of the point numbered by the row's quotient by 5000. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_4 _, ?_⟩
  rw [mem_blk]
  obtain ⟨-, -, -, -, -, -, -, -, e0, e1⟩ := idx_facts ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e1]; omega

/-- The output array after the region: the layer of the whole arrays. -/
theorem final (c : Dev nD) :
    (dat0 V c).arrAt 4 cfg0.N = G (V c main_v9) (V c main_v14) (V c main_arg5) (V c main_v18) :=
  (dat0 V c).arrAt_eq_of_cover 4 _ (fun t _ => flushed_eq V c t) cover

end Cert.KernelIdeal.Blocks0

end
-- ==== Proof.KernelBlocks1.lean ====
/-
  The second region of the idealized kernel program, read as functions of the arrays it finds. Every block of 5000 rows
  of its first output is the rectified layer "mean of the summed neighbour features times a transposed weight, plus the
  node features times a transposed weight, plus a one-row bias" of the same 5000 rows; every block of its second output
  is the linear layer of those rows of the first. So the two output arrays are that layer, and its linear layer, of the
  whole arrays.
-/
import proofs.«159673_j64854006170165_1_alg».proof.Proof.Gen.KernelIdeal.Frame
import proofs.«159673_j64854006170165_1_alg».proof.Proof.LibSageTwo
import Idealize.ShloMosaic.Lib.Pipeline.Value
import Idealize.ShloMosaic.Lib.ValueIdx

set_option maxRecDepth 16384

noncomputable section

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Sage Cert.LibRowBias Cert.MeanLayers Cert.SageTwo

/-! ## The body's products: their dimension records -/

theorem d128_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d128_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem d128_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem d128_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem d64_l0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem d64_l1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
theorem d64_r0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
theorem d64_r1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem dp_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dp_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem dp_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem dp_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The first output's value at an entry (p, q) of a block. -/
theorem pay8_at (v0 : FVec Ideal S5000x128 .f32) (v2 : FVec Ideal S5000x1 .f32) (v9 : FVec Ideal S128x128 .f32)
    (v13 : FVec Ideal S5000x64 .f32) (v15 : FVec Ideal S128x64 .f32) (v20 : FVec Ideal S1x128 .f32) (p : Fin 5000) (q : Fin 128) :
    k1_pay2 (F := Ideal) v0 v2 v9 v13 v15 v20 (ix2 p q)
      = layer (meanOf v0 (fun r => v2 (ix2 r (0 : Fin 1)))) v13 v9 (rowOf v20) v15 (ix2 p q) := by
  unfold k1_pay2
  exact body_two dot_S5000x128_S128x128_S5000x128_1_0_0_1_n_n rfl rfl d128_l0 d128_l1 d128_r0 d128_r1
    dot_S5000x64_S64x128_S5000x128_1_0_0_1_n_n rfl rfl d64_l0 d64_l1 d64_r0 d64_r1 _ _ _ _ _ _ _ _ v0 v2 v13 v9 v15 v20 p q

/-- The second output's value at an entry (p, q) of a block. -/
theorem pay9_at (v0 : FVec Ideal S5000x128 .f32) (v2 : FVec Ideal S5000x1 .f32) (v9 : FVec Ideal S128x128 .f32)
    (v13 : FVec Ideal S5000x64 .f32) (v15 : FVec Ideal S128x64 .f32) (v20 : FVec Ideal S1x128 .f32)
    (v28 : FVec Ideal S64x128 .f32) (v32 : FVec Ideal S1x64 .f32) (p : Fin 5000) (q : Fin 64) :
    k1_pay1 (F := Ideal) (k1_pay3 v0 v2 v9 v13 v15 v20 v28) (k1_pay4 v32) (ix2 p q)
      = proj (layer (meanOf v0 (fun r => v2 (ix2 r (0 : Fin 1)))) v13 v9 (rowOf v20) v15) v28 (rowOf v32) (ix2 p q) := by
  unfold k1_pay1 k1_pay3 k1_pay4
  refine (body_proj dot_S5000x128_S128x64_S5000x64_1_0_0_1_n_n rfl rfl dp_l0 dp_l1 dp_r0 dp_r1 _ _ _ _
    (k1_pay2 (F := Ideal) v0 v2 v9 v13 v15 v20) v28 v32 p q).trans ?_
  exact proj_at _ _ v28 (rowOf v32) (ix2 p q) (ix2 p q) rfl fun k => pay8_at v0 v2 v9 v13 v15 v20 p k

/-! ## Blocks of the arrays the region finds -/

theorem hz : (![0, 0] : Fin 2 → Nat) = fun _ => 0 := funext fun a => by fin_cases a <;> rfl

/-- The printed index maps over the grid: a row window's block is the point's number, the weight and bias windows stay
    at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 ∧ True :=
  (by decide +kernel : ∀ t : Fin grid1.N, _)

variable (V : (c : Dev nD) → (b : Ref sig .tc) → Buf (Elt Ideal) ((c : Thread nD τ).loc b))

/-- Row y of block t of window 0 is row 5000 t + y of its array. -/
theorem read_w0 (c : Dev nD) (t : Fin cfg1.N) (y : S5000x128.Idx) (i : S20000x128.Idx)
    (h0 : (i 0).val = t.val * 5000 + (y 0).val) (h1 : (i 1).val = (y 1).val) :
    iblk1 V c 0 t y = V c main_v29 i := by
  show V c main_v29 (((cfg1.win 0).blk t).view.emb y) = V c main_v29 i
  obtain ⟨e0, e1, -⟩ := idx_facts t
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Row y of block t of window 1 is row 5000 t + y of its array. -/
theorem read_w1 (c : Dev nD) (t : Fin cfg1.N) (y : S5000x1.Idx) (i : S20000x1.Idx)
    (h0 : (i 0).val = t.val * 5000 + (y 0).val) (h1 : (i 1).val = (y 1).val) :
    iblk1 V c 1 t y = V c main_v34 i := by
  show V c main_v34 (((cfg1.win 1).blk t).view.emb y) = V c main_v34 i
  obtain ⟨-, -, e0, e1, -⟩ := idx_facts t
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 1 + 1 * (y 1).val = (i 1).val; omega

/-- Row y of block t of window 2 is row 5000 t + y of its array. -/
theorem read_w2 (c : Dev nD) (t : Fin cfg1.N) (y : S5000x64.Idx) (i : S20000x64.Idx)
    (h0 : (i 0).val = t.val * 5000 + (y 0).val) (h1 : (i 1).val = (y 1).val) :
    iblk1 V c 2 t y = V c main_arg0 i := by
  show V c main_arg0 (((cfg1.win 2).blk t).view.emb y) = V c main_arg0 i
  obtain ⟨-, -, -, -, e0, e1, -⟩ := idx_facts t
  refine congrArg _ (funext fun a => Fin.ext ?_)
  match a with
  | ⟨0, _⟩ => show win1_2.index t (0 : Fin 2) * 5000 + 1 * (y 0).val = (i 0).val; omega
  | ⟨1, _⟩ => show win1_2.index t (1 : Fin 2) * 64 + 1 * (y 1).val = (i 1).val; omega

/-- Window 3's block is its whole array at every point. -/
theorem read_w3 (c : Dev nD) (t : Fin cfg1.N) : iblk1 V c 3 t = V c main_arg8 := by
  funext y
  show V c main_arg8 (((cfg1.win 3).blk t).view.emb y) = V c main_arg8 y
  obtain ⟨-, -, -, -, -, -, e0, e1, -⟩ := idx_facts t
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block is its whole array at every point. -/
theorem read_w4 (c : Dev nD) (t : Fin cfg1.N) : iblk1 V c 4 t = V c main_v35 := by
  funext y
  show V c main_v35 (((cfg1.win 4).blk t).view.emb y) = V c main_v35 y
  obtain ⟨-, -, -, -, -, -, -, -, e0, e1, -⟩ := idx_facts t
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5's block is its whole array at every point. -/
theorem read_w5 (c : Dev nD) (t : Fin cfg1.N) : iblk1 V c 5 t = V c main_arg10 := by
  funext y
  show V c main_arg10 (((cfg1.win 5).blk t).view.emb y) = V c main_arg10 y
  obtain ⟨-, -, -, -, -, -, -, -, -, -, e0, e1, -⟩ := idx_facts t
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 64 + 1 * (y 1).val = (y 1).val; omega

/-- Window 6's block is its whole array at every point. -/
theorem read_w6 (c : Dev nD) (t : Fin cfg1.N) : iblk1 V c 6 t = V c main_arg16 := by
  funext y
  show V c main_arg16 (((cfg1.win 6).blk t).view.emb y) = V c main_arg16 y
  obtain ⟨-, -, -, -, -, -, -, -, -, -, -, -, e0, e1, -⟩ := idx_facts t
  refine congrArg _ (funext fun a => Fin.ext ?_)
  match a with
  | ⟨0, _⟩ => show win1_6.index t (0 : Fin 2) * 64 + 1 * (y 0).val = (y 0).val; omega
  | ⟨1, _⟩ => show win1_6.index t (1 : Fin 2) * 128 + 1 * (y 1).val = (y 1).val; omega

/-- Window 7's block is its whole array at every point. -/
theorem read_w7 (c : Dev nD) (t : Fin cfg1.N) : iblk1 V c 7 t = V c main_v36 := by
  funext y
  show V c main_v36 (((cfg1.win 7).blk t).view.emb y) = V c main_v36 y
  obtain ⟨-, -, -, -, -, -, -, -, -, -, -, -, -, -, e0, e1, -⟩ := idx_facts t
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 64 + 1 * (y 1).val = (y 1).val; omega

/-! ## The output arrays -/

/-- The first output as one function of the arrays the region finds. -/
def G8 (S : FVec Ideal S20000x128 .f32) (C : FVec Ideal S20000x1 .f32) (X : FVec Ideal S20000x64 .f32)
    (Wl : FVec Ideal S128x128 .f32) (B : FVec Ideal S1x128 .f32) (Wr : FVec Ideal S128x64 .f32) : FVec Ideal S20000x128 .f32 :=
  layer (meanOf S (fun r => C (ix2 r (0 : Fin 1)))) X Wl (rowOf B) Wr

/-- The second output: the linear layer of the first. -/
def G9 (S : FVec Ideal S20000x128 .f32) (C : FVec Ideal S20000x1 .f32) (X : FVec Ideal S20000x64 .f32)
    (Wl : FVec Ideal S128x128 .f32) (B : FVec Ideal S1x128 .f32) (Wr : FVec Ideal S128x64 .f32)
    (Wp : FVec Ideal S64x128 .f32) (Bp : FVec Ideal S1x64 .f32) : FVec Ideal S20000x64 .f32 :=
  proj (G8 S C X Wl B Wr) Wp (rowOf Bp)

/-- Row p of block t of the layer is row 5000 t + p of the layer of the whole arrays. -/
theorem layer_blk (c : Dev nD) (t : Fin cfg1.N) (p : Fin 5000) (r : Fin 20000) (hr : r.val = t.val * 5000 + p.val) (k : Fin 128) :
    layer (meanOf (iblk1 V c 0 t) (fun r => iblk1 V c 1 t (ix2 r (0 : Fin 1)))) (iblk1 V c 2 t) (V c main_arg8) (rowOf (V c main_v35)) (V c main_arg10) (ix2 p k)
      = G8 (V c main_v29) (V c main_v34) (V c main_arg0) (V c main_arg8) (V c main_v35) (V c main_arg10) (ix2 r k) := by
  refine layer_at _ _ _ _ _ _ _ (ix2 p k) (ix2 r k) rfl (fun k' => ?_) (fun k' => read_w2 V c t (ix2 p k') (ix2 r k') hr rfl)
  exact meanOf_row _ _ _ _ p r (fun k'' => read_w0 V c t (ix2 p k'') (ix2 r k'') hr rfl) (read_w1 V c t (ix2 p (0 : Fin 1)) (ix2 r (0 : Fin 1)) hr rfl) k'

/-- What point t writes back to the first output is block t of G8. -/
theorem flushed8_eq (c : Dev nD) (t : Fin cfg1.N) :
    (dat1 V c).flushed 8 t = ((cfg1.win 8).blk t).view.read (Elt Ideal)
      (G8 (V c main_v29) (V c main_v34) (V c main_arg0) (V c main_arg8) (V c main_v35) (V c main_arg10)) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz, View.ld_unit_zero (S := S5000x64) hz, View.ld_unit_zero (S := S128x128) hz, View.ld_unit_zero (S := S1x128) hz, View.ld_unit_zero (S := S128x64) hz]
  rw [read_w3 V c t, read_w4 V c t, read_w5 V c t]
  funext j
  obtain ⟨p, q, rfl⟩ : ∃ (p : Fin 5000) (q : Fin 128), j = ix2 p q := ⟨j 0, j 1, eq_ix2 j⟩
  obtain ⟨-, -, -, -, -, -, -, -, -, -, -, -, -, -, -, -, e0, e1, -⟩ := idx_facts t
  refine (pay8_at (iblk1 V c 0 t) (iblk1 V c 1 t) (V c main_arg8) (iblk1 V c 2 t) (V c main_arg10) (V c main_v35) p q).trans ?_
  have hi0 : ((((cfg1.win 8).blk t).view.emb (ix2 p q)) 0).val = t.val * 5000 + p.val := by
    show win1_8.index t (0 : Fin 2) * 5000 + 1 * p.val = _; omega
  have hi1 : ((((cfg1.win 8).blk t).view.emb (ix2 p q)) 1).val = q.val := by
    show win1_8.index t (1 : Fin 2) * 128 + 1 * q.val = _; omega
  refine (layer_blk V c t p _ hi0 q).trans ?_
  refine congrArg (G8 (V c main_v29) (V c main_v34) (V c main_arg0) (V c main_arg8) (V c main_v35) (V c main_arg10)) ?_
  exact Cert.LibMatmulRows.idx2_ext _ _ rfl hi1.symm

/-- What point t writes back to the second output is block t of G9. -/
theorem flushed9_eq (c : Dev nD) (t : Fin cfg1.N) :
    (dat1 V c).flushed 9 t = ((cfg1.win 9).blk t).view.read (Elt Ideal)
      (G9 (V c main_v29) (V c main_v34) (V c main_arg0) (V c main_arg8) (V c main_v35) (V c main_arg10) (V c main_arg16) (V c main_v36)) := by
  show (cfg1.win 9).cut (grid1.coords t) ((dat1 V c).after 9 t) = _
  rw [after1_9]
  unfold out1_9
  rw [View.canon_unit_zero hz]
  simp only [View.ld_unit_zero (S := S5000x128) hz, View.ld_unit_zero (S := S5000x1) hz, View.ld_unit_zero (S := S5000x64) hz, View.ld_unit_zero (S := S128x128) hz, View.ld_unit_zero (S := S1x128) hz, View.ld_unit_zero (S := S128x64) hz, View.ld_unit_zero (S := S64x128) hz, View.ld_unit_zero (S := S1x64) hz]
  rw [read_w3 V c t, read_w4 V c t, read_w5 V c t, read_w6 V c t, read_w7 V c t]
  funext j
  obtain ⟨p, q, rfl⟩ : ∃ (p : Fin 5000) (q : Fin 64), j = ix2 p q := ⟨j 0, j 1, eq_ix2 j⟩
  obtain ⟨-, -, -, -, -, -, -, -, -, -, -, -, -, -, -, -, -, -, e0, e1, -⟩ := idx_facts t
  refine (pay9_at (iblk1 V c 0 t) (iblk1 V c 1 t) (V c main_arg8) (iblk1 V c 2 t) (V c main_arg10) (V c main_v35)
    (V c main_arg16) (V c main_v36) p q).trans ?_
  have hi0 : ((((cfg1.win 9).blk t).view.emb (ix2 p q)) 0).val = t.val * 5000 + p.val := by
    show win1_9.index t (0 : Fin 2) * 5000 + 1 * p.val = _; omega
  have hi1 : ((((cfg1.win 9).blk t).view.emb (ix2 p q)) 1).val = q.val := by
    show win1_9.index t (1 : Fin 2) * 64 + 1 * q.val = _; omega
  exact proj_at _ _ (V c main_arg16) (rowOf (V c main_v36)) (ix2 p q) (((cfg1.win 9).blk t).view.emb (ix2 p q)) hi1
    fun k => layer_blk V c t p _ hi0 k

/-- An index of output 8's array is in point t's block iff each coordinate is in the block's range on its axis. -/
theorem mem_blk8 (t : Fin cfg1.N) (i : S20000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v37_0).slice (win1_8.rect t)).set ↔ _
  rw [View.set_slice_whole, Rect.mem_set_unit]
  exact Iff.rfl

/-- Every row of the array is in the block of the point numbered by the row's quotient by 5000. -/
theorem cover8 (i : S20000x128.Idx) : ∃ t : Fin cfg1.N, (cfg1.win 8).flush t = true ∧ i ∈ ((cfg1.win 8).blk t).view.set := by
  have hi0 : (i 0).val < 20000 := (i 0).isLt
  have hi1 : (i 1).val < 128 := (i 1).isLt
  have hN : cfg1.N = 4 := N_1
  refine ⟨⟨(i 0).val / 5000, by rw [hN]; omega⟩, flush1_8 _, ?_⟩
  rw [mem_blk8]
  obtain ⟨-, -, -, -, -, -, -, -, -, -, -, -, -, -, -, -, e0, e1, -⟩ := idx_facts ⟨(i 0).val / 5000, by rw [hN]; omega⟩
  intro a
  match a with
  | ⟨0, _⟩ =>
    show win1_8.index _ (0 : Fin 2) * 5000 ≤ (i 0).val ∧ (i 0).val < win1_8.index _ (0 : Fin 2) * 5000 + 5000
    rw [e0]; show (i 0).val / 5000 * 5000 ≤ (i 0).val ∧ (i 0).val < (i 0).val / 5000 * 5000 + 5000; omega
  | ⟨1, _⟩ =>
    show win1_8.index _ (1 : Fin 2) * 128 ≤ (i 1).val ∧ (i 1).val < win1_8.index _ (1 : Fin 2) * 128 + 128
    rw [e1]; omega

/-- An index of output 9's array is in point t's block iff each coordinate is in the block's range on its axis. -/
theorem mem_blk9 (t : Fin cfg1.N) (i : S20000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v37_1).slice (win1_9.rect t)).set ↔ _
  rw [View.set_slice_whole, Rect.mem_set_unit]
  exact Iff.rfl

/-- Every row of the array is in the block of the point numbered by the row's quotient by 5000. -/
theorem cover9 (i : S20000x64.Idx) : ∃ t : Fin cfg1.N, (cfg1.win 9).flush t = true ∧ i ∈ ((cfg1.win 9).blk t).view.set := by
  have hi0 : (i 0).val < 20000 := (i 0).isLt
  have hi1 : (i 1).val < 64 := (i 1).isLt
  have hN : cfg1.N = 4 := N_1
  refine ⟨⟨(i 0).val / 5000, by rw [hN]; omega⟩, flush1_9 _, ?_⟩
  rw [mem_blk9]
  obtain ⟨-, -, -, -, -, -, -, -, -, -, -, -, -, -, -, -, -, -, e0, e1, -⟩ := idx_facts ⟨(i 0).val / 5000, by rw [hN]; omega⟩
  intro a
  match a with
  | ⟨0, _⟩ =>
    show win1_9.index _ (0 : Fin 2) * 5000 ≤ (i 0).val ∧ (i 0).val < win1_9.index _ (0 : Fin 2) * 5000 + 5000
    rw [e0]; show (i 0).val / 5000 * 5000 ≤ (i 0).val ∧ (i 0).val < (i 0).val / 5000 * 5000 + 5000; omega
  | ⟨1, _⟩ =>
    show win1_9.index _ (1 : Fin 2) * 64 ≤ (i 1).val ∧ (i 1).val < win1_9.index _ (1 : Fin 2) * 64 + 64
    rw [e1]; omega

/-- The first output array after the region. -/
theorem final8 (c : Dev nD) : (dat1 V c).arrAt 8 cfg1.N
    = G8 (V c main_v29) (V c main_v34) (V c main_arg0) (V c main_arg8) (V c main_v35) (V c main_arg10) :=
  (dat1 V c).arrAt_eq_of_cover 8 _ (fun t _ => flushed8_eq V c t) cover8

/-- The second output array after the region. -/
theorem final9 (c : Dev nD) : (dat1 V c).arrAt 9 cfg1.N
    = G9 (V c main_v29) (V c main_v34) (V c main_arg0) (V c main_arg8) (V c main_v35) (V c main_arg10) (V c main_arg16) (V c main_v36) :=
  (dat1 V c).arrAt_eq_of_cover 9 _ (fun t _ => flushed9_eq V c t) cover9

end Cert.KernelIdeal.Blocks1

end
-- ==== Proof.KernelBlocks2.lean ====
/-
  The third region of the idealized kernel program, read as one function of the arrays it finds. Every block of 5000
  rows of its output is the linear layer of the rectified layer "mean of the summed neighbour features times a transposed
  weight, plus the node features times a transposed weight, plus a one-row bias" of the same 5000 rows; so the output array
  is that composition of the whole arrays.
-/
import proofs.«159673_j64854006170165_1_alg».proof.Proof.Gen.KernelIdeal.Frame
import proofs.«159673_j64854006170165_1_alg».proof.Proof.LibSageTwo
import Idealize.ShloMosaic.Lib.Pipeline.Value
import Idealize.ShloMosaic.Lib.ValueIdx

set_option maxRecDepth 16384

noncomputable section

namespace Cert.KernelIdeal.Blocks2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Sage Cert.LibRowBias Cert.MeanLayers Cert.SageTwo

/-! ## The body's products: their dimension records -/

theorem d128_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem d128_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem d128_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem d128_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem dp_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dp_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem dp_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem dp_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's value at an entry (p, q) of a block. -/
theorem pay_at (v0 : FVec Ideal S5000x128 .f32) (v2 : FVec Ideal S5000x1 .f32) (v9 : FVec Ideal S128x128 .f32)
    (v13 : FVec Ideal S5000x128 .f32) (v16 : FVec Ideal S128x128 .f32) (v21 : FVec Ideal S1x128 .f32)
    (v28 : FVec Ideal S64x128 .f32) (v32 : FVec Ideal S1x64 .f32) (p : Fin 5000) (q : Fin 64) :
    k2_pay1 (F := Ideal) v0 v2 v9 v13 v16 v21 v28 v32 (ix2 p q)
      = proj (layer (meanOf v0 (fun r => v2 (ix2 r (0 : Fin 1)))) v13 v9 (rowOf v21) v16) v28 (rowOf v32) (ix2 p q) := by
  unfold k2_pay1
  refine (body_proj dot_S5000x128_S128x64_S5000x64_1_0_0_1_n_n rfl rfl dp_l0 dp_l1 dp_r0 dp_r1 _ _ _ _ _ v28 v32 p q).trans ?_
  refine proj_at _ _ v28 (rowOf v32) (ix2 p q) (ix2 p q) rfl fun k => ?_
  refine (body_two dot_S5000x128_S128x128_S5000x128_1_0_0_1_n_n rfl rfl d128_l0 d128_l1 d128_r0 d128_r1
    dot_S5000x128_S128x128_S5000x128_1_0_0_1_n_n rfl rfl d128_l0 d128_l1 d128_r0 d128_r1 _ _ _ _ _ _ _ _
    v0 v2 (shapeCast S5000x128 v13 shapeCasts_S5000x128_S5000x128) v9 v16 v21 p k).trans ?_
  rw [shapeCast_self]

/-! ## Blocks of the arrays the region finds -/

theorem hz : (![0, 0] : Fin 2 → Nat) = fun _ => 0 := funext fun a => by fin_cases a <;> rfl

/-- The printed index maps over the grid: a row window's block is the point's number, the weight and bias windows stay
    at the origin. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 ∧ True :=
  (by decide +kernel : ∀ t : Fin grid2.N, _)

variable (V : (c : Dev nD) → (b : Ref sig .tc) → Buf (Elt Ideal) ((c : Thread nD τ).loc b))

/-- Row y of block t of window 0 is row 5000 t + y of its array. -/
theorem read_w0 (c : Dev nD) (t : Fin cfg2.N) (y : S5000x128.Idx) (i : S100000x128.Idx)
    (h0 : (i 0).val = t.val * 5000 + (y 0).val) (h1 : (i 1).val = (y 1).val) :
    iblk2 V c 0 t y = V c main_v47 i := by
  show V c main_v47 (((cfg2.win 0).blk t).view.emb y) = V c main_v47 i
  obtain ⟨e0, e1, -⟩ := idx_facts t
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- Row y of block t of window 1 is row 5000 t + y of its array. -/
theorem read_w1 (c : Dev nD) (t : Fin cfg2.N) (y : S5000x1.Idx) (i : S100000x1.Idx)
    (h0 : (i 0).val = t.val * 5000 + (y 0).val) (h1 : (i 1).val = (y 1).val) :
    iblk2 V c 1 t y = V c main_v52 i := by
  show V c main_v52 (((cfg2.win 1).blk t).view.emb y) = V c main_v52 i
  obtain ⟨-, -, e0, e1, -⟩ := idx_facts t
  refine congrArg _ (funext fun a => Fin.ext ?_)
  match a with
  | ⟨0, _⟩ => show win2_1.index t (0 : Fin 2) * 5000 + 1 * (y 0).val = (i 0).val; omega
  | ⟨1, _⟩ => show win2_1.index t (1 : Fin 2) * 1 + 1 * (y 1).val = (i 1).val; omega

/-- Row y of block t of window 2 is row 5000 t + y of its array. -/
theorem read_w2 (c : Dev nD) (t : Fin cfg2.N) (y : S5000x128.Idx) (i : S100000x128.Idx)
    (h0 : (i 0).val = t.val * 5000 + (y 0).val) (h1 : (i 1).val = (y 1).val) :
    iblk2 V c 2 t y = V c main_v19 i := by
  show V c main_v19 (((cfg2.win 2).blk t).view.emb y) = V c main_v19 i
  obtain ⟨-, -, -, -, e0, e1, -⟩ := idx_facts t
  refine congrArg _ (funext fun a => Fin.ext ?_)
  match a with
  | ⟨0, _⟩ => show win2_2.index t (0 : Fin 2) * 5000 + 1 * (y 0).val = (i 0).val; omega
  | ⟨1, _⟩ => show win2_2.index t (1 : Fin 2) * 128 + 1 * (y 1).val = (i 1).val; omega

/-- Window 3's block is its whole array at every point. -/
theorem read_w3 (c : Dev nD) (t : Fin cfg2.N) : iblk2 V c 3 t = V c main_arg11 := by
  funext y
  show V c main_arg11 (((cfg2.win 3).blk t).view.emb y) = V c main_arg11 y
  obtain ⟨-, -, -, -, -, -, e0, e1, -⟩ := idx_facts t
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's block is its whole array at every point. -/
theorem read_w4 (c : Dev nD) (t : Fin cfg2.N) : iblk2 V c 4 t = V c main_v53 := by
  funext y
  show V c main_v53 (((cfg2.win 4).blk t).view.emb y) = V c main_v53 y
  obtain ⟨-, -, -, -, -, -, -, -, e0, e1, -⟩ := idx_facts t
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5's block is its whole array at every point. -/
theorem read_w5 (c : Dev nD) (t : Fin cfg2.N) : iblk2 V c 5 t = V c main_arg13 := by
  funext y
  show V c main_arg13 (((cfg2.win 5).blk t).view.emb y) = V c main_arg13 y
  obtain ⟨-, -, -, -, -, -, -, -, -, -, e0, e1, -⟩ := idx_facts t
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6's block is its whole array at every point. -/
theorem read_w6 (c : Dev nD) (t : Fin cfg2.N) : iblk2 V c 6 t = V c main_arg14 := by
  funext y
  show V c main_arg14 (((cfg2.win 6).blk t).view.emb y) = V c main_arg14 y
  obtain ⟨-, -, -, -, -, -, -, -, -, -, -, -, e0, e1, -⟩ := idx_facts t
  refine congrArg _ (funext fun a => Fin.ext ?_)
  match a with
  | ⟨0, _⟩ => show win2_6.index t (0 : Fin 2) * 64 + 1 * (y 0).val = (y 0).val; omega
  | ⟨1, _⟩ => show win2_6.index t (1 : Fin 2) * 128 + 1 * (y 1).val = (y 1).val; omega

/-- Window 7's block is its whole array at every point. -/
theorem read_w7 (c : Dev nD) (t : Fin cfg2.N) : iblk2 V c 7 t = V c main_v54 := by
  funext y
  show V c main_v54 (((cfg2.win 7).blk t).view.emb y) = V c main_v54 y
  obtain ⟨-, -, -, -, -, -, -, -, -, -, -, -, -, -, e0, e1, -⟩ := idx_facts t
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 64 + 1 * (y 1).val = (y 1).val; omega

/-! ## The output array -/

/-- The rectified layer of the whole arrays. -/
def L (S : FVec Ideal S100000x128 .f32) (C : FVec Ideal S100000x1 .f32) (X : FVec Ideal S100000x128 .f32)
    (Wl : FVec Ideal S128x128 .f32) (B : FVec Ideal S1x128 .f32) (Wr : FVec Ideal S128x128 .f32) : FVec Ideal S100000x128 .f32 :=
  layer (meanOf S (fun r => C (ix2 r (0 : Fin 1)))) X Wl (rowOf B) Wr

/-- The output as one function of the arrays the region finds: the linear layer of the rectified layer. -/
def G (S : FVec Ideal S100000x128 .f32) (C : FVec Ideal S100000x1 .f32) (X : FVec Ideal S100000x128 .f32)
    (Wl : FVec Ideal S128x128 .f32) (B : FVec Ideal S1x128 .f32) (Wr : FVec Ideal S128x128 .f32)
    (Wp : FVec Ideal S64x128 .f32) (Bp : FVec Ideal S1x64 .f32) : FVec Ideal S100000x64 .f32 :=
  proj (L S C X Wl B Wr) Wp (rowOf Bp)

/-- Row p of block t of the layer is row 5000 t + p of the layer of the whole arrays. -/
theorem layer_blk (c : Dev nD) (t : Fin cfg2.N) (p : Fin 5000) (r : Fin 100000) (hr : r.val = t.val * 5000 + p.val) (k : Fin 128) :
    layer (meanOf (iblk2 V c 0 t) (fun r => iblk2 V c 1 t (ix2 r (0 : Fin 1)))) (iblk2 V c 2 t) (V c main_arg11) (rowOf (V c main_v53)) (V c main_arg13) (ix2 p k)
      = L (V c main_v47) (V c main_v52) (V c main_v19) (V c main_arg11) (V c main_v53) (V c main_arg13) (ix2 r k) := by
  refine layer_at _ _ _ _ _ _ _ (ix2 p k) (ix2 r k) rfl (fun k' => ?_) (fun k' => read_w2 V c t (ix2 p k') (ix2 r k') hr rfl)
  exact meanOf_row _ _ _ _ p r (fun k'' => read_w0 V c t (ix2 p k'') (ix2 r k'') hr rfl) (read_w1 V c t (ix2 p (0 : Fin 1)) (ix2 r (0 : Fin 1)) hr rfl) k'

/-- What point t writes back is block t of G. -/
theorem flushed_eq (c : Dev nD) (t : Fin cfg2.N) :
    (dat2 V c).flushed 8 t = ((cfg2.win 8).blk t).view.read (Elt Ideal)
      (G (V c main_v47) (V c main_v52) (V c main_v19) (V c main_arg11) (V c main_v53) (V c main_arg13) (V c main_arg14) (V c main_v54)) := by
  show (cfg2.win 8).cut (grid2.coords t) ((dat2 V c).after 8 t) = _
  rw [after2_8]
  unfold out2_8
  rw [View.canon_unit_zero hz]
  simp only [View.ld_unit_zero (S := S5000x128) hz, View.ld_unit_zero (S := S5000x1) hz, View.ld_unit_zero (S := S128x128) hz, View.ld_unit_zero (S := S1x128) hz, View.ld_unit_zero (S := S64x128) hz, View.ld_unit_zero (S := S1x64) hz]
  rw [read_w3 V c t, read_w4 V c t, read_w5 V c t, read_w6 V c t, read_w7 V c t]
  funext j
  obtain ⟨p, q, rfl⟩ : ∃ (p : Fin 5000) (q : Fin 64), j = ix2 p q := ⟨j 0, j 1, eq_ix2 j⟩
  obtain ⟨-, -, -, -, -, -, -, -, -, -, -, -, -, -, -, -, e0, e1, -⟩ := idx_facts t
  refine (pay_at (iblk2 V c 0 t) (iblk2 V c 1 t) (V c main_arg11) (iblk2 V c 2 t) (V c main_arg13) (V c main_v53)
    (V c main_arg14) (V c main_v54) p q).trans ?_
  have hi0 : ((((cfg2.win 8).blk t).view.emb (ix2 p q)) 0).val = t.val * 5000 + p.val := by
    show win2_8.index t (0 : Fin 2) * 5000 + 1 * p.val = _; omega
  have hi1 : ((((cfg2.win 8).blk t).view.emb (ix2 p q)) 1).val = q.val := by
    show win2_8.index t (1 : Fin 2) * 64 + 1 * q.val = _; omega
  exact proj_at _ _ (V c main_arg14) (rowOf (V c main_v54)) (ix2 p q) (((cfg2.win 8).blk t).view.emb (ix2 p q)) hi1
    fun k => layer_blk V c t p _ hi0 k

/-- An index of output 8's array is in point t's block iff each coordinate is in the block's range on its axis. -/
theorem mem_blk8 (t : Fin cfg2.N) (i : S100000x64.Idx) :
    i ∈ ((cfg2.win 8).blk t).view.set ↔ ∀ a : Fin 2, win2_8.index t a * S5000x64.size a ≤ (i a).val ∧ (i a).val < win2_8.index t a * S5000x64.size a + S5000x64.size a := by
  show i ∈ ((View.whole main_v55).slice (win2_8.rect t)).set ↔ _
  rw [View.set_slice_whole, Rect.mem_set_unit]
  exact Iff.rfl

/-- Every row of the array is in the block of the point numbered by the row's quotient by 5000. -/
theorem cover8 (i : S100000x64.Idx) : ∃ t : Fin cfg2.N, (cfg2.win 8).flush t = true ∧ i ∈ ((cfg2.win 8).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_8 _, ?_⟩
  rw [mem_blk8]
  obtain ⟨-, -, -, -, -, -, -, -, -, -, -, -, -, -, -, -, e0, e1, -⟩ := idx_facts ⟨(i 0).val / 5000, by rw [hN]; omega⟩
  intro a
  match a with
  | ⟨0, _⟩ =>
    show win2_8.index _ (0 : Fin 2) * 5000 ≤ (i 0).val ∧ (i 0).val < win2_8.index _ (0 : Fin 2) * 5000 + 5000
    rw [e0]; show (i 0).val / 5000 * 5000 ≤ (i 0).val ∧ (i 0).val < (i 0).val / 5000 * 5000 + 5000; omega
  | ⟨1, _⟩ =>
    show win2_8.index _ (1 : Fin 2) * 64 ≤ (i 1).val ∧ (i 1).val < win2_8.index _ (1 : Fin 2) * 64 + 64
    rw [e1]; omega

/-- The output array after the region. -/
theorem final (c : Dev nD) : (dat2 V c).arrAt 8 cfg2.N
    = G (V c main_v47) (V c main_v52) (V c main_v19) (V c main_arg11) (V c main_v53) (V c main_arg13) (V c main_arg14) (V c main_v54) :=
  (dat2 V c).arrAt_eq_of_cover 8 _ (fun t _ => flushed_eq V c t) cover8

end Cert.KernelIdeal.Blocks2

end
-- ==== Proof.KernelArrays.lean ====
/-
  The idealized kernel program's arrays, read through its run. The run is a fold: a stretch of host operations, a
  region, a stretch, a region, a stretch, a region, and the closing host operations. Read at the buffers that matter,
  the fold gives each region's operand arrays as host gathers and segment sums of the arguments and of the earlier
  regions' outputs, and each region's output as the layer of its operands; so the first result is the two projected
  layers stacked, and the second the index rows stacked, as functions of the arguments alone.
-/
import proofs.«159673_j64854006170165_1_alg».proof.Proof.Gen.KernelIdeal.Frame
import proofs.«159673_j64854006170165_1_alg».proof.Proof.KernelBlocks0
import proofs.«159673_j64854006170165_1_alg».proof.Proof.KernelBlocks1
import proofs.«159673_j64854006170165_1_alg».proof.Proof.KernelBlocks2
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

/-! ## The host lines between the regions, named -/

/-- An index vector with its negative entries wrapped by n, as a one-column table. -/
def wrapM (x2 : IVec S600000 32) : IVec S600000x1 32 :=
  broadcastInDim S600000x1 ![0] bcast_S600000_S600000x1_0 (select (cmpi .slt x2 (broadcastInDim S600000 ![] bcast_S_S600000 (constantI S_ 32 0#32))) (addi x2 (broadcastInDim S600000 ![] bcast_S_S600000 (constantI S_ 32 20000#32))) x2)

def wrapU (x1 : IVec S600000 32) : IVec S600000x1 32 :=
  broadcastInDim S600000x1 ![0] bcast_S600000_S600000x1_0 (select (cmpi .slt x1 (broadcastInDim S600000 ![] bcast_S_S600000 (constantI S_ 32 0#32))) (addi x1 (broadcastInDim S600000 ![] bcast_S_S600000 (constantI S_ 32 100000#32))) x1)

/-- The movie rows gathered along the edges and summed per user. -/
def sum1 (x0 : FVec Ideal S20000x64 .f32) (x1 x2 : IVec S600000 32) : FVec Ideal S100000x64 .f32 :=
  Host.scatterAdd scatter_S100000x64_S600000x1_S600000x64_1_0_0_1 (broadcastInDim S100000x64 ![] bcast_S_S100000x64 (constant (F := Ideal) S_ .f32 0x00000000#32))
    (broadcastInDim S600000x1 ![0] bcast_S600000_S600000x1_0 x1)
    (Host.gather gather_S20000x64_S600000x1_S600000x64_1_0_n_n_0_1_164 x0 (wrapM x2))

/-- The number of edges per user. -/
def cntU (x1 : IVec S600000 32) : FVec Ideal S100000 .f32 :=
  Host.scatterAdd scatter_S100000_S600000x1_S600000_n_0_0_1 (broadcastInDim S100000 ![] bcast_S_S100000 (constant (F := Ideal) S_ .f32 0x00000000#32))
    (broadcastInDim S600000x1 ![0] bcast_S600000_S600000x1_0 x1)
    (broadcastInDim S600000 ![] bcast_S_S600000 (constant (F := Ideal) S_ .f32 0x3F800000#32))

/-- The number of edges per movie. -/
def cntM (x2 : IVec S600000 32) : FVec Ideal S20000 .f32 :=
  Host.scatterAdd scatter_S20000_S600000x1_S600000_n_0_0_1 (broadcastInDim S20000 ![] bcast_S_S20000 (constant (F := Ideal) S_ .f32 0x00000000#32))
    (broadcastInDim S600000x1 ![0] bcast_S600000_S600000x1_0 x2)
    (broadcastInDim S600000 ![] bcast_S_S600000 (constant (F := Ideal) S_ .f32 0x3F800000#32))

/-- The user rows gathered along the edges and summed per movie. -/
def sum2 (ux : FVec Ideal S100000x128 .f32) (x1 x2 : IVec S600000 32) : FVec Ideal S20000x128 .f32 :=
  Host.scatterAdd scatter_S20000x128_S600000x1_S600000x128_1_0_0_1 (broadcastInDim S20000x128 ![] bcast_S_S20000x128 (constant (F := Ideal) S_ .f32 0x00000000#32))
    (broadcastInDim S600000x1 ![0] bcast_S600000_S600000x1_0 x2)
    (Host.gather gather_S100000x128_S600000x1_S600000x128_1_0_n_n_0_1_1128 ux (wrapU x1))

/-- The movie rows gathered along the edges and summed per user. -/
def sum3 (mz : FVec Ideal S20000x128 .f32) (x1 x2 : IVec S600000 32) : FVec Ideal S100000x128 .f32 :=
  Host.scatterAdd scatter_S100000x128_S600000x1_S600000x128_1_0_0_1 (broadcastInDim S100000x128 ![] bcast_S_S100000x128 (constant (F := Ideal) S_ .f32 0x00000000#32))
    (broadcastInDim S600000x1 ![0] bcast_S600000_S600000x1_0 x1)
    (Host.gather gather_S20000x128_S600000x1_S600000x128_1_0_n_n_0_1_1128 mz (wrapM x2))

/-- The first layer's one-row bias: the bias plus the embedding row against the transposed weight. -/
def bias1 (x4 : FVec Ideal S1x128 .f32) (x6 : FVec Ideal S128 .f32) (x7 : FVec Ideal S128x128 .f32) : FVec Ideal S1x128 .f32 :=
  addf (broadcastInDim S1x128 ![1] bcast_S128_S1x128_1 x6)
    (Host.dotGeneral dot_S1x128_S128x128_S1x128_1_0_0_1_n_n none x4 (transpose S128x128 [1, 0] x7 transposes_S128x128_S128x128_1_0))

variable (m : (ℓ : Loc nD τ sig) → Buf (Elt Ideal) ℓ) (ρ : Dev nD → PrngReg)

/-! ## The first region's operands -/

set_option maxHeartbeats 4000000 in
theorem V1_v9 (c : Dev nD) : V1 m ρ c main_v9
    = sum1 (m ((c : Thread nD τ).loc main_arg0)) (m ((c : Thread nD τ).loc main_arg1)) (m ((c : Thread nD τ).loc main_arg2)) := by
  show StableHlo.after hostOps0 (W0 m ρ c) (Proc.devRef .tc main_v9) = _
  after_results_simp
  rfl

set_option maxHeartbeats 4000000 in
theorem V1_v14 (c : Dev nD) : V1 m ρ c main_v14
    = shapeCast S100000x1 (cntU (m ((c : Thread nD τ).loc main_arg1))) shapeCasts_S100000_S100000x1 := by
  show StableHlo.after hostOps0 (W0 m ρ c) (Proc.devRef .tc main_v14) = _
  after_results_simp
  rfl

set_option maxHeartbeats 4000000 in
theorem V1_arg5 (c : Dev nD) : V1 m ρ c main_arg5 = m ((c : Thread nD τ).loc main_arg5) := by
  show StableHlo.after hostOps0 (W0 m ρ c) (Proc.devRef .tc main_arg5) = _
  after_results_simp
  try rfl

set_option maxHeartbeats 4000000 in
theorem V1_v18 (c : Dev nD) : V1 m ρ c main_v18
    = bias1 (m ((c : Thread nD τ).loc main_arg4)) (m ((c : Thread nD τ).loc main_arg6)) (m ((c : Thread nD τ).loc main_arg7)) := by
  show StableHlo.after hostOps0 (W0 m ρ c) (Proc.devRef .tc main_v18) = _
  after_results_simp
  rfl

/-! ## The arguments, read back through the fold as far as each is needed -/

set_option maxHeartbeats 4000000 in
theorem W1_arg0 (c : Dev nD) : W1 m ρ c (Proc.devRef .tc main_arg0) = m ((c : Thread nD τ).loc main_arg0) := by
  show StableHlo.after hostOps0 (W0 m ρ c) (Proc.devRef .tc main_arg0) = _
  after_results_simp
  try rfl

set_option maxHeartbeats 4000000 in
theorem W1_arg1 (c : Dev nD) : W1 m ρ c (Proc.devRef .tc main_arg1) = m ((c : Thread nD τ).loc main_arg1) := by
  show StableHlo.after hostOps0 (W0 m ρ c) (Proc.devRef .tc main_arg1) = _
  after_results_simp
  try rfl

set_option maxHeartbeats 4000000 in
theorem W1_arg2 (c : Dev nD) : W1 m ρ c (Proc.devRef .tc main_arg2) = m ((c : Thread nD τ).loc main_arg2) := by
  show StableHlo.after hostOps0 (W0 m ρ c) (Proc.devRef .tc main_arg2) = _
  after_results_simp
  try rfl

set_option maxHeartbeats 4000000 in
theorem W1_arg3 (c : Dev nD) : W1 m ρ c (Proc.devRef .tc main_arg3) = m ((c : Thread nD τ).loc main_arg3) := by
  show StableHlo.after hostOps0 (W0 m ρ c) (Proc.devRef .tc main_arg3) = _
  after_results_simp
  try rfl

set_option maxHeartbeats 4000000 in
theorem W1_arg8 (c : Dev nD) : W1 m ρ c (Proc.devRef .tc main_arg8) = m ((c : Thread nD τ).loc main_arg8) := by
  show StableHlo.after hostOps0 (W0 m ρ c) (Proc.devRef .tc main_arg8) = _
  after_results_simp
  try rfl

set_option maxHeartbeats 4000000 in
theorem W1_arg9 (c : Dev nD) : W1 m ρ c (Proc.devRef .tc main_arg9) = m ((c : Thread nD τ).loc main_arg9) := by
  show StableHlo.after hostOps0 (W0 m ρ c) (Proc.devRef .tc main_arg9) = _
  after_results_simp
  try rfl

set_option maxHeartbeats 4000000 in
theorem W1_arg10 (c : Dev nD) : W1 m ρ c (Proc.devRef .tc main_arg10) = m ((c : Thread nD τ).loc main_arg10) := by
  show StableHlo.after hostOps0 (W0 m ρ c) (Proc.devRef .tc main_arg10) = _
  after_results_simp
  try rfl

set_option maxHeartbeats 4000000 in
theorem W1_arg11 (c : Dev nD) : W1 m ρ c (Proc.devRef .tc main_arg11) = m ((c : Thread nD τ).loc main_arg11) := by
  show StableHlo.after hostOps0 (W0 m ρ c) (Proc.devRef .tc main_arg11) = _
  after_results_simp
  try rfl

set_option maxHeartbeats 4000000 in
theorem W1_arg12 (c : Dev nD) : W1 m ρ c (Proc.devRef .tc main_arg12) = m ((c : Thread nD τ).loc main_arg12) := by
  show StableHlo.after hostOps0 (W0 m ρ c) (Proc.devRef .tc main_arg12) = _
  after_results_simp
  try rfl

set_option maxHeartbeats 4000000 in
theorem W1_arg13 (c : Dev nD) : W1 m ρ c (Proc.devRef .tc main_arg13) = m ((c : Thread nD τ).loc main_arg13) := by
  show StableHlo.after hostOps0 (W0 m ρ c) (Proc.devRef .tc main_arg13) = _
  after_results_simp
  try rfl

set_option maxHeartbeats 4000000 in
theorem W1_arg14 (c : Dev nD) : W1 m ρ c (Proc.devRef .tc main_arg14) = m ((c : Thread nD τ).loc main_arg14) := by
  show StableHlo.after hostOps0 (W0 m ρ c) (Proc.devRef .tc main_arg14) = _
  after_results_simp
  try rfl

set_option maxHeartbeats 4000000 in
theorem W1_arg15 (c : Dev nD) : W1 m ρ c (Proc.devRef .tc main_arg15) = m ((c : Thread nD τ).loc main_arg15) := by
  show StableHlo.after hostOps0 (W0 m ρ c) (Proc.devRef .tc main_arg15) = _
  after_results_simp
  try rfl

set_option maxHeartbeats 4000000 in
theorem W1_arg16 (c : Dev nD) : W1 m ρ c (Proc.devRef .tc main_arg16) = m ((c : Thread nD τ).loc main_arg16) := by
  show StableHlo.after hostOps0 (W0 m ρ c) (Proc.devRef .tc main_arg16) = _
  after_results_simp
  try rfl

set_option maxHeartbeats 4000000 in
theorem W1_arg17 (c : Dev nD) : W1 m ρ c (Proc.devRef .tc main_arg17) = m ((c : Thread nD τ).loc main_arg17) := by
  show StableHlo.after hostOps0 (W0 m ρ c) (Proc.devRef .tc main_arg17) = _
  after_results_simp
  try rfl

theorem W2_arg0 (c : Dev nD) : W2 m ρ c (Proc.devRef .tc main_arg0) = m ((c : Thread nD τ).loc main_arg0) :=
  (W2_of_ne m ρ c main_arg0 (by decide)).trans (W1_arg0 m ρ c)

theorem W2_arg1 (c : Dev nD) : W2 m ρ c (Proc.devRef .tc main_arg1) = m ((c : Thread nD τ).loc main_arg1) :=
  (W2_of_ne m ρ c main_arg1 (by decide)).trans (W1_arg1 m ρ c)

theorem W2_arg2 (c : Dev nD) : W2 m ρ c (Proc.devRef .tc main_arg2) = m ((c : Thread nD τ).loc main_arg2) :=
  (W2_of_ne m ρ c main_arg2 (by decide)).trans (W1_arg2 m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

theorem W2_arg10 (c : Dev nD) : W2 m ρ c (Proc.devRef .tc main_arg10) = m ((c : Thread nD τ).loc main_arg10) :=
  (W2_of_ne m ρ c main_arg10 (by decide)).trans (W1_arg10 m ρ c)

theorem W2_arg11 (c : Dev nD) : W2 m ρ c (Proc.devRef .tc main_arg11) = m ((c : Thread nD τ).loc main_arg11) :=
  (W2_of_ne m ρ c main_arg11 (by decide)).trans (W1_arg11 m ρ c)

theorem W2_arg12 (c : Dev nD) : W2 m ρ c (Proc.devRef .tc main_arg12) = m ((c : Thread nD τ).loc main_arg12) :=
  (W2_of_ne m ρ c main_arg12 (by decide)).trans (W1_arg12 m ρ c)

theorem W2_arg13 (c : Dev nD) : W2 m ρ c (Proc.devRef .tc main_arg13) = m ((c : Thread nD τ).loc main_arg13) :=
  (W2_of_ne m ρ c main_arg13 (by decide)).trans (W1_arg13 m ρ c)

theorem W2_arg14 (c : Dev nD) : W2 m ρ c (Proc.devRef .tc main_arg14) = m ((c : Thread nD τ).loc main_arg14) :=
  (W2_of_ne m ρ c main_arg14 (by decide)).trans (W1_arg14 m ρ c)

theorem W2_arg15 (c : Dev nD) : W2 m ρ c (Proc.devRef .tc main_arg15) = m ((c : Thread nD τ).loc main_arg15) :=
  (W2_of_ne m ρ c main_arg15 (by decide)).trans (W1_arg15 m ρ c)

theorem W2_arg16 (c : Dev nD) : W2 m ρ c (Proc.devRef .tc main_arg16) = m ((c : Thread nD τ).loc main_arg16) :=
  (W2_of_ne m ρ c main_arg16 (by decide)).trans (W1_arg16 m ρ c)

theorem W2_arg17 (c : Dev nD) : W2 m ρ c (Proc.devRef .tc main_arg17) = m ((c : Thread nD τ).loc main_arg17) :=
  (W2_of_ne m ρ c main_arg17 (by decide)).trans (W1_arg17 m ρ c)

set_option maxHeartbeats 4000000 in
theorem W3_arg1 (c : Dev nD) : W3 m ρ c (Proc.devRef .tc main_arg1) = m ((c : Thread nD τ).loc main_arg1) := by
  show StableHlo.after hostOps1 (W2 m ρ c) (Proc.devRef .tc main_arg1) = _
  after_results_simp
  exact W2_arg1 m ρ c

set_option maxHeartbeats 4000000 in
theorem W3_arg2 (c : Dev nD) : W3 m ρ c (Proc.devRef .tc main_arg2) = m ((c : Thread nD τ).loc main_arg2) := by
  show StableHlo.after hostOps1 (W2 m ρ c) (Proc.devRef .tc main_arg2) = _
  after_results_simp
  exact W2_arg2 m ρ c

set_option maxHeartbeats 4000000 in
theorem W3_arg3 (c : Dev nD) : W3 m ρ c (Proc.devRef .tc main_arg3) = m ((c : Thread nD τ).loc main_arg3) := by
  show StableHlo.after hostOps1 (W2 m ρ c) (Proc.devRef .tc main_arg3) = _
  after_results_simp
  exact W2_arg3 m ρ c

set_option maxHeartbeats 4000000 in
theorem W3_arg11 (c : Dev nD) : W3 m ρ c (Proc.devRef .tc main_arg11) = m ((c : Thread nD τ).loc main_arg11) := by
  show StableHlo.after hostOps1 (W2 m ρ c) (Proc.devRef .tc main_arg11) = _
  after_results_simp
  exact W2_arg11 m ρ c

set_option maxHeartbeats 4000000 in
theorem W3_arg12 (c : Dev nD) : W3 m ρ c (Proc.devRef .tc main_arg12) = m ((c : Thread nD τ).loc main_arg12) := by
  show StableHlo.after hostOps1 (W2 m ρ c) (Proc.devRef .tc main_arg12) = _
  after_results_simp
  exact W2_arg12 m ρ c

set_option maxHeartbeats 4000000 in
theorem W3_arg13 (c : Dev nD) : W3 m ρ c (Proc.devRef .tc main_arg13) = m ((c : Thread nD τ).loc main_arg13) := by
  show StableHlo.after hostOps1 (W2 m ρ c) (Proc.devRef .tc main_arg13) = _
  after_results_simp
  exact W2_arg13 m ρ c

set_option maxHeartbeats 4000000 in
theorem W3_arg14 (c : Dev nD) : W3 m ρ c (Proc.devRef .tc main_arg14) = m ((c : Thread nD τ).loc main_arg14) := by
  show StableHlo.after hostOps1 (W2 m ρ c) (Proc.devRef .tc main_arg14) = _
  after_results_simp
  exact W2_arg14 m ρ c

set_option maxHeartbeats 4000000 in
theorem W3_arg15 (c : Dev nD) : W3 m ρ c (Proc.devRef .tc main_arg15) = m ((c : Thread nD τ).loc main_arg15) := by
  show StableHlo.after hostOps1 (W2 m ρ c) (Proc.devRef .tc main_arg15) = _
  after_results_simp
  exact W2_arg15 m ρ c

theorem W4_arg1 (c : Dev nD) : W4 m ρ c (Proc.devRef .tc main_arg1) = m ((c : Thread nD τ).loc main_arg1) :=
  (W4_of_ne m ρ c main_arg1 (by decide)).trans (W3_arg1 m ρ c)

theorem W4_arg2 (c : Dev nD) : W4 m ρ c (Proc.devRef .tc main_arg2) = m ((c : Thread nD τ).loc main_arg2) :=
  (W4_of_ne m ρ c main_arg2 (by decide)).trans (W3_arg2 m ρ c)

theorem W4_arg3 (c : Dev nD) : W4 m ρ c (Proc.devRef .tc main_arg3) = m ((c : Thread nD τ).loc main_arg3) :=
  (W4_of_ne m ρ c main_arg3 (by decide)).trans (W3_arg3 m ρ c)

theorem W4_arg11 (c : Dev nD) : W4 m ρ c (Proc.devRef .tc main_arg11) = m ((c : Thread nD τ).loc main_arg11) :=
  (W4_of_ne m ρ c main_arg11 (by decide)).trans (W3_arg11 m ρ c)

theorem W4_arg12 (c : Dev nD) : W4 m ρ c (Proc.devRef .tc main_arg12) = m ((c : Thread nD τ).loc main_arg12) :=
  (W4_of_ne m ρ c main_arg12 (by decide)).trans (W3_arg12 m ρ c)

theorem W4_arg13 (c : Dev nD) : W4 m ρ c (Proc.devRef .tc main_arg13) = m ((c : Thread nD τ).loc main_arg13) :=
  (W4_of_ne m ρ c main_arg13 (by decide)).trans (W3_arg13 m ρ c)

theorem W4_arg14 (c : Dev nD) : W4 m ρ c (Proc.devRef .tc main_arg14) = m ((c : Thread nD τ).loc main_arg14) :=
  (W4_of_ne m ρ c main_arg14 (by decide)).trans (W3_arg14 m ρ c)

theorem W4_arg15 (c : Dev nD) : W4 m ρ c (Proc.devRef .tc main_arg15) = m ((c : Thread nD τ).loc main_arg15) :=
  (W4_of_ne m ρ c main_arg15 (by decide)).trans (W3_arg15 m ρ c)

set_option maxHeartbeats 4000000 in
theorem W5_arg3 (c : Dev nD) : W5 m ρ c (Proc.devRef .tc main_arg3) = m ((c : Thread nD τ).loc main_arg3) := by
  show StableHlo.after hostOps2 (W4 m ρ c) (Proc.devRef .tc main_arg3) = _
  after_results_simp
  exact W4_arg3 m ρ c

theorem W6_arg3 (c : Dev nD) : W6 m ρ c (Proc.devRef .tc main_arg3) = m ((c : Thread nD τ).loc main_arg3) :=
  (W6_of_ne m ρ c main_arg3 (by decide)).trans (W5_arg3 m ρ c)

/-! ## The first region's output -/

/-- The user features after the first region, of the arguments. -/
def UX (x0 : FVec Ideal S20000x64 .f32) (x1 : IVec S600000 32) (x2 : IVec S600000 32) (x4 : FVec Ideal S1x128 .f32) (x5 : FVec Ideal S128x64 .f32) (x6 : FVec Ideal S128 .f32) (x7 : FVec Ideal S128x128 .f32) : FVec Ideal S100000x128 .f32 :=
  Blocks0.G (sum1 x0 x1 x2) (shapeCast S100000x1 (cntU x1) shapeCasts_S100000_S100000x1) x5 (bias1 x4 x6 x7)

theorem W2_v19 (c : Dev nD) : W2 m ρ c (Proc.devRef .tc main_v19) = UX (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W2_arr m ρ c 4).trans ?_
  rw [Blocks0.final (V1 m ρ) c, V1_v9, V1_v14, V1_arg5, V1_v18]
  rfl

/-! ## The second region's operands and outputs -/

set_option maxHeartbeats 4000000 in
theorem V3_v29 (c : Dev nD) : V3 m ρ c main_v29 = sum2 (UX (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) := by
  show StableHlo.after hostOps1 (W2 m ρ c) (Proc.devRef .tc main_v29) = _
  after_results_simp
  rw [W2_v19, W2_arg1, W2_arg2]
  rfl

set_option maxHeartbeats 4000000 in
theorem V3_v34 (c : Dev nD) : V3 m ρ c main_v34 = shapeCast S20000x1 (cntM (m ((c : Thread nD τ).loc main_arg2))) shapeCasts_S20000_S20000x1 := by
  show StableHlo.after hostOps1 (W2 m ρ c) (Proc.devRef .tc main_v34) = _
  after_results_simp
  rw [W2_arg2]
  rfl

set_option maxHeartbeats 4000000 in
theorem V3_v35 (c : Dev nD) : V3 m ρ c main_v35 = broadcastInDim S1x128 ![1] bcast_S128_S1x128_1 (m ((c : Thread nD τ).loc main_arg9)) := by
  show StableHlo.after hostOps1 (W2 m ρ c) (Proc.devRef .tc main_v35) = _
  after_results_simp
  rw [W2_arg9]

set_option maxHeartbeats 4000000 in
theorem V3_v36 (c : Dev nD) : V3 m ρ c main_v36 = broadcastInDim S1x64 ![1] bcast_S64_S1x64_1 (m ((c : Thread nD τ).loc main_arg17)) := by
  show StableHlo.after hostOps1 (W2 m ρ c) (Proc.devRef .tc main_v36) = _
  after_results_simp
  rw [W2_arg17]

set_option maxHeartbeats 4000000 in
theorem V3_arg0 (c : Dev nD) : V3 m ρ c main_arg0 = m ((c : Thread nD τ).loc main_arg0) := by
  show StableHlo.after hostOps1 (W2 m ρ c) (Proc.devRef .tc main_arg0) = _
  after_results_simp
  exact W2_arg0 m ρ c

set_option maxHeartbeats 4000000 in
theorem V3_arg8 (c : Dev nD) : V3 m ρ c main_arg8 = m ((c : Thread nD τ).loc main_arg8) := by
  show StableHlo.after hostOps1 (W2 m ρ c) (Proc.devRef .tc main_arg8) = _
  after_results_simp
  exact W2_arg8 m ρ c

set_option maxHeartbeats 4000000 in
theorem V3_arg10 (c : Dev nD) : V3 m ρ c main_arg10 = m ((c : Thread nD τ).loc main_arg10) := by
  show StableHlo.after hostOps1 (W2 m ρ c) (Proc.devRef .tc main_arg10) = _
  after_results_simp
  exact W2_arg10 m ρ c

set_option maxHeartbeats 4000000 in
theorem V3_arg16 (c : Dev nD) : V3 m ρ c main_arg16 = m ((c : Thread nD τ).loc main_arg16) := by
  show StableHlo.after hostOps1 (W2 m ρ c) (Proc.devRef .tc main_arg16) = _
  after_results_simp
  exact W2_arg16 m ρ c

/-- The movie features after the second region, of the arguments. -/
def MZ (x0 : FVec Ideal S20000x64 .f32) (x1 : IVec S600000 32) (x2 : IVec S600000 32) (x4 : FVec Ideal S1x128 .f32) (x5 : FVec Ideal S128x64 .f32) (x6 : FVec Ideal S128 .f32) (x7 : FVec Ideal S128x128 .f32) (x8 : FVec Ideal S128x128 .f32) (x9 : FVec Ideal S128 .f32) (x10 : FVec Ideal S128x64 .f32) : FVec Ideal S20000x128 .f32 :=
  Blocks1.G8 (sum2 (UX x0 x1 x2 x4 x5 x6 x7) x1 x2) (shapeCast S20000x1 (cntM x2) shapeCasts_S20000_S20000x1) x0 x8
    (broadcastInDim S1x128 ![1] bcast_S128_S1x128_1 x9) x10

/-- The projected movie features, of the arguments. -/
def ZM (x0 : FVec Ideal S20000x64 .f32) (x1 : IVec S600000 32) (x2 : IVec S600000 32) (x4 : FVec Ideal S1x128 .f32) (x5 : FVec Ideal S128x64 .f32) (x6 : FVec Ideal S128 .f32) (x7 : FVec Ideal S128x128 .f32) (x8 : FVec Ideal S128x128 .f32) (x9 : FVec Ideal S128 .f32) (x10 : FVec Ideal S128x64 .f32) (x16 : FVec Ideal S64x128 .f32) (x17 : FVec Ideal S64 .f32) : FVec Ideal S20000x64 .f32 :=
  Blocks1.G9 (sum2 (UX x0 x1 x2 x4 x5 x6 x7) x1 x2) (shapeCast S20000x1 (cntM x2) shapeCasts_S20000_S20000x1) x0 x8
    (broadcastInDim S1x128 ![1] bcast_S128_S1x128_1 x9) x10 x16 (broadcastInDim S1x64 ![1] bcast_S64_S1x64_1 x17)

theorem W4_v37_0 (c : Dev nD) : W4 m ρ c (Proc.devRef .tc main_v37_0) = MZ (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 8).trans ?_
  rw [Blocks1.final8 (V3 m ρ) c, V3_v29, V3_v34, V3_arg0, V3_arg8, V3_v35, V3_arg10]
  rfl

theorem W4_v37_1 (c : Dev nD) : W4 m ρ c (Proc.devRef .tc main_v37_1) = ZM (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17)) := by
  refine (W4_arr m ρ c 9).trans ?_
  rw [Blocks1.final9 (V3 m ρ) c, V3_v29, V3_v34, V3_arg0, V3_arg8, V3_v35, V3_arg10, V3_arg16, V3_v36]
  rfl

set_option maxHeartbeats 4000000 in
theorem W4_v19 (c : Dev nD) : W4 m ρ c (Proc.devRef .tc main_v19) = UX (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W4_of_ne m ρ c main_v19 (by decide)).trans ?_
  show StableHlo.after hostOps1 (W2 m ρ c) (Proc.devRef .tc main_v19) = _
  after_results_simp
  exact W2_v19 m ρ c

/-! ## The third region's operands and output -/

set_option maxHeartbeats 4000000 in
theorem V5_v47 (c : Dev nD) : V5 m ρ c main_v47 = sum3 (MZ (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) (m ((c : Thread nD τ).loc main_arg2)) := by
  show StableHlo.after hostOps2 (W4 m ρ c) (Proc.devRef .tc main_v47) = _
  after_results_simp
  rw [W4_v37_0, W4_arg1, W4_arg2]
  rfl

set_option maxHeartbeats 4000000 in
theorem V5_v52 (c : Dev nD) : V5 m ρ c main_v52 = shapeCast S100000x1 (cntU (m ((c : Thread nD τ).loc main_arg1))) shapeCasts_S100000_S100000x1 := by
  show StableHlo.after hostOps2 (W4 m ρ c) (Proc.devRef .tc main_v52) = _
  after_results_simp
  rw [W4_arg1]
  rfl

set_option maxHeartbeats 4000000 in
theorem V5_v19 (c : Dev nD) : V5 m ρ c main_v19 = UX (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v19) = _
  after_results_simp
  exact W4_v19 m ρ c

set_option maxHeartbeats 4000000 in
theorem V5_v53 (c : Dev nD) : V5 m ρ c main_v53 = broadcastInDim S1x128 ![1] bcast_S128_S1x128_1 (m ((c : Thread nD τ).loc main_arg12)) := by
  show StableHlo.after hostOps2 (W4 m ρ c) (Proc.devRef .tc main_v53) = _
  after_results_simp
  rw [W4_arg12]

set_option maxHeartbeats 4000000 in
theorem V5_v54 (c : Dev nD) : V5 m ρ c main_v54 = broadcastInDim S1x64 ![1] bcast_S64_S1x64_1 (m ((c : Thread nD τ).loc main_arg15)) := by
  show StableHlo.after hostOps2 (W4 m ρ c) (Proc.devRef .tc main_v54) = _
  after_results_simp
  rw [W4_arg15]

set_option maxHeartbeats 4000000 in
theorem V5_arg11 (c : Dev nD) : V5 m ρ c main_arg11 = m ((c : Thread nD τ).loc main_arg11) := by
  show StableHlo.after hostOps2 (W4 m ρ c) (Proc.devRef .tc main_arg11) = _
  after_results_simp
  exact W4_arg11 m ρ c

set_option maxHeartbeats 4000000 in
theorem V5_arg13 (c : Dev nD) : V5 m ρ c main_arg13 = m ((c : Thread nD τ).loc main_arg13) := by
  show StableHlo.after hostOps2 (W4 m ρ c) (Proc.devRef .tc main_arg13) = _
  after_results_simp
  exact W4_arg13 m ρ c

set_option maxHeartbeats 4000000 in
theorem V5_arg14 (c : Dev nD) : V5 m ρ c main_arg14 = m ((c : Thread nD τ).loc main_arg14) := by
  show StableHlo.after hostOps2 (W4 m ρ c) (Proc.devRef .tc main_arg14) = _
  after_results_simp
  exact W4_arg14 m ρ c

/-- The projected user features after the third region, of the arguments. -/
def ZU (x0 : FVec Ideal S20000x64 .f32) (x1 : IVec S600000 32) (x2 : IVec S600000 32) (x4 : FVec Ideal S1x128 .f32) (x5 : FVec Ideal S128x64 .f32) (x6 : FVec Ideal S128 .f32) (x7 : FVec Ideal S128x128 .f32) (x8 : FVec Ideal S128x128 .f32) (x9 : FVec Ideal S128 .f32) (x10 : FVec Ideal S128x64 .f32) (x11 : FVec Ideal S128x128 .f32) (x12 : FVec Ideal S128 .f32) (x13 : FVec Ideal S128x128 .f32) (x14 : FVec Ideal S64x128 .f32) (x15 : FVec Ideal S64 .f32) : FVec Ideal S100000x64 .f32 :=
  Blocks2.G (sum3 (MZ x0 x1 x2 x4 x5 x6 x7 x8 x9 x10) x1 x2) (shapeCast S100000x1 (cntU x1) shapeCasts_S100000_S100000x1)
    (UX x0 x1 x2 x4 x5 x6 x7) x11 (broadcastInDim S1x128 ![1] bcast_S128_S1x128_1 x12) x13 x14
    (broadcastInDim S1x64 ![1] bcast_S64_S1x64_1 x15)

theorem W6_v55 (c : Dev nD) : W6 m ρ c (Proc.devRef .tc main_v55) = ZU (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W6_arr m ρ c 8).trans ?_
  rw [Blocks2.final (V5 m ρ) c, V5_v47, V5_v52, V5_v19, V5_arg11, V5_v53, V5_arg13, V5_arg14, V5_v54]
  rfl

set_option maxHeartbeats 4000000 in
theorem W6_v37_1 (c : Dev nD) : W6 m ρ c (Proc.devRef .tc main_v37_1) = ZM (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg16)) (m ((c : Thread nD τ).loc main_arg17)) := by
  refine (W6_of_ne m ρ c main_v37_1 (by decide)).trans ?_
  show StableHlo.after hostOps2 (W4 m ρ c) (Proc.devRef .tc main_v37_1) = _
  after_results_simp
  exact W4_v37_1 m ρ c

/-! ## The results -/

/-- The first result: the projected user features above the projected movie features. -/
def X (x0 : FVec Ideal S20000x64 .f32) (x1 : IVec S600000 32) (x2 : IVec S600000 32) (x4 : FVec Ideal S1x128 .f32) (x5 : FVec Ideal S128x64 .f32) (x6 : FVec Ideal S128 .f32) (x7 : FVec Ideal S128x128 .f32) (x8 : FVec Ideal S128x128 .f32) (x9 : FVec Ideal S128 .f32) (x10 : FVec Ideal S128x64 .f32) (x11 : FVec Ideal S128x128 .f32) (x12 : FVec Ideal S128 .f32) (x13 : FVec Ideal S128x128 .f32) (x14 : FVec Ideal S64x128 .f32) (x15 : FVec Ideal S64 .f32) (x16 : FVec Ideal S64x128 .f32) (x17 : FVec Ideal S64 .f32) : FVec Ideal S120000x64 .f32 :=
  concatenate S120000x64 0 [⟨S100000x64, ZU x0 x1 x2 x4 x5 x6 x7 x8 x9 x10 x11 x12 x13 x14 x15⟩,
    ⟨S20000x64, ZM x0 x1 x2 x4 x5 x6 x7 x8 x9 x10 x16 x17⟩] concatenates_S100000x64_S20000x64_S120000x64_d0

/-- The second result: the first index row above the second shifted by the number of users. -/
def IDX (x3 : IVec S2x100000 32) : IVec S2x100000 32 :=
  concatenate S2x100000 0 [⟨S1x100000, (broadcastInDim S1x100000 ![1] bcast_S100000_S1x100000_1 (shapeCast _ (extractStridedSlice S1x100000 ![0, 0] x3 slices_S2x100000_S1x100000_0_0) shapeCasts_S1x100000_S100000))⟩, ⟨S1x100000, (broadcastInDim S1x100000 ![1] bcast_S100000_S1x100000_1 (addi (shapeCast _ (extractStridedSlice S1x100000 ![1, 0] x3 slices_S2x100000_S1x100000_1_0) shapeCasts_S1x100000_S100000) (broadcastInDim S100000 ![] bcast_S_S100000 (constantI S_ 32 100000#32))))⟩] concatenates_S1x100000_S1x100000_S2x100000_d0

set_option maxHeartbeats 4000000 in
theorem W10_v58 (c : Dev nD) : W10 m ρ c (Proc.devRef .tc main_v58) = X (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  show StableHlo.after hostOps3_3 (StableHlo.after hostOps3_2 (StableHlo.after hostOps3_1 (StableHlo.after hostOps3 (W6 m ρ c)))) (Proc.devRef .tc main_v58) = _
  after_results_simp
  rw [W6_v55, W6_v37_1]
  rfl

set_option maxHeartbeats 4000000 in
/-- The closing host operations' second result, from any contents at the last region's exit. -/
theorem tail_v67 (W : Valuation τ sig (Elt Ideal)) :
    StableHlo.after hostOps3_3 (StableHlo.after hostOps3_2 (StableHlo.after hostOps3_1 (StableHlo.after hostOps3 W))) (Proc.devRef .tc main_v67)
      = IDX (W (Proc.devRef .tc main_arg3)) := by
  after_results_simp
  rfl

theorem W10_v67 (c : Dev nD) : W10 m ρ c (Proc.devRef .tc main_v67) = IDX (m ((c : Thread nD τ).loc main_arg3)) :=
  (tail_v67 (W6 m ρ c)).trans (by rw [W6_arg3])

end Cert.KernelIdeal.Net

end
-- ==== Proof.RefStages.lean ====
/-
  The reference program's result, read as layers. Its result term is the host spelling of three mean-aggregating
  rectified layers, each fed by gathers and segment sums of the arguments and of the earlier layers, followed by two
  linear layers stacked. Each host-spelled stage is the corresponding layer of the library, as a whole array; the
  gathers and sums stay opaque.
-/
import proofs.«159673_j64854006170165_1_alg».proof.Proof.Gen.ReferenceIdeal.Run
import proofs.«159673_j64854006170165_1_alg».proof.Proof.Gen.ReferenceIdeal.Read
import proofs.«159673_j64854006170165_1_alg».proof.Proof.LibSageTwo

set_option maxRecDepth 16384

noncomputable section

namespace Cert.ReferenceIdeal.Net

open Cert.ReferenceIdeal Cert.ReferenceIdeal.Gen Cert.ReferenceIdeal.Value Cert.ReferenceIdeal.Read
open Idealize.ShloMosaic Idealize.ShloMosaic.TcCoe Idealize.ShloMosaic.ValueIdx Idealize.SL.Sem
open Cert.Sage Cert.LibRowBias Cert.MeanLayers Cert.SageTwo

/-! ## The host lines of the reference, named -/

/-- An index vector with its negative entries wrapped by n, as a one-column table. -/
def wrapM (x2 : IVec S600000 32) : IVec S600000x1 32 :=
  broadcastInDim S600000x1 ![0] bcast_S600000_S600000x1_0 (select (cmpi .slt x2 (broadcastInDim S600000 ![] bcast_S_S600000 (constantI S_ 32 0#32))) (addi x2 (broadcastInDim S600000 ![] bcast_S_S600000 (constantI S_ 32 20000#32))) x2)

def wrapU (x1 : IVec S600000 32) : IVec S600000x1 32 :=
  broadcastInDim S600000x1 ![0] bcast_S600000_S600000x1_0 (select (cmpi .slt x1 (broadcastInDim S600000 ![] bcast_S_S600000 (constantI S_ 32 0#32))) (addi x1 (broadcastInDim S600000 ![] bcast_S_S600000 (constantI S_ 32 100000#32))) x1)

/-- The movie rows gathered along the edges and summed per user. -/
def sum1 (x0 : FVec Ideal S20000x64 .f32) (x1 x2 : IVec S600000 32) : FVec Ideal S100000x64 .f32 :=
  Host.scatterAdd scatter_S100000x64_S600000x1_S600000x64_1_0_0_1 (broadcastInDim S100000x64 ![] bcast_S_S100000x64 (constant (F := Ideal) S_ .f32 0x00000000#32))
    (broadcastInDim S600000x1 ![0] bcast_S600000_S600000x1_0 x1)
    (Host.gather gather_S20000x64_S600000x1_S600000x64_1_0_n_n_0_1_164 x0 (wrapM x2))

/-- The number of edges per user. -/
def cntU (x1 : IVec S600000 32) : FVec Ideal S100000 .f32 :=
  Host.scatterAdd scatter_S100000_S600000x1_S600000_n_0_0_1 (broadcastInDim S100000 ![] bcast_S_S100000 (constant (F := Ideal) S_ .f32 0x00000000#32))
    (broadcastInDim S600000x1 ![0] bcast_S600000_S600000x1_0 x1)
    (broadcastInDim S600000 ![] bcast_S_S600000 (constant (F := Ideal) S_ .f32 0x3F800000#32))

/-- The number of edges per movie. -/
def cntM (x2 : IVec S600000 32) : FVec Ideal S20000 .f32 :=
  Host.scatterAdd scatter_S20000_S600000x1_S600000_n_0_0_1 (broadcastInDim S20000 ![] bcast_S_S20000 (constant (F := Ideal) S_ .f32 0x00000000#32))
    (broadcastInDim S600000x1 ![0] bcast_S600000_S600000x1_0 x2)
    (broadcastInDim S600000 ![] bcast_S_S600000 (constant (F := Ideal) S_ .f32 0x3F800000#32))

/-- The user rows gathered along the edges and summed per movie. -/
def sum2 (ux : FVec Ideal S100000x128 .f32) (x1 x2 : IVec S600000 32) : FVec Ideal S20000x128 .f32 :=
  Host.scatterAdd scatter_S20000x128_S600000x1_S600000x128_1_0_0_1 (broadcastInDim S20000x128 ![] bcast_S_S20000x128 (constant (F := Ideal) S_ .f32 0x00000000#32))
    (broadcastInDim S600000x1 ![0] bcast_S600000_S600000x1_0 x2)
    (Host.gather gather_S100000x128_S600000x1_S600000x128_1_0_n_n_0_1_1128 ux (wrapU x1))

/-- The movie rows gathered along the edges and summed per user. -/
def sum3 (mz : FVec Ideal S20000x128 .f32) (x1 x2 : IVec S600000 32) : FVec Ideal S100000x128 .f32 :=
  Host.scatterAdd scatter_S100000x128_S600000x1_S600000x128_1_0_0_1 (broadcastInDim S100000x128 ![] bcast_S_S100000x128 (constant (F := Ideal) S_ .f32 0x00000000#32))
    (broadcastInDim S600000x1 ![0] bcast_S600000_S600000x1_0 x1)
    (Host.gather gather_S20000x128_S600000x1_S600000x128_1_0_n_n_0_1_1128 mz (wrapM x2))

/-! ## The stages in the host's spelling, their operands variables -/

def UXh (s : FVec Ideal S100000x64 .f32) (cn : FVec Ideal S100000 .f32) (x4 : FVec Ideal S1x128 .f32) (x5 : FVec Ideal S128x64 .f32) (x6 : FVec Ideal S128 .f32) (x7 : FVec Ideal S128x128 .f32) : FVec Ideal S100000x128 .f32 :=
  maximumf (addf (addf (Host.dotGeneral dot_S100000x64_S64x128_S100000x128_1_0_0_1_n_n none (Host.divf s (broadcastInDim S100000x64 ![0, 1] bcast_S100000x1_S100000x64_0_1 (broadcastInDim S100000x1 ![0] bcast_S100000_S100000x1_0 (maximumf cn (broadcastInDim S100000 ![] bcast_S_S100000 (constant (F := Ideal) S_ .f32 0x3F800000#32)))))) (transpose S64x128 [1, 0] x5 transposes_S128x64_S64x128_1_0)) (broadcastInDim S100000x128 ![0, 1] bcast_S1x128_S100000x128_0_1 (broadcastInDim S1x128 ![1] bcast_S128_S1x128_1 x6))) (Host.dotGeneral dot_S100000x128_S128x128_S100000x128_1_0_0_1_n_n none (broadcastInDim S100000x128 ![0, 1] bcast_S1x128_S100000x128_0_1 x4) (transpose S128x128 [1, 0] x7 transposes_S128x128_S128x128_1_0))) (broadcastInDim S100000x128 ![] bcast_S_S100000x128 (constant (F := Ideal) S_ .f32 0x00000000#32))

def MZh (s : FVec Ideal S20000x128 .f32) (cn : FVec Ideal S20000 .f32) (x0 : FVec Ideal S20000x64 .f32) (x8 : FVec Ideal S128x128 .f32) (x9 : FVec Ideal S128 .f32) (x10 : FVec Ideal S128x64 .f32) : FVec Ideal S20000x128 .f32 :=
  maximumf (addf (addf (Host.dotGeneral dot_S20000x128_S128x128_S20000x128_1_0_0_1_n_n none (Host.divf s (broadcastInDim S20000x128 ![0, 1] bcast_S20000x1_S20000x128_0_1 (broadcastInDim S20000x1 ![0] bcast_S20000_S20000x1_0 (maximumf cn (broadcastInDim S20000 ![] bcast_S_S20000 (constant (F := Ideal) S_ .f32 0x3F800000#32)))))) (transpose S128x128 [1, 0] x8 transposes_S128x128_S128x128_1_0)) (broadcastInDim S20000x128 ![0, 1] bcast_S1x128_S20000x128_0_1 (broadcastInDim S1x128 ![1] bcast_S128_S1x128_1 x9))) (Host.dotGeneral dot_S20000x64_S64x128_S20000x128_1_0_0_1_n_n none x0 (transpose S64x128 [1, 0] x10 transposes_S128x64_S64x128_1_0))) (broadcastInDim S20000x128 ![] bcast_S_S20000x128 (constant (F := Ideal) S_ .f32 0x00000000#32))

def UZh (s : FVec Ideal S100000x128 .f32) (cn : FVec Ideal S100000 .f32) (ux : FVec Ideal S100000x128 .f32) (x11 : FVec Ideal S128x128 .f32) (x12 : FVec Ideal S128 .f32) (x13 : FVec Ideal S128x128 .f32) : FVec Ideal S100000x128 .f32 :=
  maximumf (addf (addf (Host.dotGeneral dot_S100000x128_S128x128_S100000x128_1_0_0_1_n_n none (Host.divf s (broadcastInDim S100000x128 ![0, 1] bcast_S100000x1_S100000x128_0_1 (broadcastInDim S100000x1 ![0] bcast_S100000_S100000x1_0 (maximumf cn (broadcastInDim S100000 ![] bcast_S_S100000 (constant (F := Ideal) S_ .f32 0x3F800000#32)))))) (transpose S128x128 [1, 0] x11 transposes_S128x128_S128x128_1_0)) (broadcastInDim S100000x128 ![0, 1] bcast_S1x128_S100000x128_0_1 (broadcastInDim S1x128 ![1] bcast_S128_S1x128_1 x12))) (Host.dotGeneral dot_S100000x128_S128x128_S100000x128_1_0_0_1_n_n none ux (transpose S128x128 [1, 0] x13 transposes_S128x128_S128x128_1_0))) (broadcastInDim S100000x128 ![] bcast_S_S100000x128 (constant (F := Ideal) S_ .f32 0x00000000#32))

def ZUh (uz : FVec Ideal S100000x128 .f32) (x14 : FVec Ideal S64x128 .f32) (x15 : FVec Ideal S64 .f32) : FVec Ideal S100000x64 .f32 :=
  addf (Host.dotGeneral dot_S100000x128_S128x64_S100000x64_1_0_0_1_n_n none uz (transpose S128x64 [1, 0] x14 transposes_S64x128_S128x64_1_0)) (broadcastInDim S100000x64 ![0, 1] bcast_S1x64_S100000x64_0_1 (broadcastInDim S1x64 ![1] bcast_S64_S1x64_1 x15))

def ZMh (mz : FVec Ideal S20000x128 .f32) (x16 : FVec Ideal S64x128 .f32) (x17 : FVec Ideal S64 .f32) : FVec Ideal S20000x64 .f32 :=
  addf (Host.dotGeneral dot_S20000x128_S128x64_S20000x64_1_0_0_1_n_n none mz (transpose S128x64 [1, 0] x16 transposes_S64x128_S128x64_1_0)) (broadcastInDim S20000x64 ![0, 1] bcast_S1x64_S20000x64_0_1 (broadcastInDim S1x64 ![1] bcast_S64_S1x64_1 x17))

/-! ## Each stage is a layer -/

theorem UXh_eq (s : FVec Ideal S100000x64 .f32) (cn : FVec Ideal S100000 .f32) (x4 : FVec Ideal S1x128 .f32) (x5 : FVec Ideal S128x64 .f32) (x6 : FVec Ideal S128 .f32) (x7 : FVec Ideal S128x128 .f32) :
    UXh s cn x4 x5 x6 x7 = layer (meanOf s (fun r => cn (ix1 r))) (rep (R := 100000) x4) x5 x6 x7 := by
  unfold UXh
  rw [host_mean (R := 100000) (K := 64) s cn bcast_S_S100000 bcast_S100000_S100000x1_0 bcast_S100000x1_S100000x64_0_1,
    host_rep (R := 100000) (K := 128) bcast_S1x128_S100000x128_0_1 x4]
  exact host_layer dot_S100000x64_S64x128_S100000x128_1_0_0_1_n_n rfl rfl lhs_main_v21_0 lhs_main_v21_1 rhs_main_v21_0 rhs_main_v21_1
    dot_S100000x128_S128x128_S100000x128_1_0_0_1_n_n rfl rfl lhs_main_v26_0 lhs_main_v26_1 rhs_main_v26_0 rhs_main_v26_1 _ _ _ _ _ _ _ x5 x7 x6

theorem MZh_eq (s : FVec Ideal S20000x128 .f32) (cn : FVec Ideal S20000 .f32) (x0 : FVec Ideal S20000x64 .f32) (x8 : FVec Ideal S128x128 .f32) (x9 : FVec Ideal S128 .f32) (x10 : FVec Ideal S128x64 .f32) :
    MZh s cn x0 x8 x9 x10 = layer (meanOf s (fun r => cn (ix1 r))) x0 x8 x9 x10 := by
  unfold MZh
  rw [host_mean (R := 20000) (K := 128) s cn bcast_S_S20000 bcast_S20000_S20000x1_0 bcast_S20000x1_S20000x128_0_1]
  exact host_layer dot_S20000x128_S128x128_S20000x128_1_0_0_1_n_n rfl rfl lhs_main_v49_0 lhs_main_v49_1 rhs_main_v49_0 rhs_main_v49_1
    dot_S20000x64_S64x128_S20000x128_1_0_0_1_n_n rfl rfl lhs_main_v54_0 lhs_main_v54_1 rhs_main_v54_0 rhs_main_v54_1 _ _ _ _ _ _ x0 x8 x10 x9

theorem UZh_eq (s : FVec Ideal S100000x128 .f32) (cn : FVec Ideal S100000 .f32) (ux : FVec Ideal S100000x128 .f32) (x11 : FVec Ideal S128x128 .f32) (x12 : FVec Ideal S128 .f32) (x13 : FVec Ideal S128x128 .f32) :
    UZh s cn ux x11 x12 x13 = layer (meanOf s (fun r => cn (ix1 r))) ux x11 x12 x13 := by
  unfold UZh
  rw [host_mean (R := 100000) (K := 128) s cn bcast_S_S100000 bcast_S100000_S100000x1_0 bcast_S100000x1_S100000x128_0_1]
  exact host_layer dot_S100000x128_S128x128_S100000x128_1_0_0_1_n_n rfl rfl lhs_main_v77_0 lhs_main_v77_1 rhs_main_v77_0 rhs_main_v77_1
    dot_S100000x128_S128x128_S100000x128_1_0_0_1_n_n rfl rfl lhs_main_v82_0 lhs_main_v82_1 rhs_main_v82_0 rhs_main_v82_1 _ _ _ _ _ _ ux x11 x13 x12

theorem ZUh_eq (uz : FVec Ideal S100000x128 .f32) (x14 : FVec Ideal S64x128 .f32) (x15 : FVec Ideal S64 .f32) : ZUh uz x14 x15 = proj uz x14 x15 := by
  unfold ZUh
  exact host_proj dot_S100000x128_S128x64_S100000x64_1_0_0_1_n_n rfl rfl lhs_main_v86_0 lhs_main_v86_1 rhs_main_v86_0 rhs_main_v86_1 _ _ _ uz x14 x15

theorem ZMh_eq (mz : FVec Ideal S20000x128 .f32) (x16 : FVec Ideal S64x128 .f32) (x17 : FVec Ideal S64 .f32) : ZMh mz x16 x17 = proj mz x16 x17 := by
  unfold ZMh
  exact host_proj dot_S20000x128_S128x64_S20000x64_1_0_0_1_n_n rfl rfl lhs_main_v91_0 lhs_main_v91_1 rhs_main_v91_0 rhs_main_v91_1 _ _ _ mz x16 x17

/-! ## The result as stacked layers of the arguments -/

/-- The user features after the first layer. -/
def UX (x0 : FVec Ideal S20000x64 .f32) (x1 : IVec S600000 32) (x2 : IVec S600000 32) (x4 : FVec Ideal S1x128 .f32) (x5 : FVec Ideal S128x64 .f32) (x6 : FVec Ideal S128 .f32) (x7 : FVec Ideal S128x128 .f32) : FVec Ideal S100000x128 .f32 :=
  layer (meanOf (sum1 x0 x1 x2) (fun r => cntU x1 (ix1 r))) (rep (R := 100000) x4) x5 x6 x7

/-- The movie features after the second layer. -/
def MZ (x0 : FVec Ideal S20000x64 .f32) (x1 : IVec S600000 32) (x2 : IVec S600000 32) (x4 : FVec Ideal S1x128 .f32) (x5 : FVec Ideal S128x64 .f32) (x6 : FVec Ideal S128 .f32) (x7 : FVec Ideal S128x128 .f32) (x8 : FVec Ideal S128x128 .f32) (x9 : FVec Ideal S128 .f32) (x10 : FVec Ideal S128x64 .f32) : FVec Ideal S20000x128 .f32 :=
  layer (meanOf (sum2 (UX x0 x1 x2 x4 x5 x6 x7) x1 x2) (fun r => cntM x2 (ix1 r))) x0 x8 x9 x10

/-- The user features after the third layer. -/
def UZ (x0 : FVec Ideal S20000x64 .f32) (x1 : IVec S600000 32) (x2 : IVec S600000 32) (x4 : FVec Ideal S1x128 .f32) (x5 : FVec Ideal S128x64 .f32) (x6 : FVec Ideal S128 .f32) (x7 : FVec Ideal S128x128 .f32) (x8 : FVec Ideal S128x128 .f32) (x9 : FVec Ideal S128 .f32) (x10 : FVec Ideal S128x64 .f32) (x11 : FVec Ideal S128x128 .f32) (x12 : FVec Ideal S128 .f32) (x13 : FVec Ideal S128x128 .f32) : FVec Ideal S100000x128 .f32 :=
  layer (meanOf (sum3 (MZ x0 x1 x2 x4 x5 x6 x7 x8 x9 x10) x1 x2) (fun r => cntU x1 (ix1 r))) (UX x0 x1 x2 x4 x5 x6 x7) x11 x12 x13

/-- The first result: the projected user features above the projected movie features. -/
def X (x0 : FVec Ideal S20000x64 .f32) (x1 : IVec S600000 32) (x2 : IVec S600000 32) (x4 : FVec Ideal S1x128 .f32) (x5 : FVec Ideal S128x64 .f32) (x6 : FVec Ideal S128 .f32) (x7 : FVec Ideal S128x128 .f32) (x8 : FVec Ideal S128x128 .f32) (x9 : FVec Ideal S128 .f32) (x10 : FVec Ideal S128x64 .f32) (x11 : FVec Ideal S128x128 .f32) (x12 : FVec Ideal S128 .f32) (x13 : FVec Ideal S128x128 .f32) (x14 : FVec Ideal S64x128 .f32) (x15 : FVec Ideal S64 .f32) (x16 : FVec Ideal S64x128 .f32) (x17 : FVec Ideal S64 .f32) : FVec Ideal S120000x64 .f32 :=
  concatenate S120000x64 0 [⟨S100000x64, proj (UZ x0 x1 x2 x4 x5 x6 x7 x8 x9 x10 x11 x12 x13) x14 x15⟩, ⟨S20000x64, proj (MZ x0 x1 x2 x4 x5 x6 x7 x8 x9 x10) x16 x17⟩] concatenates_S100000x64_S20000x64_S120000x64_d0

set_option maxHeartbeats 4000000 in
/-- The run's first result term in the host's spelling, its stages folded. -/
theorem res_h (x0 : FVec Ideal S20000x64 .f32) (x1 : IVec S600000 32) (x2 : IVec S600000 32) (x4 : FVec Ideal S1x128 .f32) (x5 : FVec Ideal S128x64 .f32) (x6 : FVec Ideal S128 .f32) (x7 : FVec Ideal S128x128 .f32) (x8 : FVec Ideal S128x128 .f32) (x9 : FVec Ideal S128 .f32) (x10 : FVec Ideal S128x64 .f32) (x11 : FVec Ideal S128x128 .f32) (x12 : FVec Ideal S128 .f32) (x13 : FVec Ideal S128x128 .f32) (x14 : FVec Ideal S64x128 .f32) (x15 : FVec Ideal S64 .f32) (x16 : FVec Ideal S64x128 .f32) (x17 : FVec Ideal S64 .f32) :
    concatenate S120000x64 0 [⟨S100000x64, (addf (Host.dotGeneral dot_S100000x128_S128x64_S100000x64_1_0_0_1_n_n none (maximumf (addf (addf (Host.dotGeneral dot_S100000x128_S128x128_S100000x128_1_0_0_1_n_n none (Host.divf (Host.scatterAdd scatter_S100000x128_S600000x1_S600000x128_1_0_0_1 (broadcastInDim S100000x128 ![] bcast_S_S100000x128 (constant (F := Ideal) S_ .f32 0x00000000#32)) (broadcastInDim S600000x1 ![0] bcast_S600000_S600000x1_0 x1) (Host.gather gather_S20000x128_S600000x1_S600000x128_1_0_n_n_0_1_1128 (maximumf (addf (addf (Host.dotGeneral dot_S20000x128_S128x128_S20000x128_1_0_0_1_n_n none (Host.divf (Host.scatterAdd scatter_S20000x128_S600000x1_S600000x128_1_0_0_1 (broadcastInDim S20000x128 ![] bcast_S_S20000x128 (constant (F := Ideal) S_ .f32 0x00000000#32)) (broadcastInDim S600000x1 ![0] bcast_S600000_S600000x1_0 x2) (Host.gather gather_S100000x128_S600000x1_S600000x128_1_0_n_n_0_1_1128 (maximumf (addf (addf (Host.dotGeneral dot_S100000x64_S64x128_S100000x128_1_0_0_1_n_n none (Host.divf (Host.scatterAdd scatter_S100000x64_S600000x1_S600000x64_1_0_0_1 (broadcastInDim S100000x64 ![] bcast_S_S100000x64 (constant (F := Ideal) S_ .f32 0x00000000#32)) (broadcastInDim S600000x1 ![0] bcast_S600000_S600000x1_0 x1) (Host.gather gather_S20000x64_S600000x1_S600000x64_1_0_n_n_0_1_164 x0 (broadcastInDim S600000x1 ![0] bcast_S600000_S600000x1_0 (select (cmpi .slt x2 (broadcastInDim S600000 ![] bcast_S_S600000 (constantI S_ 32 0#32))) (addi x2 (broadcastInDim S600000 ![] bcast_S_S600000 (constantI S_ 32 20000#32))) x2)))) (broadcastInDim S100000x64 ![0, 1] bcast_S100000x1_S100000x64_0_1 (broadcastInDim S100000x1 ![0] bcast_S100000_S100000x1_0 (maximumf (Host.scatterAdd scatter_S100000_S600000x1_S600000_n_0_0_1 (broadcastInDim S100000 ![] bcast_S_S100000 (constant (F := Ideal) S_ .f32 0x00000000#32)) (broadcastInDim S600000x1 ![0] bcast_S600000_S600000x1_0 x1) (broadcastInDim S600000 ![] bcast_S_S600000 (constant (F := Ideal) S_ .f32 0x3F800000#32))) (broadcastInDim S100000 ![] bcast_S_S100000 (constant (F := Ideal) S_ .f32 0x3F800000#32)))))) (transpose S64x128 [1, 0] x5 transposes_S128x64_S64x128_1_0)) (broadcastInDim S100000x128 ![0, 1] bcast_S1x128_S100000x128_0_1 (broadcastInDim S1x128 ![1] bcast_S128_S1x128_1 x6))) (Host.dotGeneral dot_S100000x128_S128x128_S100000x128_1_0_0_1_n_n none (broadcastInDim S100000x128 ![0, 1] bcast_S1x128_S100000x128_0_1 x4) (transpose S128x128 [1, 0] x7 transposes_S128x128_S128x128_1_0))) (broadcastInDim S100000x128 ![] bcast_S_S100000x128 (constant (F := Ideal) S_ .f32 0x00000000#32))) (broadcastInDim S600000x1 ![0] bcast_S600000_S600000x1_0 (select (cmpi .slt x1 (broadcastInDim S600000 ![] bcast_S_S600000 (constantI S_ 32 0#32))) (addi x1 (broadcastInDim S600000 ![] bcast_S_S600000 (constantI S_ 32 100000#32))) x1)))) (broadcastInDim S20000x128 ![0, 1] bcast_S20000x1_S20000x128_0_1 (broadcastInDim S20000x1 ![0] bcast_S20000_S20000x1_0 (maximumf (Host.scatterAdd scatter_S20000_S600000x1_S600000_n_0_0_1 (broadcastInDim S20000 ![] bcast_S_S20000 (constant (F := Ideal) S_ .f32 0x00000000#32)) (broadcastInDim S600000x1 ![0] bcast_S600000_S600000x1_0 x2) (broadcastInDim S600000 ![] bcast_S_S600000 (constant (F := Ideal) S_ .f32 0x3F800000#32))) (broadcastInDim S20000 ![] bcast_S_S20000 (constant (F := Ideal) S_ .f32 0x3F800000#32)))))) (transpose S128x128 [1, 0] x8 transposes_S128x128_S128x128_1_0)) (broadcastInDim S20000x128 ![0, 1] bcast_S1x128_S20000x128_0_1 (broadcastInDim S1x128 ![1] bcast_S128_S1x128_1 x9))) (Host.dotGeneral dot_S20000x64_S64x128_S20000x128_1_0_0_1_n_n none x0 (transpose S64x128 [1, 0] x10 transposes_S128x64_S64x128_1_0))) (broadcastInDim S20000x128 ![] bcast_S_S20000x128 (constant (F := Ideal) S_ .f32 0x00000000#32))) (broadcastInDim S600000x1 ![0] bcast_S600000_S600000x1_0 (select (cmpi .slt x2 (broadcastInDim S600000 ![] bcast_S_S600000 (constantI S_ 32 0#32))) (addi x2 (broadcastInDim S600000 ![] bcast_S_S600000 (constantI S_ 32 20000#32))) x2)))) (broadcastInDim S100000x128 ![0, 1] bcast_S100000x1_S100000x128_0_1 (broadcastInDim S100000x1 ![0] bcast_S100000_S100000x1_0 (maximumf (Host.scatterAdd scatter_S100000_S600000x1_S600000_n_0_0_1 (broadcastInDim S100000 ![] bcast_S_S100000 (constant (F := Ideal) S_ .f32 0x00000000#32)) (broadcastInDim S600000x1 ![0] bcast_S600000_S600000x1_0 x1) (broadcastInDim S600000 ![] bcast_S_S600000 (constant (F := Ideal) S_ .f32 0x3F800000#32))) (broadcastInDim S100000 ![] bcast_S_S100000 (constant (F := Ideal) S_ .f32 0x3F800000#32)))))) (transpose S128x128 [1, 0] x11 transposes_S128x128_S128x128_1_0)) (broadcastInDim S100000x128 ![0, 1] bcast_S1x128_S100000x128_0_1 (broadcastInDim S1x128 ![1] bcast_S128_S1x128_1 x12))) (Host.dotGeneral dot_S100000x128_S128x128_S100000x128_1_0_0_1_n_n none (maximumf (addf (addf (Host.dotGeneral dot_S100000x64_S64x128_S100000x128_1_0_0_1_n_n none (Host.divf (Host.scatterAdd scatter_S100000x64_S600000x1_S600000x64_1_0_0_1 (broadcastInDim S100000x64 ![] bcast_S_S100000x64 (constant (F := Ideal) S_ .f32 0x00000000#32)) (broadcastInDim S600000x1 ![0] bcast_S600000_S600000x1_0 x1) (Host.gather gather_S20000x64_S600000x1_S600000x64_1_0_n_n_0_1_164 x0 (broadcastInDim S600000x1 ![0] bcast_S600000_S600000x1_0 (select (cmpi .slt x2 (broadcastInDim S600000 ![] bcast_S_S600000 (constantI S_ 32 0#32))) (addi x2 (broadcastInDim S600000 ![] bcast_S_S600000 (constantI S_ 32 20000#32))) x2)))) (broadcastInDim S100000x64 ![0, 1] bcast_S100000x1_S100000x64_0_1 (broadcastInDim S100000x1 ![0] bcast_S100000_S100000x1_0 (maximumf (Host.scatterAdd scatter_S100000_S600000x1_S600000_n_0_0_1 (broadcastInDim S100000 ![] bcast_S_S100000 (constant (F := Ideal) S_ .f32 0x00000000#32)) (broadcastInDim S600000x1 ![0] bcast_S600000_S600000x1_0 x1) (broadcastInDim S600000 ![] bcast_S_S600000 (constant (F := Ideal) S_ .f32 0x3F800000#32))) (broadcastInDim S100000 ![] bcast_S_S100000 (constant (F := Ideal) S_ .f32 0x3F800000#32)))))) (transpose S64x128 [1, 0] x5 transposes_S128x64_S64x128_1_0)) (broadcastInDim S100000x128 ![0, 1] bcast_S1x128_S100000x128_0_1 (broadcastInDim S1x128 ![1] bcast_S128_S1x128_1 x6))) (Host.dotGeneral dot_S100000x128_S128x128_S100000x128_1_0_0_1_n_n none (broadcastInDim S100000x128 ![0, 1] bcast_S1x128_S100000x128_0_1 x4) (transpose S128x128 [1, 0] x7 transposes_S128x128_S128x128_1_0))) (broadcastInDim S100000x128 ![] bcast_S_S100000x128 (constant (F := Ideal) S_ .f32 0x00000000#32))) (transpose S128x128 [1, 0] x13 transposes_S128x128_S128x128_1_0))) (broadcastInDim S100000x128 ![] bcast_S_S100000x128 (constant (F := Ideal) S_ .f32 0x00000000#32))) (transpose S128x64 [1, 0] x14 transposes_S64x128_S128x64_1_0)) (broadcastInDim S100000x64 ![0, 1] bcast_S1x64_S100000x64_0_1 (broadcastInDim S1x64 ![1] bcast_S64_S1x64_1 x15)))⟩, ⟨S20000x64, (addf (Host.dotGeneral dot_S20000x128_S128x64_S20000x64_1_0_0_1_n_n none (maximumf (addf (addf (Host.dotGeneral dot_S20000x128_S128x128_S20000x128_1_0_0_1_n_n none (Host.divf (Host.scatterAdd scatter_S20000x128_S600000x1_S600000x128_1_0_0_1 (broadcastInDim S20000x128 ![] bcast_S_S20000x128 (constant (F := Ideal) S_ .f32 0x00000000#32)) (broadcastInDim S600000x1 ![0] bcast_S600000_S600000x1_0 x2) (Host.gather gather_S100000x128_S600000x1_S600000x128_1_0_n_n_0_1_1128 (maximumf (addf (addf (Host.dotGeneral dot_S100000x64_S64x128_S100000x128_1_0_0_1_n_n none (Host.divf (Host.scatterAdd scatter_S100000x64_S600000x1_S600000x64_1_0_0_1 (broadcastInDim S100000x64 ![] bcast_S_S100000x64 (constant (F := Ideal) S_ .f32 0x00000000#32)) (broadcastInDim S600000x1 ![0] bcast_S600000_S600000x1_0 x1) (Host.gather gather_S20000x64_S600000x1_S600000x64_1_0_n_n_0_1_164 x0 (broadcastInDim S600000x1 ![0] bcast_S600000_S600000x1_0 (select (cmpi .slt x2 (broadcastInDim S600000 ![] bcast_S_S600000 (constantI S_ 32 0#32))) (addi x2 (broadcastInDim S600000 ![] bcast_S_S600000 (constantI S_ 32 20000#32))) x2)))) (broadcastInDim S100000x64 ![0, 1] bcast_S100000x1_S100000x64_0_1 (broadcastInDim S100000x1 ![0] bcast_S100000_S100000x1_0 (maximumf (Host.scatterAdd scatter_S100000_S600000x1_S600000_n_0_0_1 (broadcastInDim S100000 ![] bcast_S_S100000 (constant (F := Ideal) S_ .f32 0x00000000#32)) (broadcastInDim S600000x1 ![0] bcast_S600000_S600000x1_0 x1) (broadcastInDim S600000 ![] bcast_S_S600000 (constant (F := Ideal) S_ .f32 0x3F800000#32))) (broadcastInDim S100000 ![] bcast_S_S100000 (constant (F := Ideal) S_ .f32 0x3F800000#32)))))) (transpose S64x128 [1, 0] x5 transposes_S128x64_S64x128_1_0)) (broadcastInDim S100000x128 ![0, 1] bcast_S1x128_S100000x128_0_1 (broadcastInDim S1x128 ![1] bcast_S128_S1x128_1 x6))) (Host.dotGeneral dot_S100000x128_S128x128_S100000x128_1_0_0_1_n_n none (broadcastInDim S100000x128 ![0, 1] bcast_S1x128_S100000x128_0_1 x4) (transpose S128x128 [1, 0] x7 transposes_S128x128_S128x128_1_0))) (broadcastInDim S100000x128 ![] bcast_S_S100000x128 (constant (F := Ideal) S_ .f32 0x00000000#32))) (broadcastInDim S600000x1 ![0] bcast_S600000_S600000x1_0 (select (cmpi .slt x1 (broadcastInDim S600000 ![] bcast_S_S600000 (constantI S_ 32 0#32))) (addi x1 (broadcastInDim S600000 ![] bcast_S_S600000 (constantI S_ 32 100000#32))) x1)))) (broadcastInDim S20000x128 ![0, 1] bcast_S20000x1_S20000x128_0_1 (broadcastInDim S20000x1 ![0] bcast_S20000_S20000x1_0 (maximumf (Host.scatterAdd scatter_S20000_S600000x1_S600000_n_0_0_1 (broadcastInDim S20000 ![] bcast_S_S20000 (constant (F := Ideal) S_ .f32 0x00000000#32)) (broadcastInDim S600000x1 ![0] bcast_S600000_S600000x1_0 x2) (broadcastInDim S600000 ![] bcast_S_S600000 (constant (F := Ideal) S_ .f32 0x3F800000#32))) (broadcastInDim S20000 ![] bcast_S_S20000 (constant (F := Ideal) S_ .f32 0x3F800000#32)))))) (transpose S128x128 [1, 0] x8 transposes_S128x128_S128x128_1_0)) (broadcastInDim S20000x128 ![0, 1] bcast_S1x128_S20000x128_0_1 (broadcastInDim S1x128 ![1] bcast_S128_S1x128_1 x9))) (Host.dotGeneral dot_S20000x64_S64x128_S20000x128_1_0_0_1_n_n none x0 (transpose S64x128 [1, 0] x10 transposes_S128x64_S64x128_1_0))) (broadcastInDim S20000x128 ![] bcast_S_S20000x128 (constant (F := Ideal) S_ .f32 0x00000000#32))) (transpose S128x64 [1, 0] x16 transposes_S64x128_S128x64_1_0)) (broadcastInDim S20000x64 ![0, 1] bcast_S1x64_S20000x64_0_1 (broadcastInDim S1x64 ![1] bcast_S64_S1x64_1 x17)))⟩] concatenates_S100000x64_S20000x64_S120000x64_d0 =
    concatenate S120000x64 0 [⟨S100000x64, ZUh (UZh (sum3 (MZh (sum2 (UXh (sum1 x0 x1 x2) (cntU x1) x4 x5 x6 x7) x1 x2) (cntM x2) x0 x8 x9 x10) x1 x2) (cntU x1) (UXh (sum1 x0 x1 x2) (cntU x1) x4 x5 x6 x7) x11 x12 x13) x14 x15⟩,
      ⟨S20000x64, ZMh (MZh (sum2 (UXh (sum1 x0 x1 x2) (cntU x1) x4 x5 x6 x7) x1 x2) (cntM x2) x0 x8 x9 x10) x16 x17⟩] concatenates_S100000x64_S20000x64_S120000x64_d0 := by
  unfold ZUh ZMh UZh MZh UXh sum3 sum2 sum1 cntU cntM wrapM wrapU
  rfl

set_option maxHeartbeats 4000000 in
/-- The reference's first result is X of the arguments. -/
theorem res_eq (m : (ℓ : Loc nD τ sig) → Buf (Elt Ideal) ℓ) (c : Dev nD) :
    res_main_v97 (F := Ideal) m c = X (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold res_main_v97
  refine (res_h (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))).trans ?_
  rw [UXh_eq, MZh_eq, UZh_eq, ZUh_eq, ZMh_eq]
  rfl

end Cert.ReferenceIdeal.Net

end
-- ==== Proof.Bridge.lean ====
/-
  The two sides agree. The kernel program's first result is the projected third layer above the projected second layer,
  each layer read off a region, its operands the host's gathers and segment sums; the reference's is the same stack of
  layers in the host's spelling. The gathers, sums and counts are the same host operations on both sides. What differs:
  the count enters a region as a column and the reference as a vector; a bias enters a region as a one-row matrix and the
  reference as a vector; and the first layer's second product, whose node features are one repeated row, is folded by
  the kernel program into the bias row beforehand. The first two are re-readings of the same numbers, the third is the
  regrouping of a sum of three extended reals.
-/
import proofs.«159673_j64854006170165_1_alg».proof.Proof.KernelArrays
import proofs.«159673_j64854006170165_1_alg».proof.Proof.RefStages

set_option maxRecDepth 16384

noncomputable section

namespace Cert.Bridge

open Idealize.ShloMosaic Idealize.ShloMosaic.ValueIdx
open Cert.Sage Cert.LibRowBias Cert.MeanLayers Cert.SageTwo

/-- A vector laid out as a one-row matrix has the vector as its row. -/
theorem rowOf_bcast {N : ℕ} (h1 : (⟨1, ![N]⟩ : Shape).BroadcastsInDim ⟨2, ![1, N]⟩ (![1] : Fin 1 → Fin 2))
    (b : FVec Ideal ⟨1, ![N]⟩ .f32) : rowOf (broadcastInDim ⟨2, ![1, N]⟩ ![1] h1 b) = b := by
  funext j
  obtain ⟨q, rfl⟩ : ∃ q : Fin N, j = ix1 q := ⟨j 0, eq_ix1 j⟩
  refine broadcastInDim_apply _ h1 b (ix2 (0 : Fin 1) q) (ix1 q) fun a => ?_
  match a with
  | ⟨0, _⟩ =>
    show q.val = if N = 1 then 0 else q.val
    split
    · have := q.isLt; omega
    · rfl

/-! ## The host lines are the same on both sides -/

theorem sum1_eq (x0 : FVec Ideal Cert.KernelIdeal.S20000x64 .f32) (x1 : IVec Cert.KernelIdeal.S600000 32) (x2 : IVec Cert.KernelIdeal.S600000 32) : Cert.KernelIdeal.Net.sum1 x0 x1 x2 = Cert.ReferenceIdeal.Net.sum1 x0 x1 x2 := rfl
theorem sum2_eq (ux : FVec Ideal Cert.KernelIdeal.S100000x128 .f32) (x1 : IVec Cert.KernelIdeal.S600000 32) (x2 : IVec Cert.KernelIdeal.S600000 32) : Cert.KernelIdeal.Net.sum2 ux x1 x2 = Cert.ReferenceIdeal.Net.sum2 ux x1 x2 := rfl
theorem sum3_eq (mz : FVec Ideal Cert.KernelIdeal.S20000x128 .f32) (x1 : IVec Cert.KernelIdeal.S600000 32) (x2 : IVec Cert.KernelIdeal.S600000 32) : Cert.KernelIdeal.Net.sum3 mz x1 x2 = Cert.ReferenceIdeal.Net.sum3 mz x1 x2 := rfl
theorem cntU_eq (x1 : IVec Cert.KernelIdeal.S600000 32) : Cert.KernelIdeal.Net.cntU x1 = Cert.ReferenceIdeal.Net.cntU x1 := rfl
theorem cntM_eq (x2 : IVec Cert.KernelIdeal.S600000 32) : Cert.KernelIdeal.Net.cntM x2 = Cert.ReferenceIdeal.Net.cntM x2 := rfl

/-- The count of a user's edges read off the column the regions take is the count read off the vector. -/
theorem colU_eq (x1 : IVec Cert.KernelIdeal.S600000 32) (h : Cert.KernelIdeal.S100000.ShapeCasts Cert.KernelIdeal.S100000x1) :
    (fun r : Fin 100000 => shapeCast Cert.KernelIdeal.S100000x1 (Cert.KernelIdeal.Net.cntU x1) h (ix2 r (0 : Fin 1)))
      = fun r : Fin 100000 => Cert.ReferenceIdeal.Net.cntU x1 (ix1 r) :=
  funext fun r => (Cert.LibLayout.shapeCast_a_a1_apply _ _ r 0).trans (congrFun (cntU_eq x1) _)

theorem colM_eq (x2 : IVec Cert.KernelIdeal.S600000 32) (h : Cert.KernelIdeal.S20000.ShapeCasts Cert.KernelIdeal.S20000x1) :
    (fun r : Fin 20000 => shapeCast Cert.KernelIdeal.S20000x1 (Cert.KernelIdeal.Net.cntM x2) h (ix2 r (0 : Fin 1)))
      = fun r : Fin 20000 => Cert.ReferenceIdeal.Net.cntM x2 (ix1 r) :=
  funext fun r => (Cert.LibLayout.shapeCast_a_a1_apply _ _ r 0).trans (congrFun (cntM_eq x2) _)

/-! ## The layers -/

section
open Cert.KernelIdeal

theorem d1_l0 (i : S1x128.Idx) (q : dot_S1x128_S128x128_S1x128_1_0_0_1_n_n.contr.Idx) : (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem d1_l1 (i : S1x128.Idx) (q : dot_S1x128_S128x128_S1x128_1_0_0_1_n_n.contr.Idx) : (dot_S1x128_S128x128_S1x128_1_0_0_1_n_n.lhsIdx i q 1).val = (q ⟨0, by decide⟩).val :=
  dot_S1x128_S128x128_S1x128_1_0_0_1_n_n.lhsIdx_val_of_single rfl i q
theorem d1_r0 (i : S1x128.Idx) (q : dot_S1x128_S128x128_S1x128_1_0_0_1_n_n.contr.Idx) : (dot_S1x128_S128x128_S1x128_1_0_0_1_n_n.rhsIdx i q 0).val = (q ⟨0, by decide⟩).val :=
  dot_S1x128_S128x128_S1x128_1_0_0_1_n_n.rhsIdx_val_of_single rfl i q
theorem d1_r1 (i : S1x128.Idx) (q : dot_S1x128_S128x128_S1x128_1_0_0_1_n_n.contr.Idx) : (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

end

/-- The first layer: the kernel program's folded bias row is the bias plus the embedding row's product. -/
theorem UX_eq (x0 : FVec Ideal Cert.KernelIdeal.S20000x64 .f32) (x1 : IVec Cert.KernelIdeal.S600000 32) (x2 : IVec Cert.KernelIdeal.S600000 32) (x4 : FVec Ideal Cert.KernelIdeal.S1x128 .f32) (x5 : FVec Ideal Cert.KernelIdeal.S128x64 .f32) (x6 : FVec Ideal Cert.KernelIdeal.S128 .f32) (x7 : FVec Ideal Cert.KernelIdeal.S128x128 .f32) :
    Cert.KernelIdeal.Net.UX x0 x1 x2 x4 x5 x6 x7 = Cert.ReferenceIdeal.Net.UX x0 x1 x2 x4 x5 x6 x7 := by
  unfold Cert.KernelIdeal.Net.UX Cert.ReferenceIdeal.Net.UX Cert.KernelIdeal.Blocks0.G
  rw [colU_eq, sum1_eq]
  refine layer1_eq_layer _ x4 x5 x6 x7 _ fun q => ?_
  unfold Cert.KernelIdeal.Net.bias1
  exact host_biasrow Cert.KernelIdeal.dot_S1x128_S128x128_S1x128_1_0_0_1_n_n rfl rfl d1_l0 d1_l1 d1_r0 d1_r1 _ _ x6 x4 x7 q

/-- The second layer. -/
theorem MZ_eq (x0 : FVec Ideal Cert.KernelIdeal.S20000x64 .f32) (x1 : IVec Cert.KernelIdeal.S600000 32) (x2 : IVec Cert.KernelIdeal.S600000 32) (x4 : FVec Ideal Cert.KernelIdeal.S1x128 .f32) (x5 : FVec Ideal Cert.KernelIdeal.S128x64 .f32) (x6 : FVec Ideal Cert.KernelIdeal.S128 .f32) (x7 : FVec Ideal Cert.KernelIdeal.S128x128 .f32) (x8 : FVec Ideal Cert.KernelIdeal.S128x128 .f32) (x9 : FVec Ideal Cert.KernelIdeal.S128 .f32) (x10 : FVec Ideal Cert.KernelIdeal.S128x64 .f32) :
    Cert.KernelIdeal.Net.MZ x0 x1 x2 x4 x5 x6 x7 x8 x9 x10 = Cert.ReferenceIdeal.Net.MZ x0 x1 x2 x4 x5 x6 x7 x8 x9 x10 := by
  unfold Cert.KernelIdeal.Net.MZ Cert.ReferenceIdeal.Net.MZ Cert.KernelIdeal.Blocks1.G8
  rw [UX_eq, colM_eq, sum2_eq, rowOf_bcast]

/-- The projected second layer. -/
theorem ZM_eq (x0 : FVec Ideal Cert.KernelIdeal.S20000x64 .f32) (x1 : IVec Cert.KernelIdeal.S600000 32) (x2 : IVec Cert.KernelIdeal.S600000 32) (x4 : FVec Ideal Cert.KernelIdeal.S1x128 .f32) (x5 : FVec Ideal Cert.KernelIdeal.S128x64 .f32) (x6 : FVec Ideal Cert.KernelIdeal.S128 .f32) (x7 : FVec Ideal Cert.KernelIdeal.S128x128 .f32) (x8 : FVec Ideal Cert.KernelIdeal.S128x128 .f32) (x9 : FVec Ideal Cert.KernelIdeal.S128 .f32) (x10 : FVec Ideal Cert.KernelIdeal.S128x64 .f32) (x16 : FVec Ideal Cert.KernelIdeal.S64x128 .f32) (x17 : FVec Ideal Cert.KernelIdeal.S64 .f32) :
    Cert.KernelIdeal.Net.ZM x0 x1 x2 x4 x5 x6 x7 x8 x9 x10 x16 x17 = proj (Cert.ReferenceIdeal.Net.MZ x0 x1 x2 x4 x5 x6 x7 x8 x9 x10) x16 x17 := by
  show proj (Cert.KernelIdeal.Net.MZ x0 x1 x2 x4 x5 x6 x7 x8 x9 x10) x16 (rowOf (broadcastInDim Cert.KernelIdeal.S1x64 ![1] _ x17)) = _
  rw [MZ_eq, rowOf_bcast]

/-- The projected third layer. -/
theorem ZU_eq (x0 : FVec Ideal Cert.KernelIdeal.S20000x64 .f32) (x1 : IVec Cert.KernelIdeal.S600000 32) (x2 : IVec Cert.KernelIdeal.S600000 32) (x4 : FVec Ideal Cert.KernelIdeal.S1x128 .f32) (x5 : FVec Ideal Cert.KernelIdeal.S128x64 .f32) (x6 : FVec Ideal Cert.KernelIdeal.S128 .f32) (x7 : FVec Ideal Cert.KernelIdeal.S128x128 .f32) (x8 : FVec Ideal Cert.KernelIdeal.S128x128 .f32) (x9 : FVec Ideal Cert.KernelIdeal.S128 .f32) (x10 : FVec Ideal Cert.KernelIdeal.S128x64 .f32) (x11 : FVec Ideal Cert.KernelIdeal.S128x128 .f32) (x12 : FVec Ideal Cert.KernelIdeal.S128 .f32) (x13 : FVec Ideal Cert.KernelIdeal.S128x128 .f32) (x14 : FVec Ideal Cert.KernelIdeal.S64x128 .f32) (x15 : FVec Ideal Cert.KernelIdeal.S64 .f32) :
    Cert.KernelIdeal.Net.ZU x0 x1 x2 x4 x5 x6 x7 x8 x9 x10 x11 x12 x13 x14 x15
      = proj (Cert.ReferenceIdeal.Net.UZ x0 x1 x2 x4 x5 x6 x7 x8 x9 x10 x11 x12 x13) x14 x15 := by
  unfold Cert.KernelIdeal.Net.ZU Cert.ReferenceIdeal.Net.UZ Cert.KernelIdeal.Blocks2.G Cert.KernelIdeal.Blocks2.L
  rw [MZ_eq, UX_eq, colU_eq, sum3_eq, rowOf_bcast, rowOf_bcast]

/-- The first results agree. -/
theorem X_eq (x0 : FVec Ideal Cert.KernelIdeal.S20000x64 .f32) (x1 : IVec Cert.KernelIdeal.S600000 32) (x2 : IVec Cert.KernelIdeal.S600000 32) (x4 : FVec Ideal Cert.KernelIdeal.S1x128 .f32) (x5 : FVec Ideal Cert.KernelIdeal.S128x64 .f32) (x6 : FVec Ideal Cert.KernelIdeal.S128 .f32) (x7 : FVec Ideal Cert.KernelIdeal.S128x128 .f32) (x8 : FVec Ideal Cert.KernelIdeal.S128x128 .f32) (x9 : FVec Ideal Cert.KernelIdeal.S128 .f32) (x10 : FVec Ideal Cert.KernelIdeal.S128x64 .f32) (x11 : FVec Ideal Cert.KernelIdeal.S128x128 .f32) (x12 : FVec Ideal Cert.KernelIdeal.S128 .f32) (x13 : FVec Ideal Cert.KernelIdeal.S128x128 .f32) (x14 : FVec Ideal Cert.KernelIdeal.S64x128 .f32) (x15 : FVec Ideal Cert.KernelIdeal.S64 .f32) (x16 : FVec Ideal Cert.KernelIdeal.S64x128 .f32) (x17 : FVec Ideal Cert.KernelIdeal.S64 .f32) :
    Cert.KernelIdeal.Net.X x0 x1 x2 x4 x5 x6 x7 x8 x9 x10 x11 x12 x13 x14 x15 x16 x17
      = Cert.ReferenceIdeal.Net.X x0 x1 x2 x4 x5 x6 x7 x8 x9 x10 x11 x12 x13 x14 x15 x16 x17 := by
  unfold Cert.KernelIdeal.Net.X Cert.ReferenceIdeal.Net.X
  rw [ZU_eq, ZM_eq]

end Cert.Bridge

end
-- ==== Proof.lean ====
/-
  The certificate of the graph encoder: three mean-aggregating layers over a user/movie graph, each a pipelined
  region of the kernel program fed by host gathers and segment sums, against the plain reference.

  On extended reals both programs compute, for each layer, max(mean · Wlᵀ + x · Wrᵀ + b, 0) with mean = sums / max(count, 1),
  then the two linear layers z · Wᵀ + b stacked; the gathers, sums and counts are the same host operations of the same
  operands on both sides. The kernel program's regions compute the layers block of rows by block of rows, which is the
  layer of the whole arrays because row p of a layer depends on row p of its operands only; its first layer folds the
  product of the repeated embedding row into the bias, which regroups a sum of three terms. No entry needs to be finite,
  so the precondition is not opened. The second result, an integer index table, is the same host term on both sides.

  The frames of the two kernel programs are the generated ones; the reference's is its generated run with the results
  dropped; the idealization rewrote nothing.
-/
import proofs.«159673_j64854006170165_1_alg».proof.Defs
import proofs.«159673_j64854006170165_1_alg».proof.Proof.Gen.Kernel
import proofs.«159673_j64854006170165_1_alg».proof.Proof.Gen.Kernel.Skeleton
import proofs.«159673_j64854006170165_1_alg».proof.Proof.Gen.Kernel.Launch
import proofs.«159673_j64854006170165_1_alg».proof.Proof.Gen.Kernel.Points
import proofs.«159673_j64854006170165_1_alg».proof.Proof.Gen.Kernel.Frame
import proofs.«159673_j64854006170165_1_alg».proof.Proof.Gen.KernelIdeal
import proofs.«159673_j64854006170165_1_alg».proof.Proof.Gen.KernelIdeal.Skeleton
import proofs.«159673_j64854006170165_1_alg».proof.Proof.Gen.KernelIdeal.Launch
import proofs.«159673_j64854006170165_1_alg».proof.Proof.Gen.KernelIdeal.Points
import proofs.«159673_j64854006170165_1_alg».proof.Proof.Gen.KernelIdeal.Frame
import proofs.«159673_j64854006170165_1_alg».proof.Proof.Gen.ReferenceIdeal
import proofs.«159673_j64854006170165_1_alg».proof.Proof.Gen.ReferenceIdeal.Run
import proofs.«159673_j64854006170165_1_alg».proof.Proof.Gen.ReferenceIdeal.Read
import proofs.«159673_j64854006170165_1_alg».proof.Proof.Gen.Pre_finite_inputs
import proofs.«159673_j64854006170165_1_alg».proof.Proof.KernelRun
import proofs.«159673_j64854006170165_1_alg».proof.Proof.KernelArrays
import proofs.«159673_j64854006170165_1_alg».proof.Proof.RefStages
import proofs.«159673_j64854006170165_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

set_option maxHeartbeats 4000000 in
/-- Both idealized programs end with the stacked projected layers of the arguments and the shifted index table. -/
theorem algebraic : Cert.algebraic_KernelIdeal_ReferenceIdeal := by
  intro m ρ m' ρ' _ hagree
  refine ⟨fun c => Cert.KernelIdeal.Net.X (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.KernelIdeal.Net.IDX (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.RunAll.run_all m ρ)
    exact ⟨(h c _ (Cert.KernelIdeal.Gen.mem_uc Cert.KernelIdeal.main_v58 (by decide))).trans (Cert.KernelIdeal.Net.W10_v58 m ρ c),
      (h c _ (Cert.KernelIdeal.Gen.mem_uc Cert.KernelIdeal.main_v67 (by decide))).trans (Cert.KernelIdeal.Net.W10_v67 m ρ c),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c),
      (h c _ (Cert.KernelIdeal.Gen.mem_uc Cert.KernelIdeal.main_arg10 (by decide))).trans (Cert.KernelIdeal.Gen.W10_main_arg10 m ρ c),
      (h c _ (Cert.KernelIdeal.Gen.mem_uc Cert.KernelIdeal.main_arg11 (by decide))).trans (Cert.KernelIdeal.Gen.W10_main_arg11 m ρ c),
      (h c _ (Cert.KernelIdeal.Gen.mem_uc Cert.KernelIdeal.main_arg12 (by decide))).trans (Cert.KernelIdeal.Gen.W10_main_arg12 m ρ c),
      (h c _ (Cert.KernelIdeal.Gen.mem_uc Cert.KernelIdeal.main_arg13 (by decide))).trans (Cert.KernelIdeal.Gen.W10_main_arg13 m ρ c),
      (h c _ (Cert.KernelIdeal.Gen.mem_uc Cert.KernelIdeal.main_arg14 (by decide))).trans (Cert.KernelIdeal.Gen.W10_main_arg14 m ρ c),
      (h c _ (Cert.KernelIdeal.Gen.mem_uc Cert.KernelIdeal.main_arg15 (by decide))).trans (Cert.KernelIdeal.Gen.W10_main_arg15 m ρ c),
      (h c _ (Cert.KernelIdeal.Gen.mem_uc Cert.KernelIdeal.main_arg16 (by decide))).trans (Cert.KernelIdeal.Gen.W10_main_arg16 m ρ c),
      (h c _ (Cert.KernelIdeal.Gen.mem_uc Cert.KernelIdeal.main_arg17 (by decide))).trans (Cert.KernelIdeal.Gen.W10_main_arg17 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17⟩ := hagree c
      refine (Cert.ReferenceIdeal.Net.res_eq m' c).trans ?_
      rw [h0, h1, h2, h4, h5, h6, h7, h8, h9, h10, h11, h12, h13, h14, h15, h16, h17]
      exact (Cert.Bridge.X_eq _ _ _ _ _ _ _ _ _ _ _ _ _ _ _ _ _).symm
    · obtain ⟨-, -, -, h3, -, -, -, -, -, -, -, -, -, -, -, -, -, -⟩ := hagree c
      rw [h3]
      rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
